-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v72)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x512 : Shape := ⟨2, ![262144, 512]⟩
abbrev S2097152 : Shape := ⟨1, ![2097152]⟩
abbrev S512x128 : Shape := ⟨2, ![512, 128]⟩
abbrev S128 : Shape := ⟨1, ![128]⟩
abbrev S128x16 : Shape := ⟨2, ![128, 16]⟩
abbrev S16 : Shape := ⟨1, ![16]⟩
abbrev S1024 : Shape := ⟨1, ![1024]⟩
abbrev S_ : Shape := ⟨0, ![]⟩

class Facts : Prop where
  bcast_S_S262144x512 : S_.BroadcastsInDim S262144x512 (![] : Fin 0 → Fin S262144x512.rank)
  reducesTo_S262144x512_S_d0_1 : S262144x512.ReducesTo [0, 1] S_
  h_S_ : 0 < S_.numel
  bcast_S_S2097152 : S_.BroadcastsInDim S2097152 (![] : Fin 0 → Fin S2097152.rank)
  reducesTo_S2097152_S_d0 : S2097152.ReducesTo [0] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg4 : FVec F S128x16 .f32) (main_arg5 : FVec F S16 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x16 .f32 := Host.absf main_arg4
  let main_cst_6 : FVec F S_ .f32 := constant S_ .f32 0x7F800000#32
  let main_v20 : FVec F S128x16 .f32 := broadcastInDim S128x16 ![] bcast_S_S128x16 main_cst_6
  let main_v21 : IVec S128x16 1 := cmpf .olt main_v19 main_v20
  let main_c_7 : IVec S_ 1 := constantI S_ 1 1#1
  let main_v22 : IVec S_ 1 := (fun x v => Host.reduce IntOp.andi x v reducesTo_S128x16_S_d0_1 h_S_) main_v21 main_c_7
  let main_v23 : IVec S_ 1 := andi main_v18 main_v22
  let main_v24 : FVec F S16 .f32 := Host.absf main_arg5
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  main_v28

def fn {F : FTy → Type} [FloatOps F] (main_arg0 : FVec F S262144x512 .f32) (main_arg1 : FVec F S2097152 .f32) (main_arg2 : FVec F S512x128 .f32) (main_arg3 : FVec F S128 .f32) (main_arg4 : FVec F S128x16 .f32) (main_arg5 : FVec F S16 .f32) (main_arg6 : IVec S2097152 32) (main_arg7 : IVec S2097152 32) (main_arg8 : IVec S1024 32) (main_arg9 : IVec S1024 32) : IVec S_ 1 :=
  let main_v0 : FVec F S262144x512 .f32 := Host.absf main_arg0
  let main_cst : FVec F S_ .f32 := constant S_ .f32 0x7F800000#32
  let main_v1 : FVec F S262144x512 .f32 := broadcastInDim S262144x512 ![] bcast_S_S262144x512 main_cst
  let main_v2 : IVec S262144x512 1 := cmpf .olt main_v0 main_v1
  let main_c : IVec S_ 1 := constantI S_ 1 1#1
  let main_v3 : IVec S_ 1 := (fun x v => Host.reduce IntOp.andi x v reducesTo_S262144x512_S_d0_1 h_S_) main_v2 main_c
  let main_v4 : FVec F S2097152 .f32 := Host.absf main_arg1
  let main_cst_0 : FVec F S_ .f32 := constant S_ .f32 0x7F800000#32
  let main_v5 : FVec F S2097152 .f32 := broadcastInDim S2097152 ![] bcast_S_S2097152 main_cst_0
  let main_v6 : IVec S2097152 1 := cmpf .olt main_v4 main_v5
  let main_c_1 : IVec S_ 1 := constantI S_ 1 1#1
  let main_v7 : IVec S_ 1 := (fun x v => Host.reduce IntOp.andi x v reducesTo_S2097152_S_d0 h_S_) main_v6 main_c_1
  let main_v8 : IVec S_ 1 := andi main_v3 main_v7
  let main_v9 : FVec F S512x128 .f32 := Host.absf main_arg2
  let main_cst_2 : FVec F S_ .f32 := constant S_ .f32 0x7F800000#32
  let main_v10 : FVec F S512x128 .f32 := broadcastInDim S512x128 ![] bcast_S_S512x128 main_cst_2
  let main_v11 : IVec S512x128 1 := cmpf .olt main_v9 main_v10
  let main_c_3 : IVec S_ 1 := constantI S_ 1 1#1
  let main_v12 : IVec S_ 1 := (fun x v => Host.reduce IntOp.andi x v reducesTo_S512x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S262144x512 : Shape := ⟨2, ![262144, 512]⟩
abbrev S2097152 : Shape := ⟨1, ![2097152]⟩
abbrev S512x128 : Shape := ⟨2, ![512, 128]⟩
abbrev S128 : Shape := ⟨1, ![128]⟩
abbrev S128x16 : Shape := ⟨2, ![128, 16]⟩
abbrev S16 : Shape := ⟨1, ![16]⟩
abbrev S1024 : Shape := ⟨1, ![1024]⟩
abbrev S_ : Shape := ⟨0, ![]⟩
abbrev S262144 : Shape := ⟨1, ![262144]⟩
abbrev S2097152x1 : Shape := ⟨2, ![2097152, 1]⟩
abbrev S262144x1 : Shape := ⟨2, ![262144, 1]⟩
abbrev S262144x128 : Shape := ⟨2, ![262144, 128]⟩
abbrev S4096x512 : Shape := ⟨2, ![4096, 512]⟩
abbrev S4096x1 : Shape := ⟨2, ![4096, 1]⟩
abbrev S4096x128 : Shape := ⟨2, ![4096, 128]⟩
abbrev S2097152x128 : Shape := ⟨2, ![2097152, 128]⟩
abbrev S1x128 : Shape := ⟨2, ![1, 128]⟩
abbrev S262144x16 : Shape := ⟨2, ![262144, 16]⟩
abbrev S4096x16 : Shape := ⟨2, ![4096, 16]⟩
abbrev S2097152x16 : Shape := ⟨2, ![2097152, 16]⟩
abbrev S1x16 : Shape := ⟨2, ![1, 16]⟩
abbrev S1 : Shape := ⟨1, ![1]⟩
abbrev S1025 : Shape := ⟨1, ![1025]⟩
abbrev S1024x1 : Shape := ⟨2, ![1024, 1]⟩
abbrev S1024x16 : Shape := ⟨2, ![1024, 16]⟩

abbrev nBuf : Space → Nat
  | .hbm => 107
  | .vmem => 14
  | .smem => 0
  | _ => 0

abbrev bufTy : (tb : Table) → Fin (tcTables nBuf tb) → BufTy
  | .hbm, ⟨0, _⟩ => ⟨S262144x512, .f32⟩
  | .hbm, ⟨1, _⟩ => ⟨S2097152, .f32⟩
  | .hbm, ⟨2, _⟩ => ⟨S512x128, .f32⟩
  | .hbm, ⟨3, _⟩ => ⟨S128, .f32⟩
  | .hbm, ⟨4, _⟩ => ⟨S128x16, .f32⟩
  | .hbm, ⟨5, _⟩ => ⟨S16, .f32⟩
  | .hbm, ⟨6, _⟩ => ⟨S2097152, .i32⟩
  | .hbm, ⟨7, _⟩ => ⟨S2097152, .i32⟩
  | .hbm, ⟨8, _⟩ => ⟨S1024, .i32⟩
  | .hbm, ⟨9, _⟩ => ⟨S1024, .i32⟩
  | .hbm, ⟨10, _⟩ => ⟨S_, .f32⟩
  | .hbm, ⟨11, _⟩ => ⟨S2097152, .f32⟩
  | .hbm, ⟨12, _⟩ => ⟨S_, .f32⟩
  | .hbm, ⟨13, _⟩ => ⟨S262144, .f32⟩
  | .hbm, ⟨14, _⟩ => ⟨S2097152x1, .i32⟩
  | .hbm, ⟨15, _⟩ => ⟨S262144, .f32⟩
  | .hbm, ⟨16, _⟩ => ⟨S_, .f32⟩
  | .hbm, ⟨17, _⟩ => ⟨S262144, .f32⟩
  | .hbm, ⟨18, _⟩ => ⟨S2097152x1, .i32⟩
  | .hbm, ⟨19, _⟩ => ⟨S262144, .f32⟩
  | .hbm, ⟨20, _⟩ => ⟨S_, .f32⟩
  | .hbm, ⟨21, _⟩ => ⟨S262144, .f32⟩
  | .hbm, ⟨22, _⟩ => ⟨S262144, .i1⟩
  | .hbm, ⟨23, _⟩ => ⟨S_, .f32⟩
  | .hbm, ⟨24, _⟩ => ⟨S262144, .f32⟩
  | .hbm, ⟨25, _⟩ => ⟨S262144, .f32⟩
  | .hbm, ⟨26, _⟩ => ⟨S262144, .f32⟩
  | .hbm, ⟨27, _⟩ => ⟨S_, .f32⟩
  | .hbm, ⟨28, _⟩ => ⟨S_, .f32⟩
  | .hbm, ⟨29, _⟩ => ⟨S262144, .f32⟩
  | .hbm, ⟨30, _⟩ => ⟨S262144, .f32⟩
  | .hbm, ⟨31, _⟩ => ⟨S_, .f32⟩
  | .hbm, ⟨32, _⟩ => ⟨S262144, .f32⟩
  | .hbm, ⟨33, _⟩ => ⟨S262144, .i1⟩
  | .hbm, ⟨34, _⟩ => ⟨S_, .f32⟩
  | .hbm, ⟨35, _⟩ => ⟨S262144, .f32⟩
  | .hbm, ⟨36, _⟩ => ⟨S262144, .f32⟩
  | .hbm, ⟨37, _⟩ => ⟨S262144, .f32⟩
  | .hbm, ⟨38, _⟩ => ⟨S_, .f32⟩
  | .hbm, ⟨39, _⟩ => ⟨S_, .f32⟩
  | .hbm, ⟨40, _⟩ => ⟨S262144, .f32⟩
  | .hbm, ⟨41, _⟩ => ⟨S262144, .f32⟩
  | .hbm, ⟨42, _⟩ => ⟨S262144x1, .f32⟩
  | .hbm, ⟨43, _⟩ => ⟨S262144x128, .f32⟩
  | .hbm, ⟨44, _⟩ => ⟨S_, .i32⟩
  | .hbm, ⟨45, _⟩ => ⟨S2097152, .i32⟩
  | .hbm, ⟨46, _⟩ => ⟨S2097152, .i1⟩
  | .hbm, ⟨47, _⟩ => ⟨S_, .i32⟩
  | .hbm, ⟨48, _⟩ => ⟨S2097152, .i32⟩
  | .hbm, ⟨49, _⟩ => ⟨S2097152, .i32⟩
  | .hbm, ⟨50, _⟩ => ⟨S2097152, .i32⟩
  | .hbm, ⟨51, _⟩ => ⟨S2097152x1, .i32⟩
  | .hbm, ⟨52, _⟩ => ⟨S2097152x128, .f32⟩
  | .hbm, ⟨53, _⟩ => ⟨S2097152x1, .f32⟩
  | .hbm, ⟨54, _⟩ => ⟨S2097152x128, .f32⟩
  | .hbm, ⟨55, _⟩ => ⟨S2097152x128, .f32⟩
  | .hbm, ⟨56, _⟩ => ⟨S_, .f32⟩
  | .hbm, ⟨57, _⟩ => ⟨S262144x128, .f32⟩
  | .hbm, ⟨58, _⟩ => ⟨S2097152x1, .i32⟩
  | .hbm, ⟨59, _⟩ => ⟨S262144x128, .f32⟩
  | .hbm, ⟨60, _⟩ => ⟨S262144x1, .f32⟩
  | .hbm, ⟨61, _⟩ => ⟨S262144x128, .f32⟩
  | .hbm, ⟨62, _⟩ => ⟨S262144x128, .f32⟩
  | .hbm, ⟨63, _⟩ => ⟨S1x128, .f32⟩
  | .hbm, ⟨64, _⟩ => ⟨S262144x128, .f32⟩
  | .hbm, ⟨65, _⟩ => ⟨S262144x128, .f32⟩
  | .hbm, ⟨66, _⟩ => ⟨S262144x1, .f32⟩
  | .hbm, ⟨67, _⟩ => ⟨S262144x16, .f32⟩
  | .hbm, ⟨68, _⟩ => ⟨S_, .i32⟩
  | .hbm, ⟨69, _⟩ => ⟨S2097152, .i32⟩
  | .hbm, ⟨70, _⟩ => ⟨S2097152, .i1⟩
  | .hbm, ⟨71, _⟩ => ⟨S_, .i32⟩
  | .hbm, ⟨72, _⟩ => ⟨S2097152, .i32⟩
  | .hbm, ⟨73, _⟩ => ⟨S2097152, .i32⟩
  | .hbm, ⟨74, _⟩ => ⟨S2097152, .i32⟩
  | .hbm, ⟨75, _⟩ => ⟨S2097152x1, .i32⟩
  | .hbm, ⟨76, _⟩ => ⟨S2097152x16, .f32⟩
  | .hbm, ⟨77, _⟩ => ⟨S2097152x1, .f32⟩
  | .hbm, ⟨78, _⟩ => ⟨S2097152x16, .f32⟩
  | .hbm, ⟨79, _⟩ => ⟨S2097152x16, .f32⟩
  | .hbm, ⟨80, _⟩ => ⟨S_, .f32⟩
  | .hbm, ⟨81, _⟩ => ⟨S262144x16, .f32⟩
  | .hbm, ⟨82, _⟩ => ⟨S2097152x1, .i32⟩
  | .hbm, ⟨83, _⟩ => ⟨S262144x16, .f32⟩
  | .hbm, ⟨84, _⟩ => ⟨S262144x1, .f32⟩
  | .hbm, ⟨85, _⟩ => ⟨S262144x16, .f32⟩
  | .hbm, ⟨86, _⟩ => ⟨S262144x16, .f32⟩
  | .hbm, ⟨87, _⟩ => ⟨S1x16, .f32⟩
  | .hbm, ⟨88, _⟩ => ⟨S262144x16, .f32⟩
  | .hbm, ⟨89, _⟩ => ⟨S262144x16, .f32⟩
  | .hbm, ⟨90, _⟩ => ⟨S_, .i32⟩
  | .hbm, ⟨91, _⟩ => ⟨S1, .i32⟩
  | .hbm, ⟨92, _⟩ => ⟨S_, .i32⟩
  | .hbm, ⟨93, _⟩ => ⟨S_, .i32⟩
  | .hbm, ⟨94, _⟩ => ⟨S1024, .i32⟩
  | .hbm, ⟨95, _⟩ => ⟨S1025, .i32⟩
  | .hbm, ⟨96, _⟩ => ⟨S1024, .i32⟩
  | .hbm, ⟨97, _⟩ => ⟨S1024, .i32⟩
  | .hbm, ⟨98, _⟩ => ⟨S_, .i32⟩
  | .hbm, ⟨99, _⟩ => ⟨S1024, .i32⟩
  | .hbm, ⟨100, _⟩ => ⟨S1024, .i1⟩
  | .hbm, ⟨101, _⟩ => ⟨S_, .i32⟩
  | .hbm, ⟨102, _⟩ => ⟨S1024, .i32⟩
  | .hbm, ⟨103, _⟩ => ⟨S1024, .i32⟩
  | .hbm, ⟨104, _⟩ => ⟨S1024, .i32⟩
  | .hbm, ⟨105, _⟩ => ⟨S1024x1, .i32⟩
  | .hbm, ⟨106, _⟩ => ⟨S1024x16, .f32⟩
  | .local _ .vmem, ⟨0, _⟩ => ⟨S4096x512, .f32⟩
  | .local _ .vmem, ⟨1, _⟩ => ⟨S4096x512, .f32⟩
  | .local _ .vmem, ⟨2, _⟩ => ⟨S4096x1, .f32⟩
  | .local _ .vmem, ⟨3, _⟩ => ⟨S4096x1, .f32⟩
  | .local _ .vmem, ⟨4, _⟩ => ⟨S512x128, .f32⟩
  | .local _ .vmem, ⟨5, _⟩ => ⟨S4096x128, .f32⟩
  | .local _ .vmem, ⟨6, _⟩ => ⟨S4096x128, .f32⟩
  | .local _ .vmem, ⟨7, _⟩ => ⟨S4096x128, .f32⟩
  | .local _ .vmem, ⟨8, _⟩ => ⟨S4096x128, .f32⟩
  | .local _ .vmem, ⟨9, _⟩ => ⟨S4096x1, .f32⟩
  | .local _ .vmem, ⟨10, _⟩ => ⟨S4096x1, .f32⟩
  | .local _ .vmem, ⟨11, _⟩ => ⟨S128x16, .f32⟩
  | .local _ .vmem, ⟨12, _⟩ => ⟨S4096x16, .f32⟩
  | .local _ .vmem, ⟨13, _⟩ => ⟨S4096x16, .f32⟩
  | _, _ => ⟨S262144x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst_1 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_2 : Ref sig .tc := ⟨.hbm, 20, rfl⟩
abbrev main_v7 : Ref sig .tc := ⟨.hbm, 21, rfl⟩
abbrev main_v8 : Ref sig .tc := ⟨.hbm, 22, rfl⟩
abbrev main_cst_3 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_4 : Ref sig .tc := ⟨.hbm, 27, rfl⟩
abbrev main_call0_v0 : Ref sig .tc := ⟨.hbm, 28, rfl⟩
abbrev main_call0_v1 : Ref sig .tc := ⟨.hbm, 29, rfl⟩
abbrev main_v12 : Ref sig .tc := ⟨.hbm, 30, rfl⟩
abbrev main_cst_5 : Ref sig .tc := ⟨.hbm, 31, rfl⟩
abbrev main_v13 : Ref sig .tc := ⟨.hbm, 32, rfl⟩
abbrev main_v14 : Ref sig .tc := ⟨.hbm, 33, rfl⟩
abbrev main_cst_6 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst_7 : Ref sig .tc := ⟨.hbm, 38, rfl⟩
abbrev main_call1_v0 : Ref sig .tc := ⟨.hbm, 39, rfl⟩
abbrev main_call1_v1 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_c : Ref sig .tc := ⟨.hbm, 44, rfl⟩
abbrev main_v21 : Ref sig .tc := ⟨.hbm, 45, rfl⟩
abbrev main_v22 : Ref sig .tc := ⟨.hbm, 46, rfl⟩
abbrev main_c_8 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_cst_9 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_c_10 : Ref sig .tc := ⟨.hbm, 68, rfl⟩
abbrev main_v42 : Ref sig .tc := ⟨.hbm, 69, rfl⟩
abbrev main_v43 : Ref sig .tc := ⟨.hbm, 70, rfl⟩
abbrev main_c_11 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_cst_12 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_c_13 : Ref sig .tc := ⟨.hbm, 90, rfl⟩
abbrev main_v61 : Ref sig .tc := ⟨.hbm, 91, rfl⟩
abbrev main_call2_call0_c : Ref sig .tc := ⟨.hbm, 92, rfl⟩
abbrev main_call2_call0_v0 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_c_14 : Ref sig .tc := ⟨.hbm, 98, rfl⟩
abbrev main_v66 : Ref sig .tc := ⟨.hbm, 99, rfl⟩
abbrev main_v67 : Ref sig .tc := ⟨.hbm, 100, rfl⟩
abbrev main_c_15 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4096x16 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S2097152 : S_.BroadcastsInDim S2097152 (![] : Fin 0 → Fin S2097152.rank)
  bcast_S_S262144 : S_.BroadcastsInDim S262144 (![] : Fin 0 → Fin S262144.rank)
  bcast_S2097152_S2097152x1_0 : S2097152.BroadcastsInDim S2097152x1 (![0] : Fin 1 → Fin S2097152x1.rank)
  shapeCasts_S262144_S262144x1 : S262144.ShapeCasts S262144x1
  inb_S4096x512_S4096x512_0_0 : ∀ a, (![0, 0] : Fin 2 → Nat) a + S4096x512.size a ≤ S4096x512.size a
  h_S4096x512 : 0 < S4096x512.numel
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  broadcasts_S4096x1_S4096x512 : S4096x1.Broadcasts S4096x512
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  inb_S4096x128_S4096x128_0_0 : ∀ a, (![0, 0] : Fin 2 → Nat) a + S4096x128.size a ≤ S4096x128.size a
  h_S4096x128 : 0 < S4096x128.numel
  bcast_S2097152x1_S2097152x128_0_1 : S2097152x1.BroadcastsInDim S2097152x128 (![0, 1] : Fin 2 → Fin S2097152x128.rank)
  bcast_S_S262144x128 : S_.BroadcastsInDim S262144x128 (![] : Fin 0 → Fin S262144x128.rank)
  bcast_S262144_S262144x1_0 : S262144.BroadcastsInDim S262144x1 (![0] : Fin 1 → Fin S262144x1.rank)
  bcast_S262144x1_S262144x128_0_1 : S262144x1.BroadcastsInDim S262144x128 (![0, 1] : Fin 2 → Fin S262144x128.rank)
  bcast_S128_S1x128_1 : S128.BroadcastsInDim S1x128 (![1] : Fin 1 → Fin S1x128.rank)
  bcast_S1x128_S262144x128_0_1 : S1x128.BroadcastsInDim S262144x128 (![0, 1] : Fin 2 → Fin S262144x128.rank)
  shapeCasts_S4096x128_S4096x128 : S4096x128.ShapeCasts S4096x128
  broadcasts_S4096x1_S4096x128 : S4096x1.Broadcasts S4096x128
  inb_S128x16_S128x16_0_0 : ∀ a, (![0, 0] : Fin 2 → Nat) a + S128x16.size a ≤ S128x16.size a
  h_S128x16 : 0 < S128x16.numel
  inb_S4096x16_S4096x16_0_0 : ∀ a, (![0, 0] : Fin 2 → Nat) a + S4096x16.size a ≤ S4096x16.size a
  h_S4096x16 : 0 < S4096x16.numel
  bcast_S2097152x1_S2097152x16_0_1 : S2097152x1.BroadcastsInDim S2097152x16 (![0, 1] : Fin 2 → Fin S2097152x16.rank)
  bcast_S_S262144x16 : S_.BroadcastsInDim S262144x16 (![] : Fin 0 → Fin S262144x16.rank)
  bcast_S262144x1_S262144x16_0_1 : S262144x1.BroadcastsInDim S262144x16 (![0, 1] : Fin 2 → Fin S262144x16.rank)
  bcast_S16_S1x16_1 : S16.BroadcastsInDim S1x16 (![1] : Fin 1 → Fin S1x16.rank)
  bcast_S1x16_S262144x16_0_1 : S1x16.BroadcastsInDim S262144x16 (![0, 1] : Fin 2 → Fin S262144x16.rank)
  bcast_S_S1 : S_.BroadcastsInDim S1 (![] : Fin 0 → Fin S1.rank)
  bcast_S_S_ : S_.BroadcastsInDim S_ (![] : Fin 0 → Fin S_.rank)
  reduceWindows_S1024_S1024_w1024s1p1023_0 : S1024.ReduceWindows (![1024] : Fin 1 → Nat) ![1] ![1023] ![0] S1024
  h_S_ : 0 < S_.numel
  concatenates_S1_S1024_S1025_d0 : Shape.Concatenates [S1, S1024] S1025 0
  slices_S1025_S1024_0 : S1025.Slices ![0] S1024
  bcast_S_S1024 : S_.BroadcastsInDim S1024 (![] : Fin 0 → Fin S1024.rank)
  bcast_S1024_S1024x1_0 : S1024.BroadcastsInDim S1024x1 (![0] : Fin 1 → Fin S1024x1.rank)
  scatter_S262144_S2097152x1_S2097152_n_0_0_1_wf : ScatterDims.WF S262144 S2097152x1 S2097152 [] [0] [0] 1
  dot_S4096x512_S512x128_S4096x128_1_0_0_1_n_n_wf : DotDims.WF S4096x512 S512x128 S4096x128 [1] [0] [0] [1] [] []
  gather_S262144x128_S2097152x1_S2097152x128_1_0_n_n_0_1_1128_wf : GatherDims.WF S262144x128 S2097152x1 S2097152x128 [1] [0] [] [0] [] 1 ![1, 128]
  scatter_S262144x128_S2097152x1_S2097152x128_1_0_0_1_wf : ScatterDims.WF S262144x128 S2097152x1 S2097152x128 [1] [0] [0] 1
  dot_S4096x128_S128x16_S4096x16_1_0_0_1_n_n_wf : DotDims.WF S4096x128 S128x16 S4096x16 [1] [0] [0] [1] [] []
  gather_S262144x16_S2097152x1_S2097152x16_1_0_n_n_0_1_116_wf : GatherDims.WF S262144x16 S2097152x1 S2097152x16 [1] [0] [] [0] [] 1 ![1, 16]
  scatter_S262144x16_S2097152x1_S2097152x16_1_0_0_1_wf : ScatterDims.WF S262144x16 S2097152x1 S2097152x16 [1] [0] [0] 1
  gather_S262144x16_S1024x1_S1024x16_1_0_n_n_0_1_116_wf : GatherDims.WF S262144x16 S1024x1 S1024x16 [1] [0] [] [0] [] 1 ![1, 16]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x512.size a ≤ S262144x512.size a
  hwx0_0 : ∀ i : grid0.Coords, EltTy.bits .f32 = 32 ∨ (Rect.block (s := S262144x512) S4096x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x1.size a ≤ S262144x1.size a
  hwx0_1 : ∀ i : grid0.Coords, EltTy.bits .f32 = 32 ∨ (Rect.block (s := S262144x1) S4096x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x128.size a ≤ S512x128.size a
  hwx0_2 : ∀ i : grid0.Coords, EltTy.bits .f32 = 32 ∨ (Rect.block (s := S512x128) S512x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x128.size a ≤ S262144x128.size a
  hwx0_3 : ∀ i : grid0.Coords, EltTy.bits .f32 = 32 ∨ (Rect.block (s := S262144x128) S4096x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x128.size a ≤ S262144x128.size a
  hwx1_0 : ∀ i : grid1.Coords, EltTy.bits .f32 = 32 ∨ (Rect.block (s := S262144x128) S4096x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x1.size a ≤ S262144x1.size a
  hwx1_1 : ∀ i : grid1.Coords, EltTy.bits .f32 = 32 ∨ (Rect.block (s := S262144x1) S4096x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x16.size a ≤ S128x16.size a
  hwx1_2 : ∀ i : grid1.Coords, EltTy.bits .f32 = 32 ∨ (Rect.block (s := S128x16) S128x16.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4096x16.size a ≤ S262144x16.size a
  hwx1_3 : ∀ i : grid1.Coords, EltTy.bits .f32 = 32 ∨ (Rect.block (s := S262144x16) S4096x16.size (cc1_transform_3 i) (hinb1_3 i)).WholeWords (EltTy.packing .f32)

variable [Facts₀]

def scatter_S262144_S2097152x1_S2097152_n_0_0_1 : ScatterDims S262144 S2097152x1 S2097152 where
  updateWindowDims := []
  insertedWindowDims := [0]
  scatterDimsToOperandDims := [0]
  indexVectorDim := 1
  wf := scatter_S262144_S2097152x1_S2097152_n_0_0_1_wf
def dot_S4096x512_S512x128_S4096x128_1_0_0_1_n_n : DotDims S4096x512 S512x128 S4096x128 where
  lhsContracting := [1]
  rhsContracting := [0]
  lhsNonContracting := [0]
  rhsNonContracting := [1]
  lhsBatch := []
  rhsBatch := []
  wf := dot_S4096x512_S512x128_S4096x128_1_0_0_1_n_n_wf
def gather_S262144x128_S2097152x1_S2097152x128_1_0_n_n_0_1_1128 : GatherDims S262144x128 S2097152x1 S2097152x128 where
  offsetDims := [1]
  collapsedSliceDims := [0]
  operandBatchingDims := []
  startIndicesBatchingDims := []
  startIndexMap := [0]
  indexVectorDim := 1
  sliceSizes := ![1, 128]
  wf := gather_S262144x128_S2097152x1_S2097152x128_1_0_n_n_0_1_1128_wf
def scatter_S262144x128_S2097152x1_S2097152x128_1_0_0_1 : ScatterDims S262144x128 S2097152x1 S2097152x128 where
  updateWindowDims := [1]
  insertedWindowDims := [0]
  scatterDimsToOperandDims := [0]
  indexVectorDim := 1
  wf := scatter_S262144x128_S2097152x1_S2097152x128_1_0_0_1_wf
def dot_S4096x128_S128x16_S4096x16_1_0_0_1_n_n : DotDims S4096x128 S128x16 S4096x16 where
  lhsContracting := [1]
  rhsContracting := [0]
  lhsNonContracting := [0]
  rhsNonContracting := [1]
  lhsBatch := []
  rhsBatch := []
  wf := dot_S4096x128_S128x16_S4096x16_1_0_0_1_n_n_wf
def gather_S262144x16_S2097152x1_S2097152x16_1_0_n_n_0_1_116 : GatherDims S262144x16 S2097152x1 S2097152x16 where
  offsetDims := [1]
  collapsedSliceDims := [0]
  operandBatchingDims := []
  startIndicesBatchingDims := []
  startIndexMap := [0]
  indexVectorDim := 1
  sliceSizes := ![1, 16]
  wf := gather_S262144x16_S2097152x1_S2097152x16_1_0_n_n_0_1_116_wf
def scatter_S262144x16_S2097152x1_S2097152x16_1_0_0_1 : ScatterDims S262144x16 S2097152x1 S2097152x16 where
  updateWindowDims := [1]
  insertedWindowDims := [0]
  scatterDimsToOperandDims := [0]
  indexVectorDim := 1
  wf := scatter_S262144x16_S2097152x1_S2097152x16_1_0_0_1_wf
def gather_S262144x16_S1024x1_S1024x16_1_0_n_n_0_1_116 : GatherDims S262144x16 S1024x1 S1024x16 where
  offsetDims := [1]
  collapsedSliceDims := [0]
  operandBatchingDims := []
  startIndicesBatchingDims := []
  startIndexMap := [0]
  indexVectorDim := 1
  sliceSizes := ![1, 16]
  wf := gather_S262144x16_S1024x1_S1024x16_1_0_n_n_0_1_116_wf

abbrev win0_0 : Pipeline.Window sig grid0 :=
  Pipeline.Window.ofSpec (Memref.whole main_arg0) S4096x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S4096x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S4096x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v39) S4096x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v40) S4096x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v41) S4096x16.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S262144x512 : Shape := ⟨2, ![262144, 512]⟩
abbrev S2097152 : Shape := ⟨1, ![2097152]⟩
abbrev S512x128 : Shape := ⟨2, ![512, 128]⟩
abbrev S128 : Shape := ⟨1, ![128]⟩
abbrev S128x16 : Shape := ⟨2, ![128, 16]⟩
abbrev S16 : Shape := ⟨1, ![16]⟩
abbrev S1024 : Shape := ⟨1, ![1024]⟩
abbrev S_ : Shape := ⟨0, ![]⟩
abbrev S262144 : Shape := ⟨1, ![262144]⟩
abbrev S2097152x1 : Shape := ⟨2, ![2097152, 1]⟩
abbrev S262144x1 : Shape := ⟨2, ![262144, 1]⟩
abbrev S262144x128 : Shape := ⟨2, ![262144, 128]⟩
abbrev S2097152x128 : Shape := ⟨2, ![2097152, 128]⟩
abbrev S1x128 : Shape := ⟨2, ![1, 128]⟩
abbrev S262144x16 : Shape := ⟨2, ![262144, 16]⟩
abbrev S2097152x16 : Shape := ⟨2, ![2097152, 16]⟩
abbrev S1x16 : Shape := ⟨2, ![1, 16]⟩
abbrev S1 : Shape := ⟨1, ![1]⟩
abbrev S1025 : Shape := ⟨1, ![1025]⟩
abbrev S1024x1 : Shape := ⟨2, ![1024, 1]⟩
abbrev S1024x16 : Shape := ⟨2, ![1024, 16]⟩

abbrev nBuf : Space → Nat
  | .hbm => 114
  | .vmem => 0
  | .smem => 0
  | _ => 0

abbrev bufTy : (tb : Table) → Fin (tcTables nBuf tb) → BufTy
  | .hbm, ⟨0, _⟩ => ⟨S262144x512, .f32⟩
  | .hbm, ⟨1, _⟩ => ⟨S2097152, .f32⟩
  | .hbm, ⟨2, _⟩ => ⟨S512x128, .f32⟩
  | .hbm, ⟨3, _⟩ => ⟨S128, .f32⟩
  | .hbm, ⟨4, _⟩ => ⟨S128x16, .f32⟩
  | .hbm, ⟨5, _⟩ => ⟨S16, .f32⟩
  | .hbm, ⟨6, _⟩ => ⟨S2097152, .i32⟩
  | .hbm, ⟨7, _⟩ => ⟨S2097152, .i32⟩
  | .hbm, ⟨8, _⟩ => ⟨S1024, .i32⟩
  | .hbm, ⟨9, _⟩ => ⟨S1024, .i32⟩
  | .hbm, ⟨10, _⟩ => ⟨S_, .f32⟩
  | .hbm, ⟨11, _⟩ => ⟨S2097152, .f32⟩
  | .hbm, ⟨12, _⟩ => ⟨S_, .f32⟩
  | .hbm, ⟨13, _⟩ => ⟨S262144, .f32⟩
  | .hbm, ⟨14, _⟩ => ⟨S2097152x1, .i32⟩
  | .hbm, ⟨15, _⟩ => ⟨S262144, .f32⟩
  | .hbm, ⟨16, _⟩ => ⟨S_, .f32⟩
  | .hbm, ⟨17, _⟩ => ⟨S262144, .f32⟩
  | .hbm, ⟨18, _⟩ => ⟨S2097152x1, .i32⟩
  | .hbm, ⟨19, _⟩ => ⟨S262144, .f32⟩
  | .hbm, ⟨20, _⟩ => ⟨S_, .f32⟩
  | .hbm, ⟨21, _⟩ => ⟨S262144, .f32⟩
  | .hbm, ⟨22, _⟩ => ⟨S262144, .i1⟩
  | .hbm, ⟨23, _⟩ => ⟨S_, .f32⟩
  | .hbm, ⟨24, _⟩ => ⟨S262144, .f32⟩
  | .hbm, ⟨25, _⟩ => ⟨S262144, .f32⟩
  | .hbm, ⟨26, _⟩ => ⟨S262144, .f32⟩
  | .hbm, ⟨27, _⟩ => ⟨S_, .f32⟩
  | .hbm, ⟨28, _⟩ => ⟨S_, .f32⟩
  | .hbm, ⟨29, _⟩ => ⟨S262144, .f32⟩
  | .hbm, ⟨30, _⟩ => ⟨S262144, .f32⟩
  | .hbm, ⟨31, _⟩ => ⟨S_, .f32⟩
  | .hbm, ⟨32, _⟩ => ⟨S262144, .f32⟩
  | .hbm, ⟨33, _⟩ => ⟨S262144, .i1⟩
  | .hbm, ⟨34, _⟩ => ⟨S_, .f32⟩
  | .hbm, ⟨35, _⟩ => ⟨S262144, .f32⟩
  | .hbm, ⟨36, _⟩ => ⟨S262144, .f32⟩
  | .hbm, ⟨37, _⟩ => ⟨S262144, .f32⟩
  | .hbm, ⟨38, _⟩ => ⟨S_, .f32⟩
  | .hbm, ⟨39, _⟩ => ⟨S_, .f32⟩
  | .hbm, ⟨40, _⟩ => ⟨S262144, .f32⟩
  | .hbm, ⟨41, _⟩ => ⟨S262144, .f32⟩
  | .hbm, ⟨42, _⟩ => ⟨S262144x1, .f32⟩
  | .hbm, ⟨43, _⟩ => ⟨S262144x512, .f32⟩
  | .hbm, ⟨44, _⟩ => ⟨S262144x512, .f32⟩
  | .hbm, ⟨45, _⟩ => ⟨S262144x128, .f32⟩
  | .hbm, ⟨46, _⟩ => ⟨S_, .i32⟩
  | .hbm, ⟨47, _⟩ => ⟨S2097152, .i32⟩
  | .hbm, ⟨48, _⟩ => ⟨S2097152, .i1⟩
  | .hbm, ⟨49, _⟩ => ⟨S_, .i32⟩
  | .hbm, ⟨50, _⟩ => ⟨S2097152, .i32⟩
  | .hbm, ⟨51, _⟩ => ⟨S2097152, .i32⟩
  | .hbm, ⟨52, _⟩ => ⟨S2097152, .i32⟩
  | .hbm, ⟨53, _⟩ => ⟨S2097152x1, .i32⟩
  | .hbm, ⟨54, _⟩ => ⟨S2097152x128, .f32⟩
  | .hbm, ⟨55, _⟩ => ⟨S2097152x1, .f32⟩
  | .hbm, ⟨56, _⟩ => ⟨S2097152x128, .f32⟩
  | .hbm, ⟨57, _⟩ => ⟨S2097152x128, .f32⟩
  | .hbm, ⟨58, _⟩ => ⟨S_, .f32⟩
  | .hbm, ⟨59, _⟩ => ⟨S262144x128, .f32⟩
  | .hbm, ⟨60, _⟩ => ⟨S2097152x1, .i32⟩
  | .hbm, ⟨61, _⟩ => ⟨S262144x128, .f32⟩
  | .hbm, ⟨62, _⟩ => ⟨S262144x1, .f32⟩
  | .hbm, ⟨63, _⟩ => ⟨S262144x128, .f32⟩
  | .hbm, ⟨64, _⟩ => ⟨S262144x128, .f32⟩
  | .hbm, ⟨65, _⟩ => ⟨S1x128, .f32⟩
  | .hbm, ⟨66, _⟩ => ⟨S262144x128, .f32⟩
  | .hbm, ⟨67, _⟩ => ⟨S262144x128, .f32⟩
  | .hbm, ⟨68, _⟩ => ⟨S_, .f32⟩
  | .hbm, ⟨69, _⟩ => ⟨S262144x128, .f32⟩
  | .hbm, ⟨70, _⟩ => ⟨S262144x128, .f32⟩
  | .hbm, ⟨71, _⟩ => ⟨S262144x1, .f32⟩
  | .hbm, ⟨72, _⟩ => ⟨S262144x128, .f32⟩
  | .hbm, ⟨73, _⟩ => ⟨S262144x128, .f32⟩
  | .hbm, ⟨74, _⟩ => ⟨S262144x16, .f32⟩
  | .hbm, ⟨75, _⟩ => ⟨S_, .i32⟩
  | .hbm, ⟨76, _⟩ => ⟨S2097152, .i32⟩
  | .hbm, ⟨77, _⟩ => ⟨S2097152, .i1⟩
  | .hbm, ⟨78, _⟩ => ⟨S_, .i32⟩
  | .hbm, ⟨79, _⟩ => ⟨S2097152, .i32⟩
  | .hbm, ⟨80, _⟩ => ⟨S2097152, .i32⟩
  | .hbm, ⟨81, _⟩ => ⟨S2097152, .i32⟩
  | .hbm, ⟨82, _⟩ => ⟨S2097152x1, .i32⟩
  | .hbm, ⟨83, _⟩ => ⟨S2097152x16, .f32⟩
  | .hbm, ⟨84, _⟩ => ⟨S2097152x1, .f32⟩
  | .hbm, ⟨85, _⟩ => ⟨S2097152x16, .f32⟩
  | .hbm, ⟨86, _⟩ => ⟨S2097152x16, .f32⟩
  | .hbm, ⟨87, _⟩ => ⟨S_, .f32⟩
  | .hbm, ⟨88, _⟩ => ⟨S262144x16, .f32⟩
  | .hbm, ⟨89, _⟩ => ⟨S2097152x1, .i32⟩
  | .hbm, ⟨90, _⟩ => ⟨S262144x16, .f32⟩
  | .hbm, ⟨91, _⟩ => ⟨S262144x1, .f32⟩
  | .hbm, ⟨92, _⟩ => ⟨S262144x16, .f32⟩
  | .hbm, ⟨93, _⟩ => ⟨S262144x16, .f32⟩
  | .hbm, ⟨94, _⟩ => ⟨S1x16, .f32⟩
  | .hbm, ⟨95, _⟩ => ⟨S262144x16, .f32⟩
  | .hbm, ⟨96, _⟩ => ⟨S262144x16, .f32⟩
  | .hbm, ⟨97, _⟩ => ⟨S_, .i32⟩
  | .hbm, ⟨98, _⟩ => ⟨S1, .i32⟩
  | .hbm, ⟨99, _⟩ => ⟨S_, .i32⟩
  | .hbm, ⟨100, _⟩ => ⟨S_, .i32⟩
  | .hbm, ⟨101, _⟩ => ⟨S1024, .i32⟩
  | .hbm, ⟨102, _⟩ => ⟨S1025, .i32⟩
  | .hbm, ⟨103, _⟩ => ⟨S1024, .i32⟩
  | .hbm, ⟨104, _⟩ => ⟨S1024, .i32⟩
  | .hbm, ⟨105, _⟩ => ⟨S_, .i32⟩
  | .hbm, ⟨106, _⟩ => ⟨S1024, .i32⟩
  | .hbm, ⟨107, _⟩ => ⟨S1024, .i1⟩
  | .hbm, ⟨108, _⟩ => ⟨S_, .i32⟩
  | .hbm, ⟨109, _⟩ => ⟨S1024, .i32⟩
  | .hbm, ⟨110, _⟩ => ⟨S1024, .i32⟩
  | .hbm, ⟨111, _⟩ => ⟨S1024, .i32⟩
  | .hbm, ⟨112, _⟩ => ⟨S1024x1, .i32⟩
  | .hbm, ⟨113, _⟩ => ⟨S1024x16, .f32⟩
  | _, _ => ⟨S262144x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst_1 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_2 : Ref sig .tc := ⟨.hbm, 20, rfl⟩
abbrev main_v7 : Ref sig .tc := ⟨.hbm, 21, rfl⟩
abbrev main_v8 : Ref sig .tc := ⟨.hbm, 22, rfl⟩
abbrev main_cst_3 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_4 : Ref sig .tc := ⟨.hbm, 27, rfl⟩
abbrev main_call0_v0 : Ref sig .tc := ⟨.hbm, 28, rfl⟩
abbrev main_call0_v1 : Ref sig .tc := ⟨.hbm, 29, rfl⟩
abbrev main_v12 : Ref sig .tc := ⟨.hbm, 30, rfl⟩
abbrev main_cst_5 : Ref sig .tc := ⟨.hbm, 31, rfl⟩
abbrev main_v13 : Ref sig .tc := ⟨.hbm, 32, rfl⟩
abbrev main_v14 : Ref sig .tc := ⟨.hbm, 33, rfl⟩
abbrev main_cst_6 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst_7 : Ref sig .tc := ⟨.hbm, 38, rfl⟩
abbrev main_call1_v0 : Ref sig .tc := ⟨.hbm, 39, rfl⟩
abbrev main_call1_v1 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_c : Ref sig .tc := ⟨.hbm, 46, rfl⟩
abbrev main_v23 : Ref sig .tc := ⟨.hbm, 47, rfl⟩
abbrev main_v24 : Ref sig .tc := ⟨.hbm, 48, rfl⟩
abbrev main_c_8 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_cst_9 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_call2_cst : Ref sig .tc := ⟨.hbm, 68, rfl⟩
abbrev main_call2_v0 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_c_10 : Ref sig .tc := ⟨.hbm, 75, rfl⟩
abbrev main_v47 : Ref sig .tc := ⟨.hbm, 76, rfl⟩
abbrev main_v48 : Ref sig .tc := ⟨.hbm, 77, rfl⟩
abbrev main_c_11 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_cst_12 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_c_13 : Ref sig .tc := ⟨.hbm, 97, rfl⟩
abbrev main_v66 : Ref sig .tc := ⟨.hbm, 98, rfl⟩
abbrev main_call3_call0_c : Ref sig .tc := ⟨.hbm, 99, rfl⟩
abbrev main_call3_call0_v0 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_c_14 : Ref sig .tc := ⟨.hbm, 105, rfl⟩
abbrev main_v71 : Ref sig .tc := ⟨.hbm, 106, rfl⟩
abbrev main_v72 : Ref sig .tc := ⟨.hbm, 107, rfl⟩
abbrev main_c_15 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩

abbrev nD : Nat := 1
abbrev τ : Topo := Topo.v7x

variable {F : FTy → Type} [FloatOps F]

class Facts₀ : Prop where
  bcast_S_S2097152 : S_.BroadcastsInDim S2097152 (![] : Fin 0 → Fin S2097152.rank)
  bcast_S_S262144 : S_.BroadcastsInDim S262144 (![] : Fin 0 → Fin S262144.rank)
  bcast_S2097152_S2097152x1_0 : S2097152.BroadcastsInDim S2097152x1 (![0] : Fin 1 → Fin S2097152x1.rank)
  bcast_S262144_S262144x1_0 : S262144.BroadcastsInDim S262144x1 (![0] : Fin 1 → Fin S262144x1.rank)
  bcast_S262144x1_S262144x512_0_1 : S262144x1.BroadcastsInDim S262144x512 (![0, 1] : Fin 2 → Fin S262144x512.rank)
  bcast_S2097152x1_S2097152x128_0_1 : S2097152x1.BroadcastsInDim S2097152x128 (![0, 1] : Fin 2 → Fin S2097152x128.rank)
  bcast_S_S262144x128 : S_.BroadcastsInDim S262144x128 (![] : Fin 0 → Fin S262144x128.rank)
  bcast_S262144x1_S262144x128_0_1 : S262144x1.BroadcastsInDim S262144x128 (![0, 1] : Fin 2 → Fin S262144x128.rank)
  bcast_S128_S1x128_1 : S128.BroadcastsInDim S1x128 (![1] : Fin 1 → Fin S1x128.rank)
  bcast_S1x128_S262144x128_0_1 : S1x128.BroadcastsInDim S262144x128 (![0, 1] : Fin 2 → Fin S262144x128.rank)
  bcast_S2097152x1_S2097152x16_0_1 : S2097152x1.BroadcastsInDim S2097152x16 (![0, 1] : Fin 2 → Fin S2097152x16.rank)
  bcast_S_S262144x16 : S_.BroadcastsInDim S262144x16 (![] : Fin 0 → Fin S262144x16.rank)
  bcast_S262144x1_S262144x16_0_1 : S262144x1.BroadcastsInDim S262144x16 (![0, 1] : Fin 2 → Fin S262144x16.rank)
  bcast_S16_S1x16_1 : S16.BroadcastsInDim S1x16 (![1] : Fin 1 → Fin S1x16.rank)
  bcast_S1x16_S262144x16_0_1 : S1x16.BroadcastsInDim S262144x16 (![0, 1] : Fin 2 → Fin S262144x16.rank)
  bcast_S_S1 : S_.BroadcastsInDim S1 (![] : Fin 0 → Fin S1.rank)
  bcast_S_S_ : S_.BroadcastsInDim S_ (![] : Fin 0 → Fin S_.rank)
  reduceWindows_S1024_S1024_w1024s1p1023_0 : S1024.ReduceWindows (![1024] : Fin 1 → Nat) ![1] ![1023] ![0] S1024
  h_S_ : 0 < S_.numel
  concatenates_S1_S1024_S1025_d0 : Shape.Concatenates [S1, S1024] S1025 0
  slices_S1025_S1024_0 : S1025.Slices ![0] S1024
  bcast_S_S1024 : S_.BroadcastsInDim S1024 (![] : Fin 0 → Fin S1024.rank)
  bcast_S1024_S1024x1_0 : S1024.BroadcastsInDim S1024x1 (![0] : Fin 1 → Fin S1024x1.rank)
  scatter_S262144_S2097152x1_S2097152_n_0_0_1_wf : ScatterDims.WF S262144 S2097152x1 S2097152 [] [0] [0] 1
  dot_S262144x512_S512x128_S262144x128_1_0_0_1_n_n_wf : DotDims.WF S262144x512 S512x128 S262144x128 [1] [0] [0] [1] [] []
  gather_S262144x128_S2097152x1_S2097152x128_1_0_n_n_0_1_1128_wf : GatherDims.WF S262144x128 S2097152x1 S2097152x128 [1] [0] [] [0] [] 1 ![1, 128]
  scatter_S262144x128_S2097152x1_S2097152x128_1_0_0_1_wf : ScatterDims.WF S262144x128 S2097152x1 S2097152x128 [1] [0] [0] 1
  dot_S262144x128_S128x16_S262144x16_1_0_0_1_n_n_wf : DotDims.WF S262144x128 S128x16 S262144x16 [1] [0] [0] [1] [] []
  gather_S262144x16_S2097152x1_S2097152x16_1_0_n_n_0_1_116_wf : GatherDims.WF S262144x16 S2097152x1 S2097152x16 [1] [0] [] [0] [] 1 ![1, 16]
  scatter_S262144x16_S2097152x1_S2097152x16_1_0_0_1_wf : ScatterDims.WF S262144x16 S2097152x1 S2097152x16 [1] [0] [0] 1
  gather_S262144x16_S1024x1_S1024x16_1_0_n_n_0_1_116_wf : GatherDims.WF S262144x16 S1024x1 S1024x16 [1] [0] [] [0] [] 1 ![1, 16]

variable [Facts₀]

def scatter_S262144_S2097152x1_S2097152_n_0_0_1 : ScatterDims S262144 S2097152x1 S2097152 where
  updateWindowDims := []
  insertedWindowDims := [0]
  scatterDimsToOperandDims := [0]
  indexVectorDim := 1
  wf := scatter_S262144_S2097152x1_S2097152_n_0_0_1_wf
def dot_S262144x512_S512x128_S262144x128_1_0_0_1_n_n : DotDims S262144x512 S512x128 S262144x128 where
  lhsContracting := [1]
  rhsContracting := [0]
  lhsNonContracting := [0]
  rhsNonContracting := [1]
  lhsBatch := []
  rhsBatch := []
  wf := dot_S262144x512_S512x128_S262144x128_1_0_0_1_n_n_wf
def gather_S262144x128_S2097152x1_S2097152x128_1_0_n_n_0_1_1128 : GatherDims S262144x128 S2097152x1 S2097152x128 where
  offsetDims := [1]
  collapsedSliceDims := [0]
  operandBatchingDims := []
  startIndicesBatchingDims := []
  startIndexMap := [0]
  indexVectorDim := 1
  sliceSizes := ![1, 128]
  wf := gather_S262144x128_S2097152x1_S2097152x128_1_0_n_n_0_1_1128_wf
def scatter_S262144x128_S2097152x1_S2097152x128_1_0_0_1 : ScatterDims S262144x128 S2097152x1 S2097152x128 where
  updateWindowDims := [1]
  insertedWindowDims := [0]
  scatterDimsToOperandDims := [0]
  indexVectorDim := 1
  wf := scatter_S262144x128_S2097152x1_S2097152x128_1_0_0_1_wf
def dot_S262144x128_S128x16_S262144x16_1_0_0_1_n_n : DotDims S262144x128 S128x16 S262144x16 where
  lhsContracting := [1]
  rhsContracting := [0]
  lhsNonContracting := [0]
  rhsNonContracting := [1]
  lhsBatch := []
  rhsBatch := []
  wf := dot_S262144x128_S128x16_S262144x16_1_0_0_1_n_n_wf
def gather_S262144x16_S2097152x1_S2097152x16_1_0_n_n_0_1_116 : GatherDims S262144x16 S2097152x1 S2097152x16 where
  offsetDims := [1]
  collapsedSliceDims := [0]
  operandBatchingDims := []
  startIndicesBatchingDims := []
  startIndexMap := [0]
  indexVectorDim := 1
  sliceSizes := ![1, 16]
  wf := gather_S262144x16_S2097152x1_S2097152x16_1_0_n_n_0_1_116_wf
def scatter_S262144x16_S2097152x1_S2097152x16_1_0_0_1 : ScatterDims S262144x16 S2097152x1 S2097152x16 where
  updateWindowDims := [1]
  insertedWindowDims := [0]
  scatterDimsToOperandDims := [0]
  indexVectorDim := 1
  wf := scatter_S262144x16_S2097152x1_S2097152x16_1_0_0_1_wf
def gather_S262144x16_S1024x1_S1024x16_1_0_n_n_0_1_116 : GatherDims S262144x16 S1024x1 S1024x16 where
  offsetDims := [1]
  collapsedSliceDims := [0]
  operandBatchingDims := []
  startIndicesBatchingDims := []
  startIndexMap := [0]
  indexVectorDim := 1
  sliceSizes := ![1, 16]
  wf := gather_S262144x16_S1024x1_S1024x16_1_0_n_n_0_1_116_wf

class Facts : Prop extends Facts₀ where

variable [Facts]
-- ==== Proof.KRun.lean ====
/-
  The idealized kernel program's run, with its result named.

  The program is eleven segments: host operations, the first projection's pipelined region, host operations, the
  second projection's region, host operations.  Every weakly fair execution of it terminates without a fault, and in
  the final state the result buffer holds what the fold of the segments leaves there (`W11`: each host stretch
  applied in order, each region replacing its output array by what its write-backs leave), while the ten argument
  arrays hold what they were launched with.
-/
import proofs.«179616_j10333691314779_1_alg».proof.Proof.Gen.KernelIdeal.Frame

set_option maxRecDepth 16384

noncomputable section

namespace Cert.Gcn.K

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the result buffer ends at the fold of
    the segments over the launch memory, and the argument arrays end as launched. -/
theorem run_fold : θ_run defs (onTc (τ := τ) (main (F := F))) ⟨m, fun _ => 0, ρ⟩ (fun r => ∀ c : Dev nD,
      r.2.mem ((c.tc : Thread nD τ).loc main_v72) = W11 m ρ c (Proc.devRef .tc main_v72)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v72 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c),
       (h c _ (mem_uc main_arg9 (by decide))).trans (W11_main_arg9 m ρ c)⟩)

end Cert.Gcn.K

end
-- ==== Proof.LibDense.lean ====
/-
  Dense layers on the extended reals, over rank-2 arrays of any extents.

  `mm A B` is the matrix product, `(A B)(p, q) = ∑ k, A(p, k) · B(k, q)`; `act A S b` is the rectified affine layer
  `max (A S + b, 0)` with the bias `b` a one-row array added to every row; `row b` is a vector laid out as that one row.
  A dot product whose dimension numbers contract the left operand's columns with the right operand's rows, with no batch
  axis, read at an output index `(p, q)` sums over the contraction index; that index set is in bijection with the
  contracted extent, so the sum is `mm` at `(p, q)` — for the vector unit's matmul into a zero accumulator and for the
  host's dot product alike. The remaining lemmas read the layout operations that carry a bias (a vector cast or broadcast
  to one row, a row broadcast to all rows, a scalar zero broadcast everywhere) at an index.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Dense

open Idealize.ShloMosaic Idealize.ShloMosaic.ValueIdx

/-- A rank-2 array of extended reals. -/
abbrev Mat (a b : ℕ) : Type := (⟨2, ![a, b]⟩ : Shape).Idx → EReal
/-- A rank-1 array of extended reals. -/
abbrev Row (a : ℕ) : Type := (⟨1, ![a]⟩ : Shape).Idx → EReal

/-- The first coordinate of a rank-2 index, typed by the extent itself. -/
abbrev c0 {a b : ℕ} (i : (⟨2, ![a, b]⟩ : Shape).Idx) : Fin a := ⟨(i 0).val, idx2_lt0 i⟩
/-- The second coordinate of a rank-2 index, typed by the extent itself. -/
abbrev c1 {a b : ℕ} (i : (⟨2, ![a, b]⟩ : Shape).Idx) : Fin b := ⟨(i 1).val, idx2_lt1 i⟩

/-- The matrix product on the extended reals. -/
def mm {M K N : ℕ} (A : Mat M K) (B : Mat K N) : Mat M N :=
  fun i => ∑ k : Fin K, A (ix2 (c0 i) k) * B (ix2 k (c1 i))

theorem mm_apply {M K N : ℕ} (A : Mat M K) (B : Mat K N) (p : Fin M) (q : Fin N) :
    mm A B (ix2 p q) = ∑ k : Fin K, A (ix2 p k) * B (ix2 k q) := rfl

/-- The rectified affine layer `max (A S + b, 0)`, the one-row bias `b` added to every row. -/
def act {M K N : ℕ} (A : Mat M K) (S : Mat K N) (b : Mat 1 N) : Mat M N :=
  fun i => max (mm A S i + b (ix2 (0 : Fin 1) (c1 i))) 0

theorem act_apply {M K N : ℕ} (A : Mat M K) (S : Mat K N) (b : Mat 1 N) (p : Fin M) (q : Fin N) :
    act A S b (ix2 p q) = max ((∑ k : Fin K, A (ix2 p k) * S (ix2 k q)) + b (ix2 (0 : Fin 1) q)) 0 := rfl

/-- A vector laid out as a one-row array. -/
def row {N : ℕ} (b : Row N) : Mat 1 N := fun i => b (ix1 (c1 i))

theorem row_apply {N : ℕ} (b : Row N) (u : Fin 1) (q : Fin N) : row b (ix2 u q) = b (ix1 q) := rfl

/-- A plain product's contraction sum at `(p, q)` is the sum over the contracted extent of `l(p, k) · r(k, q)`. -/
theorem plain_sum {M K N : ℕ} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (l : Mat M K) (r : Mat K N) (p : Fin M) (q : Fin N) :
    ∑ k : D.contr.Idx, l (D.lhsIdx (ix2 p q) k) * r (D.rhsIdx (ix2 p q) k) = ∑ k : Fin K, l (ix2 p k) * r (ix2 k q) := by
  obtain ⟨lc, rc, ln, rn, lb, rb, wf⟩ := D
  dsimp only at h1 h2 h3 h4 h5 h6
  subst h1 h2 h3 h4 h5 h6
  generalize hD : (⟨[1], [0], [0], [1], [], [], wf⟩ : DotDims ⟨2, ![M, K]⟩ ⟨2, ![K, N]⟩ ⟨2, ![M, N]⟩) = D
  have hr : D.contr.rank = 1 := by subst hD; rfl
  have hs : D.contr.size ⟨0, by omega⟩ = K := by subst hD; rfl
  rw [← Equiv.sum_comp (contrEquiv1 D K hr hs).symm]
  refine Finset.sum_congr rfl fun k _ => ?_
  have hk := contrEquiv1_symm_val D K hr hs k
  have hlc : D.lhsContracting = [1] := by subst hD; rfl
  have hrc : D.rhsContracting = [0] := by subst hD; rfl
  have el : D.lhsIdx (ix2 p q) ((contrEquiv1 D K hr hs).symm k) = ix2 p k := funext fun a => Fin.ext (by
    match a with
    | ⟨0, _⟩ =>
      subst hD
      rfl
    | ⟨1, _⟩ => exact (D.lhsIdx_val_of_single hlc _ _).trans hk)
  have er : D.rhsIdx (ix2 p q) ((contrEquiv1 D K hr hs).symm k) = ix2 k q := funext fun a => Fin.ext (by
    match a with
    | ⟨0, _⟩ => exact (D.rhsIdx_val_of_single hrc _ _).trans hk
    | ⟨1, _⟩ =>
      subst hD
      rfl)
  rw [el, er]

/-- The host's plain dot product is the matrix product. -/
theorem hostDot_eq_mm {M K N : ℕ} {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal ⟨2, ![M, K]⟩ φ₁) (r : FVec Ideal ⟨2, ![K, N]⟩ φ₂) :
    Host.dotGeneral (F := Ideal) D prec l r = mm l r := by
  funext i
  obtain ⟨p, q, rfl⟩ : ∃ (p : Fin M) (q : Fin N), i = ix2 p q := ⟨i 0, i 1, eq_ix2 i⟩
  exact (Ideal.dotGeneral_apply D prec .single l r (ix2 p q)).trans (plain_sum D h1 h2 h3 h4 h5 h6 l r p q)

/-- The vector unit's plain matmul into a zero accumulator is the matrix product. -/
theorem matmul_zero_eq_mm {M K N : ℕ} {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal ⟨2, ![M, K]⟩ φ₁) (r : FVec Ideal ⟨2, ![K, N]⟩ φ₂) :
    matmul (F := Ideal) D prec l r (constant ⟨2, ![M, N]⟩ .f32 0x00000000#32) = mm l r := by
  funext i
  obtain ⟨p, q, rfl⟩ : ∃ (p : Fin M) (q : Fin N), i = ix2 p q := ⟨i 0, i 1, eq_ix2 i⟩
  exact (Ideal.matmul_constant_zero_apply D prec l r (ix2 p q)).trans (plain_sum D h1 h2 h3 h4 h5 h6 l r p q)

/-- A one-row bias added to every row, then rectified. -/
def reluBias {M N : ℕ} (X : Mat M N) (b : Mat 1 N) : Mat M N := fun i => max (X i + b (ix2 (0 : Fin 1) (c1 i))) 0

theorem act_eq {M K N : ℕ} (A : Mat M K) (S : Mat K N) (b : Mat 1 N) : act A S b = reluBias (mm A S) b := rfl

/-- The vector unit's form: the row broadcast to every row, added, and the maximum with a zero splat. -/
theorem vecReluBias {M N : ℕ} (X : FVec Ideal ⟨2, ![M, N]⟩ .f32) (b : FVec Ideal ⟨2, ![1, N]⟩ .f32)
    (h : (⟨2, ![1, N]⟩ : Shape).Broadcasts ⟨2, ![M, N]⟩) :
    maximumf (addf X (broadcastTo ⟨2, ![M, N]⟩ b h)) (broadcast ⟨2, ![M, N]⟩ (Scalar.ofBits (F := Ideal) .f32 0x00000000#32))
      = reluBias X b := by
  funext i
  obtain ⟨p, q, rfl⟩ : ∃ (p : Fin M) (q : Fin N), i = ix2 p q := ⟨i 0, i 1, eq_ix2 i⟩
  show max (X (ix2 p q) + broadcastTo ⟨2, ![M, N]⟩ b h (ix2 p q)) (Ideal.ofBits .f32 0x00000000#32) = _
  rw [broadcastTo_1b_ab_apply, Ideal.ofBits_zero_f32]
  rfl

/-- The host's form: the vector broadcast to one row, that row to every row, added, and the maximum with a broadcast
    scalar zero. -/
theorem hostReluBias {M N : ℕ} (X : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) :
    maximumf (addf X (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32))
      = reluBias X (row b) := by
  funext i
  obtain ⟨p, q, rfl⟩ : ∃ (p : Fin M) (q : Fin N), i = ix2 p q := ⟨i 0, i 1, eq_ix2 i⟩
  show max (X (ix2 p q) + broadcastInDim ⟨2, ![M, N]⟩ ![0, 1] h2 (broadcastInDim ⟨2, ![1, N]⟩ ![1] h1 b) (ix2 p q))
      (broadcastInDim ⟨2, ![M, N]⟩ ![] h0 (constant (F := Ideal) ⟨0, ![]⟩ .f32 0x00000000#32) (ix2 p q)) = _
  rw [broadcastInDim_apply ![0, 1] h2 _ (ix2 p q) (ix2 (0 : Fin 1) q) (fun a => by
        match a with
        | ⟨0, _⟩ => rfl
        | ⟨1, _⟩ =>
          show q.val = if N = 1 then 0 else q.val
          split
          · have := q.isLt; omega
          · rfl),
    broadcastInDim_apply ![1] h1 b (ix2 (0 : Fin 1) q) (ix1 q) (fun a => by
        match a with
        | ⟨0, _⟩ =>
          show q.val = if N = 1 then 0 else q.val
          split
          · have := q.isLt; omega
          · rfl),
    broadcastInDim_apply ![] h0 _ (ix2 p q) ix0 (fun a => a.elim0)]
  show max (X (ix2 p q) + b (ix1 q)) (Ideal.ofBits .f32 0x00000000#32) = _
  rw [Ideal.ofBits_zero_f32]
  rfl

/-- A vector cast to one row is that row. -/
theorem shapeCast_row {N : ℕ} (b : Row N) (h : (⟨1, ![N]⟩ : Shape).ShapeCasts ⟨2, ![1, N]⟩) :
    shapeCast ⟨2, ![1, N]⟩ b h = row b := by
  funext i
  obtain ⟨u, q, rfl⟩ : ∃ (u : Fin 1) (q : Fin N), i = ix2 u q := ⟨i 0, i 1, eq_ix2 i⟩
  exact shapeCast_a_1a_apply b h u q

/-- Rows of the layer's output depend on the same rows of the left operand only. -/
theorem mm_act_rows {M M' K N P : ℕ} (A : Mat M K) (A' : Mat M' K) (S : Mat K N) (b : Mat 1 N) (W : Mat N P)
    (p : Fin M) (p' : Fin M') (hA : ∀ k, A' (ix2 p' k) = A (ix2 p k)) (q : Fin P) :
    mm (act A' S b) W (ix2 p' q) = mm (act A S b) W (ix2 p q) := by
  simp only [mm_apply, act_apply, hA]

theorem act_rows {M M' K N : ℕ} (A : Mat M K) (A' : Mat M' K) (S : Mat K N) (b : Mat 1 N)
    (p : Fin M) (p' : Fin M') (hA : ∀ k, A' (ix2 p' k) = A (ix2 p k)) (q : Fin N) :
    act A' S b (ix2 p' q) = act A S b (ix2 p q) := by
  simp only [act_apply, hA]

theorem mm_rows {M M' K N : ℕ} (A : Mat M K) (A' : Mat M' K) (B : Mat K N)
    (p : Fin M) (p' : Fin M') (hA : ∀ k, A' (ix2 p' k) = A (ix2 p k)) (q : Fin N) :
    mm A' B (ix2 p' q) = mm A B (ix2 p q) := by
  simp only [mm_apply, hA]

end Cert.Dense

end
-- ==== Proof.LibRowBlocks.lean ====
/-
  Rows of blocks: layout operations of a block of tokens read at an index, and a transposed contraction.

  A kernel that treats a block of `a` groups of `b` tokens as `n = a · b` rows views an `[a, b, c]` array as
  `[n, c]` and back: row `q = r · b + l` of the merged view is token `l` of group `r`.  A per-row statistic
  lives in a column `[n, 1]`: a vector `[n]` cast to a column, a column broadcast along the row.  A `[1, b, c]`
  table is broadcast over the `a` groups.  A one-axis sum of an `[n, c]` array reads, at row `q`, the sum of
  that row.  A contraction `l · rᵀ` — the second axes of both operands contracted, no batch axis — reads at
  `(q, d)` the sum over `p` of `l (q, p) · r (d, p)`; the same with a rank-4 left operand whose last axis is
  contracted.  All of it at any extents.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.RowBlocks

open Idealize.ShloMosaic Idealize.ShloMosaic.ValueIdx

variable {α : Type}

/-- `[a, b, c]` viewed `[n, c]`: row `q = r · b + l` is entry `(r, l)`. -/
theorem shapeCast_merge_apply {a b c n : ℕ} (x : (⟨3, ![a, b, c]⟩ : Shape).Idx → α)
    (h : (⟨3, ![a, b, c]⟩ : Shape).ShapeCasts ⟨2, ![n, c]⟩) (r : Fin a) (l : Fin b) (d : Fin c) (q : Fin n)
    (hq : q.val = r.val * b + l.val) : shapeCast ⟨2, ![n, c]⟩ x h (ix2 q d) = x (ix3 r l d) :=
  shapeCast_apply x h _ _ (by
    rw [Shape.rowMajor_val_three, Shape.rowMajor_val_two]
    show (r.val * b + l.val) * c + d.val = q.val * c + d.val
    rw [hq])

/-- `[n, c]` viewed `[a, b, c]`: entry `(r, l)` is row `q = r · b + l`. -/
theorem shapeCast_split_apply {a b c n : ℕ} (x : (⟨2, ![n, c]⟩ : Shape).Idx → α)
    (h : (⟨2, ![n, c]⟩ : Shape).ShapeCasts ⟨3, ![a, b, c]⟩) (r : Fin a) (l : Fin b) (d : Fin c) (q : Fin n)
    (hq : q.val = r.val * b + l.val) : shapeCast ⟨3, ![a, b, c]⟩ x h (ix3 r l d) = x (ix2 q d) :=
  shapeCast_apply x h _ _ (by
    rw [Shape.rowMajor_val_three, Shape.rowMajor_val_two]
    show q.val * c + d.val = (r.val * b + l.val) * c + d.val
    rw [hq])

/-- A vector `[n]` cast to a column `[n, 1]` reads, at `(q, u)`, the vector at `q`. -/
theorem shapeCast_col_apply {n : ℕ} (x : (⟨1, ![n]⟩ : Shape).Idx → α)
    (h : (⟨1, ![n]⟩ : Shape).ShapeCasts ⟨2, ![n, 1]⟩) (q : Fin n) (u : Fin 1) :
    shapeCast ⟨2, ![n, 1]⟩ x h (ix2 q u) = x (ix1 q) :=
  shapeCast_apply x h _ _ (by
    have hu : u.val = 0 := by omega
    rw [Shape.rowMajor_val_two, Shape.rowMajor_val_one]
    show q.val = q.val * 1 + u.val
    rw [hu, Nat.mul_one, Nat.add_zero])

/-- A column `[n, 1]` broadcast to `[n, c]` reads, at `(q, d)`, the column at row `q`. -/
theorem broadcastTo_col_apply {n c : ℕ} (x : (⟨2, ![n, 1]⟩ : Shape).Idx → α)
    (h : (⟨2, ![n, 1]⟩ : Shape).Broadcasts ⟨2, ![n, c]⟩) (q : Fin n) (d : Fin c) :
    broadcastTo ⟨2, ![n, c]⟩ x h (ix2 q d) = x (ix2 q (0 : Fin 1)) := by
  refine broadcastTo_apply x h (ix2 q d) (ix2 q (0 : Fin 1)) fun ax => ?_
  match ax with
  | ⟨0, _⟩ =>
    show q.val = if n = 1 then 0 else q.val
    split
    · have := q.isLt; omega
    · rfl
  | ⟨1, _⟩ => rfl

/-- A `[1, b, c]` table broadcast over `a` groups reads, at `(r, l, d)`, the table at `(l, d)`. -/
theorem broadcastTo_groups_apply {a b c : ℕ} (x : (⟨3, ![1, b, c]⟩ : Shape).Idx → α)
    (h : (⟨3, ![1, b, c]⟩ : Shape).Broadcasts ⟨3, ![a, b, c]⟩) (r : Fin a) (l : Fin b) (d : Fin c) :
    broadcastTo ⟨3, ![a, b, c]⟩ x h (ix3 r l d) = x (ix3 (0 : Fin 1) l d) := by
  refine broadcastTo_apply x h (ix3 r l d) (ix3 (0 : Fin 1) l d) fun ax => ?_
  match ax with
  | ⟨0, _⟩ => rfl
  | ⟨1, _⟩ =>
    show l.val = if b = 1 then 0 else l.val
    split
    · have := l.isLt; omega
    · rfl
  | ⟨2, _⟩ =>
    show d.val = if c = 1 then 0 else d.val
    split
    · have := d.isLt; omega
    · rfl

/-- The sum of an `[n, c]` array along its second axis reads, at row `q`, the sum of the row's entries. -/
theorem rowSum_apply {n c : ℕ} (src : FVec Ideal ⟨2, ![n, c]⟩ .f32)
    (h : (⟨2, ![n, c]⟩ : Shape).Reduces [1] ⟨1, ![n]⟩) (hφ : FKind.Formats .f32)
    (hacc : (0x00000000#32 : BitVec 32) = 0x00000000#32) (q : Fin n) :
    multiReduction .add [1] ⟨1, ![n]⟩ src 0x00000000#32 h hφ hacc (ix1 q) = ∑ k : Fin c, src (ix2 q k) := by
  refine (Ideal.multiReduction_add_single src 0x00000000#32 h hφ hacc (ix1 q)).trans ?_
  refine Finset.sum_congr rfl fun k _ => congrArg src (funext fun ax => Fin.ext ?_)
  match ax with
  | ⟨0, _⟩ => rfl
  | ⟨1, _⟩ => rfl

/-- A contraction sum re-indexed by the one contracted coordinate: whatever the operand indices are at the
    contraction position with coordinate `k` (`hl`, `hr`), the sum over positions is the sum over `k`. -/
theorem contr_sum {sl sr so : Shape} (D : DotDims sl sr so) (K : ℕ) (hrank : D.contr.rank = 1)
    (hs : D.contr.size ⟨0, by omega⟩ = K) (l : sl.Idx → EReal) (r : sr.Idx → EReal) (j : so.Idx)
    (li : Fin K → sl.Idx) (ri : Fin K → sr.Idx)
    (hl : ∀ k, D.lhsIdx j ((contrEquiv1 D K hrank hs).symm k) = li k)
    (hr : ∀ k, D.rhsIdx j ((contrEquiv1 D K hrank hs).symm k) = ri k) :
    ∑ k : D.contr.Idx, l (D.lhsIdx j k) * r (D.rhsIdx j k) = ∑ k : Fin K, l (li k) * r (ri k) := by
  rw [← Equiv.sum_comp (contrEquiv1 D K hrank hs).symm]
  exact Finset.sum_congr rfl fun k _ => by rw [hl k, hr k]

/-- `l · rᵀ` at rank 2: the second axes contracted, at `(q, d)` the sum over `p` of `l (q, p) · r (d, p)`. -/
theorem abT_sum {M K N : ℕ} (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (l : (⟨2, ![M, K]⟩ : Shape).Idx → EReal) (r : (⟨2, ![N, K]⟩ : Shape).Idx → EReal) (q : Fin M) (d : Fin N) :
    ∑ k : D.contr.Idx, l (D.lhsIdx (ix2 q d) k) * r (D.rhsIdx (ix2 q d) k) = ∑ p : Fin K, l (ix2 q p) * r (ix2 d p) := by
  obtain ⟨lc, rc, ln, rn, lb, rb, wf⟩ := D
  dsimp only at h1 h2 h3 h4 h5 h6
  subst h1 h2 h3 h4 h5 h6
  generalize hD : (⟨[1], [1], [0], [0], [], [], wf⟩ : DotDims ⟨2, ![M, K]⟩ ⟨2, ![N, K]⟩ ⟨2, ![M, N]⟩) = D
  have hrank : D.contr.rank = 1 := by subst hD; rfl
  have hs : D.contr.size ⟨0, by omega⟩ = K := by subst hD; rfl
  have hlc : D.lhsContracting = [1] := by subst hD; rfl
  have hrc : D.rhsContracting = [1] := by subst hD; rfl
  refine contr_sum D K hrank hs l r (ix2 q d) (fun p => ix2 q p) (fun p => ix2 d p) (fun k => ?_) (fun k => ?_)
  · have hk := contrEquiv1_symm_val D K hrank hs k
    exact funext fun a => Fin.ext (by
      match a with
      | ⟨0, _⟩ =>
        subst hD
        rfl
      | ⟨1, _⟩ => exact (D.lhsIdx_val_of_single hlc _ _).trans hk)
  · have hk := contrEquiv1_symm_val D K hrank hs k
    exact funext fun a => Fin.ext (by
      match a with
      | ⟨0, _⟩ =>
        subst hD
        rfl
      | ⟨1, _⟩ => exact (D.rhsIdx_val_of_single hrc _ _).trans hk)

/-- The vector unit's `l · rᵀ` into a zero accumulator, read at `(q, d)`. -/
theorem matmul_abT_apply {M K N : ℕ} (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (prec : Option ContractPrecision) (l : FVec Ideal ⟨2, ![M, K]⟩ .f32) (r : FVec Ideal ⟨2, ![N, K]⟩ .f32)
    (q : Fin M) (d : Fin N) :
    matmul (F := Ideal) D prec l r (constant ⟨2, ![M, N]⟩ .f32 0x00000000#32) (ix2 q d)
      = ∑ p : Fin K, l (ix2 q p) * r (ix2 d p) :=
  (Ideal.matmul_constant_zero_apply D prec l r (ix2 q d)).trans (abT_sum D h1 h2 h3 h4 h5 h6 l r q d)

end Cert.RowBlocks

end
-- ==== Proof.LibRowScale.lean ====
/-
  Rows scaled by a per-row factor, and entries of row-local layers read at a pair of indices.

  `scaleRows G s` multiplies every entry of row `p` of a rank-2 array `G` by the factor `s (p, 0)` held in a
  one-column array; `col v` lays a vector out as that column.  The vector unit spells the scaling as the column
  broadcast along the rows and multiplied in; the host as the vector broadcast to a column, the column broadcast
  along the rows, and multiplied in.  Both are `scaleRows`.  A reshape of a vector to a column is `col`.

  The matrix product, the row scaling and the rectified bias layer are row-local: the entry at `(p, q)` depends on
  row `p` of the left operand only (and on column `q` of the right operand, or entry `q` of the bias).  The `_at`
  lemmas state this for two arrays of different heights read at two indices, which is what reading a block of rows
  against the whole array needs.  All of it at any extents, on the extended reals.
-/
import proofs.«179616_j10333691314779_1_alg».proof.Proof.LibDense
import proofs.«179616_j10333691314779_1_alg».proof.Proof.LibRowBlocks

noncomputable section

open scoped BigOperators

namespace Cert.RowScale

open Idealize.ShloMosaic Idealize.ShloMosaic.ValueIdx Cert.Dense

/-- Every entry of row `p` multiplied by the row's factor `s (p, 0)`. -/
def scaleRows {M N : ℕ} (G : Mat M N) (s : Mat M 1) : Mat M N := fun i => G i * s (ix2 (c0 i) (0 : Fin 1))

theorem scaleRows_apply {M N : ℕ} (G : Mat M N) (s : Mat M 1) (p : Fin M) (q : Fin N) :
    scaleRows G s (ix2 p q) = G (ix2 p q) * s (ix2 p (0 : Fin 1)) := rfl

/-- A vector laid out as a one-column array. -/
def col {M : ℕ} (v : Row M) : Mat M 1 := fun i => v (ix1 (c0 i))

theorem col_apply {M : ℕ} (v : Row M) (p : Fin M) (u : Fin 1) : col v (ix2 p u) = v (ix1 p) := rfl

/-- A vector reshaped to a column is that column. -/
theorem shapeCast_col {M : ℕ} (v : Row M) (h : (⟨1, ![M]⟩ : Shape).ShapeCasts ⟨2, ![M, 1]⟩) :
    shapeCast ⟨2, ![M, 1]⟩ v h = col v := by
  funext i
  obtain ⟨p, u, rfl⟩ : ∃ (p : Fin M) (u : Fin 1), i = ix2 p u := ⟨i 0, i 1, eq_ix2 i⟩
  exact Cert.RowBlocks.shapeCast_col_apply v h p u

/-- The vector unit's form: the column broadcast along the rows, multiplied in. -/
theorem vecScaleRows {M N : ℕ} (G : FVec Ideal ⟨2, ![M, N]⟩ .f32) (s : FVec Ideal ⟨2, ![M, 1]⟩ .f32)
    (h : (⟨2, ![M, 1]⟩ : Shape).Broadcasts ⟨2, ![M, N]⟩) :
    mulf G (broadcastTo ⟨2, ![M, N]⟩ s h) = scaleRows G s := by
  funext i
  obtain ⟨p, q, rfl⟩ : ∃ (p : Fin M) (q : Fin N), i = ix2 p q := ⟨i 0, i 1, eq_ix2 i⟩
  show G (ix2 p q) * broadcastTo ⟨2, ![M, N]⟩ s h (ix2 p q) = _
  rw [Cert.RowBlocks.broadcastTo_col_apply]
  rfl

/-- The host's form: the vector broadcast to a column, the column along the rows, multiplied in. -/
theorem hostScaleRows {M N : ℕ} (G : FVec Ideal ⟨2, ![M, N]⟩ .f32) (v : FVec Ideal ⟨1, ![M]⟩ .f32)
    (h1 : (⟨1, ![M]⟩ : Shape).BroadcastsInDim ⟨2, ![M, 1]⟩ ![0])
    (h2 : (⟨2, ![M, 1]⟩ : Shape).BroadcastsInDim ⟨2, ![M, N]⟩ ![0, 1]) :
    mulf G (broadcastInDim ⟨2, ![M, N]⟩ ![0, 1] h2 (broadcastInDim ⟨2, ![M, 1]⟩ ![0] h1 v)) = scaleRows G (col v) := by
  funext i
  obtain ⟨p, q, rfl⟩ : ∃ (p : Fin M) (q : Fin N), i = ix2 p q := ⟨i 0, i 1, eq_ix2 i⟩
  show G (ix2 p q) * broadcastInDim ⟨2, ![M, N]⟩ ![0, 1] h2 (broadcastInDim ⟨2, ![M, 1]⟩ ![0] h1 v) (ix2 p q) = _
  rw [broadcastInDim_apply ![0, 1] h2 _ (ix2 p q) (ix2 p (0 : Fin 1)) (fun a => by
        match a with
        | ⟨0, _⟩ =>
          show p.val = if M = 1 then 0 else p.val
          split
          · have := p.isLt; omega
          · rfl
        | ⟨1, _⟩ => rfl),
    broadcastInDim_apply ![0] h1 v (ix2 p (0 : Fin 1)) (ix1 p) (fun a => by
        match a with
        | ⟨0, _⟩ =>
          show p.val = if M = 1 then 0 else p.val
          split
          · have := p.isLt; omega
          · rfl)]
  rfl

/-- The matrix product at an index depends on one row of the left operand and one column of the right one. -/
theorem mm_at {M M' K N N' : ℕ} (A : Mat M K) (B : Mat K N) (A' : Mat M' K) (B' : Mat K N')
    (j : (⟨2, ![M', N']⟩ : Shape).Idx) (i : (⟨2, ![M, N]⟩ : Shape).Idx)
    (hA : ∀ k : Fin K, A' (ix2 (c0 j) k) = A (ix2 (c0 i) k))
    (hB : ∀ k : Fin K, B' (ix2 k (c1 j)) = B (ix2 k (c1 i))) : mm A' B' j = mm A B i :=
  Finset.sum_congr rfl fun k _ => by rw [hA k, hB k]

/-- The row scaling at an index depends on the entry there and on the row's factor. -/
theorem scaleRows_at {M M' N N' : ℕ} (G : Mat M N) (s : Mat M 1) (G' : Mat M' N') (s' : Mat M' 1)
    (j : (⟨2, ![M', N']⟩ : Shape).Idx) (i : (⟨2, ![M, N]⟩ : Shape).Idx)
    (hG : G' j = G i) (hs : s' (ix2 (c0 j) (0 : Fin 1)) = s (ix2 (c0 i) (0 : Fin 1))) :
    scaleRows G' s' j = scaleRows G s i := by
  unfold scaleRows; rw [hG, hs]

/-- The rectified bias layer at an index depends on the entry there and on the bias of its column. -/
theorem reluBias_at {M M' N N' : ℕ} (X : Mat M N) (b : Mat 1 N) (X' : Mat M' N') (b' : Mat 1 N')
    (j : (⟨2, ![M', N']⟩ : Shape).Idx) (i : (⟨2, ![M, N]⟩ : Shape).Idx)
    (hX : X' j = X i) (hb : b' (ix2 (0 : Fin 1) (c1 j)) = b (ix2 (0 : Fin 1) (c1 i))) :
    reluBias X' b' j = reluBias X b i := by
  unfold reluBias; rw [hX, hb]

end Cert.RowScale

end
-- ==== Proof.Spec.lean ====
/-
  A two-layer graph convolution with symmetric degree normalisation, read as whole-array functions on the
  extended reals.

  Nodes are rows.  Every node has an out-factor and an in-factor, both computed from the edge lists alone: with
  deg(n) the number of edges whose index entry is n, the factor is 1/sqrt(max(deg n, 1)) where deg n > 0 and 1
  elsewhere (`degInv`).  One layer takes node features X, scales row n by the out-factor of n, multiplies by the
  weight matrix (`proj`), sends along every edge e the row of its source node times the edge weight, sums at
  each node the rows arriving there, scales row n by the in-factor of n and adds the bias row (`layerA`,
  `layerB`: the same operations at widths 128 and 16).  The second layer rectifies its input first (`projRelu`).
  The result keeps, for each graph g, the row of node target(g) + (number of nodes in the graphs before g)
  (`pick`).

  The edge part and the final selection are the same operations in both programs, so they are named here once and
  never opened.  The two dense projections are what differs in spelling: `proj` and `projRelu` state them as a
  matrix product of the row-scaled features.
-/
import proofs.«179616_j10333691314779_1_alg».proof.KernelIdeal
import proofs.«179616_j10333691314779_1_alg».proof.Proof.LibDense
import proofs.«179616_j10333691314779_1_alg».proof.Proof.LibRowScale
import Idealize.ShloMosaic.PureOps.Ideal

noncomputable section

namespace Cert.Gcn

open Idealize.ShloMosaic Cert.KernelIdeal Cert.KernelIdeal.Facts₀ Cert.Dense Cert.RowScale

variable [Cert.KernelIdeal.Facts]

/-- The contents of a buffer of shape `S` and element type `e` on the extended reals. -/
abbrev Arr (S : Shape) (e : EltTy) : Type := (⟨S, e⟩ : BufTy).Contents (Elt Ideal)

/-- deg(n): the number of entries of `idx` equal to n, as a sum of ones scattered into a zero vector. -/
def degOf (idx : Arr S2097152 .i32) : Arr S262144 .f32 :=
  Host.scatterAdd (F := Ideal) scatter_S262144_S2097152x1_S2097152_n_0_0_1
    (broadcastInDim S262144 ![] bcast_S_S262144 (constant (F := Ideal) S_ .f32 0x00000000#32))
    (broadcastInDim S2097152x1 ![0] bcast_S2097152_S2097152x1_0 idx)
    (broadcastInDim S2097152 ![] bcast_S_S2097152 (constant (F := Ideal) S_ .f32 0x3F800000#32))

/-- The per-node factor: 1/sqrt(max(deg, 1)) where deg > 0, and 1 elsewhere. -/
def degInv (idx : Arr S2097152 .i32) : Arr S262144 .f32 :=
  select (cmpf (F := Ideal) .ogt (degOf idx) (broadcastInDim S262144 ![] bcast_S_S262144 (constant (F := Ideal) S_ .f32 0x00000000#32)))
    (Host.rsqrt (F := Ideal) (maximumf (F := Ideal) (degOf idx) (broadcastInDim S262144 ![] bcast_S_S262144 (constant (F := Ideal) S_ .f32 0x3F800000#32))))
    (broadcastInDim S262144 ![] bcast_S_S262144 (id (constant (F := Ideal) S_ .f32 0x3F800000#32)))

/-- A negative index entry counts from the end: idx + 262144 where idx < 0. -/
def wrapE (idx : Arr S2097152 .i32) : Arr S2097152 .i32 :=
  select (cmpi .slt idx (broadcastInDim S2097152 ![] bcast_S_S2097152 (constantI S_ 32 0#32)))
    (addi idx (broadcastInDim S2097152 ![] bcast_S_S2097152 (constantI S_ 32 262144#32))) idx

/-- The edge part of a layer at width 128: gather the source rows, weigh, sum at the destinations, scale by the
    in-factor, add the bias row. -/
def layerA (h : Arr S262144x128 .f32) (src dst : Arr S2097152 .i32) (ew : Arr S2097152 .f32) (dIn : Arr S262144 .f32)
    (b : Arr S128 .f32) : Arr S262144x128 .f32 :=
  addf (F := Ideal)
    (mulf (F := Ideal)
      (Host.scatterAdd (F := Ideal) scatter_S262144x128_S2097152x1_S2097152x128_1_0_0_1
        (broadcastInDim S262144x128 ![] bcast_S_S262144x128 (constant (F := Ideal) S_ .f32 0x00000000#32))
        (broadcastInDim S2097152x1 ![0] bcast_S2097152_S2097152x1_0 dst)
        (mulf (F := Ideal)
          (Host.gather gather_S262144x128_S2097152x1_S2097152x128_1_0_n_n_0_1_1128 h
            (broadcastInDim S2097152x1 ![0] bcast_S2097152_S2097152x1_0 (wrapE src)))
          (broadcastInDim S2097152x128 ![0, 1] bcast_S2097152x1_S2097152x128_0_1
            (broadcastInDim S2097152x1 ![0] bcast_S2097152_S2097152x1_0 ew))))
      (broadcastInDim S262144x128 ![0, 1] bcast_S262144x1_S262144x128_0_1
        (broadcastInDim S262144x1 ![0] bcast_S262144_S262144x1_0 dIn)))
    (broadcastInDim S262144x128 ![0, 1] bcast_S1x128_S262144x128_0_1 (broadcastInDim S1x128 ![1] bcast_S128_S1x128_1 b))

/-- The edge part of a layer at width 16. -/
def layerB (h : Arr S262144x16 .f32) (src dst : Arr S2097152 .i32) (ew : Arr S2097152 .f32) (dIn : Arr S262144 .f32)
    (b : Arr S16 .f32) : Arr S262144x16 .f32 :=
  addf (F := Ideal)
    (mulf (F := Ideal)
      (Host.scatterAdd (F := Ideal) scatter_S262144x16_S2097152x1_S2097152x16_1_0_0_1
        (broadcastInDim S262144x16 ![] bcast_S_S262144x16 (constant (F := Ideal) S_ .f32 0x00000000#32))
        (broadcastInDim S2097152x1 ![0] bcast_S2097152_S2097152x1_0 dst)
        (mulf (F := Ideal)
          (Host.gather gather_S262144x16_S2097152x1_S2097152x16_1_0_n_n_0_1_116 h
            (broadcastInDim S2097152x1 ![0] bcast_S2097152_S2097152x1_0 (wrapE src)))
          (broadcastInDim S2097152x16 ![0, 1] bcast_S2097152x1_S2097152x16_0_1
            (broadcastInDim S2097152x1 ![0] bcast_S2097152_S2097152x1_0 ew))))
      (broadcastInDim S262144x16 ![0, 1] bcast_S262144x1_S262144x16_0_1
        (broadcastInDim S262144x1 ![0] bcast_S262144_S262144x1_0 dIn)))
    (broadcastInDim S262144x16 ![0, 1] bcast_S1x16_S262144x16_0_1 (broadcastInDim S1x16 ![1] bcast_S16_S1x16_1 b))

/-- Running totals of the graph sizes: entry g is the sum of the sizes of graphs 0 … g. -/
def runTotal (nn : Arr S1024 .i32) : Arr S1024 .i32 :=
  Host.reduceWindow IntOp.addi ![1024] ![1] ![1023] ![0] nn
    (broadcastInDim S_ ![] bcast_S_S_ (constantI S_ 32 0#32)) reduceWindows_S1024_S1024_w1024s1p1023_0 h_S_

/-- The node each graph keeps: its target plus the number of nodes before the graph (a zero in front of the
    running totals, the last one dropped), counted from the end where negative. -/
def pickIdx (tgt nn : Arr S1024 .i32) : Arr S1024 .i32 :=
  select
    (cmpi .slt (addi tgt (extractStridedSlice S1024 ![0]
        (concatenate S1025 0 [⟨S1, broadcastInDim S1 ![] bcast_S_S1 (constantI S_ 32 0#32)⟩, ⟨S1024, runTotal nn⟩] concatenates_S1_S1024_S1025_d0)
        slices_S1025_S1024_0)) (broadcastInDim S1024 ![] bcast_S_S1024 (constantI S_ 32 0#32)))
    (addi (addi tgt (extractStridedSlice S1024 ![0]
        (concatenate S1025 0 [⟨S1, broadcastInDim S1 ![] bcast_S_S1 (constantI S_ 32 0#32)⟩, ⟨S1024, runTotal nn⟩] concatenates_S1_S1024_S1025_d0)
        slices_S1025_S1024_0)) (broadcastInDim S1024 ![] bcast_S_S1024 (constantI S_ 32 262144#32)))
    (addi tgt (extractStridedSlice S1024 ![0]
        (concatenate S1025 0 [⟨S1, broadcastInDim S1 ![] bcast_S_S1 (constantI S_ 32 0#32)⟩, ⟨S1024, runTotal nn⟩] concatenates_S1_S1024_S1025_d0)
        slices_S1025_S1024_0))

/-- The rows the graphs keep. -/
def pick (h : Arr S262144x16 .f32) (tgt nn : Arr S1024 .i32) : Arr S1024x16 .f32 :=
  Host.gather gather_S262144x16_S1024x1_S1024x16_1_0_n_n_0_1_116 h (broadcastInDim S1024x1 ![0] bcast_S1024_S1024x1_0 (pickIdx tgt nn))

/-- The dense projection: rows scaled by the factor column, times the weights. -/
def proj {M K N : ℕ} (X : Mat M K) (D : Mat M 1) (W : Mat K N) : Mat M N := mm (scaleRows X D) W

/-- An array rectified: max(x, 0) entry by entry. -/
def relu {M N : ℕ} (X : Mat M N) : Mat M N := fun i => max (X i) 0

/-- The dense projection of the rectified input. -/
def projRelu {M K N : ℕ} (X : Mat M K) (D : Mat M 1) (W : Mat K N) : Mat M N := mm (scaleRows (relu X) D) W

/-- The whole network as one function of the ten arguments. -/
def net (x : Arr S262144x512 .f32) (ew : Arr S2097152 .f32) (W1 : Arr S512x128 .f32) (b1 : Arr S128 .f32)
    (W2 : Arr S128x16 .f32) (b2 : Arr S16 .f32) (src dst : Arr S2097152 .i32) (tgt nn : Arr S1024 .i32) : Arr S1024x16 .f32 :=
  pick (layerB (projRelu (layerA (proj x (col (degInv src)) W1) src dst ew (degInv dst) b1) (col (degInv src)) W2)
    src dst ew (degInv dst) b2) tgt nn

end Cert.Gcn

end
-- ==== Proof.LibTypedRef.lean ====
/-
  Typed references: a value carried to a buffer's own type and back is the value.

  A host operation of a called function is stated over typed references: a reference together with the equation that
  its buffer's type is the value's type. The operation's function is conjugated by the transport along that equation
  (`toBuf` into the buffer's type, `ofBuf` out of it). Reading a chain of such operations back therefore leaves
  pairs `ofBuf (toBuf v)` around every intermediate value; each pair is the identity.
-/
import Idealize.ShloMosaic.Lib.StableHlo

namespace Cert.TypedRef

open Idealize.ShloMosaic Idealize.ShloMosaic.StableHlo

/-- Carrying a value to the buffer's type and back gives the value. -/
theorem ofBuf_toBuf {sig : RefSig} {T : BufTy} {Val : EltTy → Type} (x : TRef sig T) (v : T.Contents Val) :
    x.ofBuf (x.toBuf v) = v := by
  obtain ⟨r, h, a, b⟩ := x
  subst h
  rfl

/-- Carrying a buffer's contents to the value's type and back gives the contents. -/
theorem toBuf_ofBuf {sig : RefSig} {T : BufTy} {Val : EltTy → Type} (x : TRef sig T) (v : x.ref.ty.Contents Val) :
    x.toBuf (x.ofBuf v) = v := by
  obtain ⟨r, h, a, b⟩ := x
  subst h
  rfl

end Cert.TypedRef
-- ==== Proof.KRead.lean ====
/-
  The kernel program's host stretches, read at the buffers the proof needs.

  Before the first region the host computes the two per-node factors from the edge lists (`degInv` of the source
  entries and of the destination entries) and lays the out-factor out as a column.  Between the regions it runs the
  edge part of the first layer on the first projection (`layerA`) and lays the out-factor out as a column again.
  After the second region it runs the edge part of the second layer on the second projection (`layerB`) and keeps
  one row per graph (`pick`).  No stretch writes an argument array or a factor it did not compute.  Each statement
  is over an arbitrary valuation of the buffers before the stretch.
-/
import proofs.«179616_j10333691314779_1_alg».proof.Proof.Gen.KernelIdeal.Launch
import proofs.«179616_j10333691314779_1_alg».proof.Proof.Spec
import proofs.«179616_j10333691314779_1_alg».proof.Proof.LibTypedRef
import Idealize.ShloMosaic.Lib.StableHlo.Run

set_option maxRecDepth 16384

noncomputable section

namespace Cert.Gcn.K

open Cert.KernelIdeal Cert.KernelIdeal.Gen
open Idealize.ShloMosaic Idealize.ShloMosaic.TcCoe Idealize.ShloMosaic.StableHlo Idealize.SL.Sem

/-! ## Before the first region, stretch by stretch

The degree counts and the first factor's ingredients; the first selection; the second factor's ingredients; the
second selection; the column. -/

theorem s0_pos (X : Valuation τ sig (Elt Ideal)) : after hostOps0 X (Proc.devRef .tc main_v8)
    = cmpf (F := Ideal) .ogt (degOf (X (Proc.devRef .tc main_arg6))) (broadcastInDim S262144 ![] bcast_S_S262144 (constant (F := Ideal) S_ .f32 0x00000000#32)) := by
  after_results_simp
  rfl
theorem s0_rsqrt (X : Valuation τ sig (Elt Ideal)) : after hostOps0 X (Proc.devRef .tc main_v11)
    = Host.rsqrt (F := Ideal) (maximumf (F := Ideal) (degOf (X (Proc.devRef .tc main_arg6))) (broadcastInDim S262144 ![] bcast_S_S262144 (constant (F := Ideal) S_ .f32 0x3F800000#32))) := by
  after_results_simp
  rfl
theorem s0_one (X : Valuation τ sig (Elt Ideal)) : after hostOps0 X (Proc.devRef .tc main_cst_4) = (constant (F := Ideal) S_ .f32 0x3F800000#32) := by
  after_results_simp
theorem s0_degIn (X : Valuation τ sig (Elt Ideal)) : after hostOps0 X (Proc.devRef .tc main_v6) = degOf (X (Proc.devRef .tc main_arg7)) := by
  after_results_simp
  rfl

theorem s1_select (X : Valuation τ sig (Elt Ideal)) : after hostOps0_1 X (Proc.devRef .tc main_v12)
    = select (X (Proc.devRef .tc main_v8)) (X (Proc.devRef .tc main_v11)) (broadcastInDim S262144 ![] bcast_S_S262144 (id (X (Proc.devRef .tc main_cst_4)))) := by
  after_results
  rfl
theorem s1_keeps_degIn (X : Valuation τ sig (Elt Ideal)) : after hostOps0_1 X (Proc.devRef .tc main_v6) = X (Proc.devRef .tc main_v6) := by
  after_results

theorem s2_pos (X : Valuation τ sig (Elt Ideal)) : after hostOps0_2 X (Proc.devRef .tc main_v14)
    = cmpf (F := Ideal) .ogt (X (Proc.devRef .tc main_v6)) (broadcastInDim S262144 ![] bcast_S_S262144 (constant (F := Ideal) S_ .f32 0x00000000#32)) := by
  after_results
theorem s2_rsqrt (X : Valuation τ sig (Elt Ideal)) : after hostOps0_2 X (Proc.devRef .tc main_v17)
    = Host.rsqrt (F := Ideal) (maximumf (F := Ideal) (X (Proc.devRef .tc main_v6)) (broadcastInDim S262144 ![] bcast_S_S262144 (constant (F := Ideal) S_ .f32 0x3F800000#32))) := by
  after_results
theorem s2_one (X : Valuation τ sig (Elt Ideal)) : after hostOps0_2 X (Proc.devRef .tc main_cst_7) = (constant (F := Ideal) S_ .f32 0x3F800000#32) := by
  after_results
theorem s2_keeps_out (X : Valuation τ sig (Elt Ideal)) : after hostOps0_2 X (Proc.devRef .tc main_v12) = X (Proc.devRef .tc main_v12) := by
  after_results

theorem s3_select (X : Valuation τ sig (Elt Ideal)) : after hostOps0_3 X (Proc.devRef .tc main_v18)
    = select (X (Proc.devRef .tc main_v14)) (X (Proc.devRef .tc main_v17)) (broadcastInDim S262144 ![] bcast_S_S262144 (id (X (Proc.devRef .tc main_cst_7)))) := by
  after_results
  rfl
theorem s3_keeps_out (X : Valuation τ sig (Elt Ideal)) : after hostOps0_3 X (Proc.devRef .tc main_v12) = X (Proc.devRef .tc main_v12) := by
  after_results

theorem s4_column (X : Valuation τ sig (Elt Ideal)) : after hostOps0_4 X (Proc.devRef .tc main_v19)
    = shapeCast S262144x1 (X (Proc.devRef .tc main_v12)) shapeCasts_S262144_S262144x1 := by
  after_results
  rfl
theorem s4_keeps_out (X : Valuation τ sig (Elt Ideal)) : after hostOps0_4 X (Proc.devRef .tc main_v12) = X (Proc.devRef .tc main_v12) := by
  after_results
theorem s4_keeps_in (X : Valuation τ sig (Elt Ideal)) : after hostOps0_4 X (Proc.devRef .tc main_v18) = X (Proc.devRef .tc main_v18) := by
  after_results

/-! ## Before the first region, as a whole -/

/-- The out-factor: `degInv` of the source entries. -/
theorem pre_outFactor (X : Valuation τ sig (Elt Ideal)) :
    after hostOps0_4 (after hostOps0_3 (after hostOps0_2 (after hostOps0_1 (after hostOps0 X)))) (Proc.devRef .tc main_v12) = degInv (X (Proc.devRef .tc main_arg6)) := by
  rw [s4_keeps_out, s3_keeps_out, s2_keeps_out, s1_select, s0_pos, s0_rsqrt, s0_one]
  rfl

/-- The in-factor: `degInv` of the destination entries. -/
theorem pre_inFactor (X : Valuation τ sig (Elt Ideal)) :
    after hostOps0_4 (after hostOps0_3 (after hostOps0_2 (after hostOps0_1 (after hostOps0 X)))) (Proc.devRef .tc main_v18) = degInv (X (Proc.devRef .tc main_arg7)) := by
  rw [s4_keeps_in, s3_select, s2_pos, s2_rsqrt, s2_one, s1_keeps_degIn, s0_degIn]
  rfl

/-- The out-factor as a column. -/
theorem pre_outColumn (X : Valuation τ sig (Elt Ideal)) :
    after hostOps0_4 (after hostOps0_3 (after hostOps0_2 (after hostOps0_1 (after hostOps0 X)))) (Proc.devRef .tc main_v19) = shapeCast S262144x1 (degInv (X (Proc.devRef .tc main_arg6))) shapeCasts_S262144_S262144x1 := by
  rw [s4_column, s3_keeps_out, s2_keeps_out, s1_select, s0_pos, s0_rsqrt, s0_one]
  rfl

theorem pre_keeps_main_arg0 (X : Valuation τ sig (Elt Ideal)) : after hostOps0_4 (after hostOps0_3 (after hostOps0_2 (after hostOps0_1 (after hostOps0 X)))) (Proc.devRef .tc main_arg0) = X (Proc.devRef .tc main_arg0) := by
  after_results_simp
theorem pre_keeps_main_arg1 (X : Valuation τ sig (Elt Ideal)) : after hostOps0_4 (after hostOps0_3 (after hostOps0_2 (after hostOps0_1 (after hostOps0 X)))) (Proc.devRef .tc main_arg1) = X (Proc.devRef .tc main_arg1) := by
  after_results_simp
theorem pre_keeps_main_arg2 (X : Valuation τ sig (Elt Ideal)) : after hostOps0_4 (after hostOps0_3 (after hostOps0_2 (after hostOps0_1 (after hostOps0 X)))) (Proc.devRef .tc main_arg2) = X (Proc.devRef .tc main_arg2) := by
  after_results_simp
theorem pre_keeps_main_arg3 (X : Valuation τ sig (Elt Ideal)) : after hostOps0_4 (after hostOps0_3 (after hostOps0_2 (after hostOps0_1 (after hostOps0 X)))) (Proc.devRef .tc main_arg3) = X (Proc.devRef .tc main_arg3) := by
  after_results_simp
theorem pre_keeps_main_arg4 (X : Valuation τ sig (Elt Ideal)) : after hostOps0_4 (after hostOps0_3 (after hostOps0_2 (after hostOps0_1 (after hostOps0 X)))) (Proc.devRef .tc main_arg4) = X (Proc.devRef .tc main_arg4) := by
  after_results_simp
theorem pre_keeps_main_arg5 (X : Valuation τ sig (Elt Ideal)) : after hostOps0_4 (after hostOps0_3 (after hostOps0_2 (after hostOps0_1 (after hostOps0 X)))) (Proc.devRef .tc main_arg5) = X (Proc.devRef .tc main_arg5) := by
  after_results_simp
theorem pre_keeps_main_arg6 (X : Valuation τ sig (Elt Ideal)) : after hostOps0_4 (after hostOps0_3 (after hostOps0_2 (after hostOps0_1 (after hostOps0 X)))) (Proc.devRef .tc main_arg6) = X (Proc.devRef .tc main_arg6) := by
  after_results_simp
theorem pre_keeps_main_arg7 (X : Valuation τ sig (Elt Ideal)) : after hostOps0_4 (after hostOps0_3 (after hostOps0_2 (after hostOps0_1 (after hostOps0 X)))) (Proc.devRef .tc main_arg7) = X (Proc.devRef .tc main_arg7) := by
  after_results_simp
theorem pre_keeps_main_arg8 (X : Valuation τ sig (Elt Ideal)) : after hostOps0_4 (after hostOps0_3 (after hostOps0_2 (after hostOps0_1 (after hostOps0 X)))) (Proc.devRef .tc main_arg8) = X (Proc.devRef .tc main_arg8) := by
  after_results_simp
theorem pre_keeps_main_arg9 (X : Valuation τ sig (Elt Ideal)) : after hostOps0_4 (after hostOps0_3 (after hostOps0_2 (after hostOps0_1 (after hostOps0 X)))) (Proc.devRef .tc main_arg9) = X (Proc.devRef .tc main_arg9) := by
  after_results_simp

/-! ## Between the regions -/

/-- The first layer's output: the edge part applied to the first projection. -/
theorem mid_layer (X : Valuation τ sig (Elt Ideal)) :
    after hostOps1 X (Proc.devRef .tc main_v39)
      = layerA (X (Proc.devRef .tc main_v20)) (X (Proc.devRef .tc main_arg6)) (X (Proc.devRef .tc main_arg7)) (X (Proc.devRef .tc main_arg1)) (X (Proc.devRef .tc main_v18)) (X (Proc.devRef .tc main_arg3)) := by
  after_results_simp
  rfl

/-- The out-factor as a column, again. -/
theorem mid_outColumn (X : Valuation τ sig (Elt Ideal)) :
    after hostOps1 X (Proc.devRef .tc main_v40) = shapeCast S262144x1 (X (Proc.devRef .tc main_v12)) shapeCasts_S262144_S262144x1 := by
  after_results_simp
  rfl

theorem mid_keeps_main_arg1 (X : Valuation τ sig (Elt Ideal)) : after hostOps1 X (Proc.devRef .tc main_arg1) = X (Proc.devRef .tc main_arg1) := by
  after_results_simp
theorem mid_keeps_main_arg4 (X : Valuation τ sig (Elt Ideal)) : after hostOps1 X (Proc.devRef .tc main_arg4) = X (Proc.devRef .tc main_arg4) := by
  after_results_simp
theorem mid_keeps_main_arg5 (X : Valuation τ sig (Elt Ideal)) : after hostOps1 X (Proc.devRef .tc main_arg5) = X (Proc.devRef .tc main_arg5) := by
  after_results_simp
theorem mid_keeps_main_arg6 (X : Valuation τ sig (Elt Ideal)) : after hostOps1 X (Proc.devRef .tc main_arg6) = X (Proc.devRef .tc main_arg6) := by
  after_results_simp
theorem mid_keeps_main_arg7 (X : Valuation τ sig (Elt Ideal)) : after hostOps1 X (Proc.devRef .tc main_arg7) = X (Proc.devRef .tc main_arg7) := by
  after_results_simp
theorem mid_keeps_main_arg8 (X : Valuation τ sig (Elt Ideal)) : after hostOps1 X (Proc.devRef .tc main_arg8) = X (Proc.devRef .tc main_arg8) := by
  after_results_simp
theorem mid_keeps_main_arg9 (X : Valuation τ sig (Elt Ideal)) : after hostOps1 X (Proc.devRef .tc main_arg9) = X (Proc.devRef .tc main_arg9) := by
  after_results_simp
theorem mid_keeps_main_v18 (X : Valuation τ sig (Elt Ideal)) : after hostOps1 X (Proc.devRef .tc main_v18) = X (Proc.devRef .tc main_v18) := by
  after_results_simp

/-! ## After the second region, stretch by stretch: the second layer's edge part and the zero in front of the
running totals; the running totals; the selection. -/

theorem t0_layer (X : Valuation τ sig (Elt Ideal)) : after hostOps2 X (Proc.devRef .tc main_v60)
    = layerB (X (Proc.devRef .tc main_v41)) (X (Proc.devRef .tc main_arg6)) (X (Proc.devRef .tc main_arg7)) (X (Proc.devRef .tc main_arg1)) (X (Proc.devRef .tc main_v18)) (X (Proc.devRef .tc main_arg5)) := by
  after_results_simp
  rfl
theorem t0_zero (X : Valuation τ sig (Elt Ideal)) : after hostOps2 X (Proc.devRef .tc main_v61) = broadcastInDim S1 ![] bcast_S_S1 (constantI S_ 32 0#32) := by
  after_results_simp
theorem t0_keeps_main_arg8 (X : Valuation τ sig (Elt Ideal)) : after hostOps2 X (Proc.devRef .tc main_arg8) = X (Proc.devRef .tc main_arg8) := by
  after_results_simp
theorem t0_keeps_main_arg9 (X : Valuation τ sig (Elt Ideal)) : after hostOps2 X (Proc.devRef .tc main_arg9) = X (Proc.devRef .tc main_arg9) := by
  after_results_simp

/-- Carrying the running totals to their buffer's own type changes nothing (the buffer's type is the value's). -/
theorem totals_toBuf (h1 h2 h3) (e : Arr S1024 .i32) :
    (TRef.of (sig := sig) (T := ⟨S1024, .i32⟩) main_v62 h1 h2 h3).toBuf e = e := rfl
/-- Reading the graph sizes at the value's type changes nothing. -/
theorem sizes_ofBuf (h1 h2 h3) (e : Arr S1024 .i32) :
    (TRef.of (sig := sig) (T := ⟨S1024, .i32⟩) main_arg9 h1 h2 h3).ofBuf e = e := rfl
theorem t1_totals (X : Valuation τ sig (Elt Ideal)) : after hostOps2_1 X (Proc.devRef .tc main_v62) = runTotal (X (Proc.devRef .tc main_arg9)) := by
  after_results
  simp only [Cert.TypedRef.ofBuf_toBuf]
  rw [totals_toBuf, sizes_ofBuf]
  rfl
theorem t1_keeps_main_arg8 (X : Valuation τ sig (Elt Ideal)) : after hostOps2_1 X (Proc.devRef .tc main_arg8) = X (Proc.devRef .tc main_arg8) := by
  after_results_simp
theorem t1_keeps_main_v60 (X : Valuation τ sig (Elt Ideal)) : after hostOps2_1 X (Proc.devRef .tc main_v60) = X (Proc.devRef .tc main_v60) := by
  after_results_simp
theorem t1_keeps_main_v61 (X : Valuation τ sig (Elt Ideal)) : after hostOps2_1 X (Proc.devRef .tc main_v61) = X (Proc.devRef .tc main_v61) := by
  after_results_simp

theorem t2_pick (X : Valuation τ sig (Elt Ideal)) : after hostOps2_2 X (Proc.devRef .tc main_v72)
    = Host.gather gather_S262144x16_S1024x1_S1024x16_1_0_n_n_0_1_116 (X (Proc.devRef .tc main_v60))
        (broadcastInDim S1024x1 ![0] bcast_S1024_S1024x1_0
          (select
            (cmpi .slt (addi (X (Proc.devRef .tc main_arg8)) (extractStridedSlice S1024 ![0]
                (concatenate S1025 0 [⟨S1, X (Proc.devRef .tc main_v61)⟩, ⟨S1024, X (Proc.devRef .tc main_v62)⟩] concatenates_S1_S1024_S1025_d0) slices_S1025_S1024_0))
              (broadcastInDim S1024 ![] bcast_S_S1024 (constantI S_ 32 0#32)))
            (addi (addi (X (Proc.devRef .tc main_arg8)) (extractStridedSlice S1024 ![0]
                (concatenate S1025 0 [⟨S1, X (Proc.devRef .tc main_v61)⟩, ⟨S1024, X (Proc.devRef .tc main_v62)⟩] concatenates_S1_S1024_S1025_d0) slices_S1025_S1024_0))
              (broadcastInDim S1024 ![] bcast_S_S1024 (constantI S_ 32 262144#32)))
            (addi (X (Proc.devRef .tc main_arg8)) (extractStridedSlice S1024 ![0]
                (concatenate S1025 0 [⟨S1, X (Proc.devRef .tc main_v61)⟩, ⟨S1024, X (Proc.devRef .tc main_v62)⟩] concatenates_S1_S1024_S1025_d0) slices_S1025_S1024_0)))) := by
  after_results_simp

/-- The result: the edge part of the second layer applied to the second projection, one row kept per graph. -/
theorem post_result (X : Valuation τ sig (Elt Ideal)) :
    after hostOps2_2 (after hostOps2_1 (after hostOps2 X)) (Proc.devRef .tc main_v72)
      = pick (layerB (X (Proc.devRef .tc main_v41)) (X (Proc.devRef .tc main_arg6)) (X (Proc.devRef .tc main_arg7)) (X (Proc.devRef .tc main_arg1)) (X (Proc.devRef .tc main_v18)) (X (Proc.devRef .tc main_arg5)))
          (X (Proc.devRef .tc main_arg8)) (X (Proc.devRef .tc main_arg9)) := by
  rw [t2_pick, t1_keeps_main_v60, t1_keeps_main_v61, t1_keeps_main_arg8, t1_totals, t0_layer, t0_zero, t0_keeps_main_arg8, t0_keeps_main_arg9]
  rfl

end Cert.Gcn.K

end
-- ==== Proof.RegionVal.lean ====
/-
  What each of the two tiled dense projections leaves in its output array, as one whole-array function.

  Both projections walk the 262144 rows in 64 blocks of 4096 rows.  At block `t` the body reads rows
  `4096·t … 4096·t + 4095` of the features and of the one-column array of factors, reads the whole weight matrix,
  and writes rows `4096·t … 4096·t + 4095` of the output: the block of features scaled row by row by the block of
  factors (rectified first, in the second projection), times the weights.

  The entry `(p, q)` of a matrix product of row-scaled features depends on row `p` of the features, on the factor
  of row `p`, and on column `q` of the weights, and on nothing else.  So the entry `(y₀, y₁)` of the product
  computed on block `t` is the entry `(4096·t + y₀, y₁)` of the product computed on the whole arrays: what block
  `t` writes back is block `t` of ONE whole-array function, `proj` (resp. `projRelu`) of the arrays as the region
  finds them.  The 64 blocks cover every row (row `r` lies in block `r / 4096`), so after the last block the output
  array IS that function of the inputs.
-/
import proofs.«179616_j10333691314779_1_alg».proof.Proof.Gen.KernelIdeal.Frame
import proofs.«179616_j10333691314779_1_alg».proof.Proof.Spec
import Idealize.ShloMosaic.Lib.Pipeline.Value
import Idealize.ShloMosaic.PureOps.Ideal.Laws

-- membership in a rectangle of these extents: the elaborator's structural look recurses once per coordinate
set_option maxRecDepth 16384

noncomputable section

namespace Cert.Gcn.Region

open Idealize.ShloMosaic Idealize.ShloMosaic.TcCoe Idealize.ShloMosaic.ValueIdx
open Cert.KernelIdeal Cert.KernelIdeal.Facts₀ Cert.KernelIdeal.Facts Cert.KernelIdeal.Gen
open Cert.Dense Cert.RowScale
open Idealize.ShloMosaic.Pipeline (Dat Cfg Window)

/-! ## The block computation as mathematics -/

/-- The column of factors, passed through a reshape to its own shape, broadcast along the rows and multiplied in:
    every row scaled by its factor. -/
theorem scaled {M N : ℕ} (G : FVec Ideal ⟨2, ![M, N]⟩ .f32) (s : FVec Ideal ⟨2, ![M, 1]⟩ .f32)
    (h1 : (⟨2, ![M, 1]⟩ : Shape).ShapeCasts ⟨2, ![M, 1]⟩) (h2 : (⟨2, ![M, 1]⟩ : Shape).Broadcasts ⟨2, ![M, N]⟩) :
    mulf G (broadcastTo ⟨2, ![M, N]⟩ (shapeCast ⟨2, ![M, 1]⟩ s h1) h2) = scaleRows G s := by
  rw [shapeCast_self]; exact vecScaleRows G s h2

/-- The maximum with a zero splat, entry by entry, is the rectifier (the zero bit pattern denotes 0). -/
theorem rectified {M N : ℕ} (x : FVec Ideal ⟨2, ![M, N]⟩ .f32) (h : (⟨2, ![M, N]⟩ : Shape).ShapeCasts ⟨2, ![M, N]⟩) :
    maximumf (F := Ideal) (shapeCast ⟨2, ![M, N]⟩ x h) (broadcast ⟨2, ![M, N]⟩ (Scalar.ofBits (F := Ideal) .f32 0x00000000#32))
      = relu x := by
  rw [shapeCast_self]
  funext i
  show max (x i) (Ideal.ofBits .f32 0x00000000#32) = max (x i) 0
  rw [Ideal.ofBits_zero_f32]

/-- The first projection on one block: on the extended reals the format changes are the identity, the product into a
    zero accumulator is the matrix product, so the block is the row-scaled features times the weights. -/
theorem block0 (x0 : Vec Ideal S4096x512 .f32) (x1 : Vec Ideal S4096x1 .f32) (x2 : Vec Ideal S512x128 .f32) :
    k0_pay1 (F := Ideal) x0 x1 x2 = mm (scaleRows x0 x1) x2 := by
  unfold k0_pay1
  show matmul (F := Ideal) (φ₁ := .f32) (φ₂ := .f32) dot_S4096x512_S512x128_S4096x128_1_0_0_1_n_n none
      (mulf x0 (broadcastTo S4096x512 (shapeCast S4096x1 x1 _) _)) x2
      (constant S4096x128 .f32 0x00000000#32) = _
  rw [scaled (M := 4096) (N := 512) x0 x1]
  exact matmul_zero_eq_mm _ rfl rfl rfl rfl rfl rfl none _ _

/-- The second projection on one block: the same with the features rectified first. -/
theorem block1 (x0 : Vec Ideal S4096x128 .f32) (x1 : Vec Ideal S4096x1 .f32) (x2 : Vec Ideal S128x16 .f32) :
    k1_pay1 (F := Ideal) x0 x1 x2 = mm (scaleRows (relu x0) x1) x2 := by
  unfold k1_pay1
  show matmul (F := Ideal) (φ₁ := .f32) (φ₂ := .f32) dot_S4096x128_S128x16_S4096x16_1_0_0_1_n_n none
      (mulf (maximumf (F := Ideal) (shapeCast S4096x128 x0 _) (broadcast S4096x128 (Scalar.ofBits (F := Ideal) .f32 0x00000000#32)))
        (broadcastTo S4096x128 (shapeCast S4096x1 x1 _) _)) x2
      (constant S4096x16 .f32 0x00000000#32) = _
  rw [rectified (M := 4096) (N := 128) x0, scaled (M := 4096) (N := 128) (relu x0) x1]
  exact matmul_zero_eq_mm _ rfl rfl rfl rfl rfl rfl none _ _

/-! ## Row locality: an entry of a block's product is an entry of the whole product -/

/-- Entry `y` of the product computed on `m` rows `X'`, `D'` equals entry `i` of the product computed on all `M` rows,
    when row `y₀` of `X'` is row `i₀` of `X`, the factor of row `y₀` is the factor of row `i₀`, and column `y₁` of the
    weights read is column `i₁` of the weights: the product reads nothing else. -/
theorem entry_proj {M m K N : ℕ} (X : Mat M K) (D : Mat M 1) (W : Mat K N) (X' : Mat m K) (D' : Mat m 1) (W' : Mat K N)
    (y : (⟨2, ![m, N]⟩ : Shape).Idx) (i : (⟨2, ![M, N]⟩ : Shape).Idx)
    (hX : ∀ k : Fin K, X' (ix2 (c0 y) k) = X (ix2 (c0 i) k))
    (hD : D' (ix2 (c0 y) (0 : Fin 1)) = D (ix2 (c0 i) (0 : Fin 1)))
    (hW : ∀ k : Fin K, W' (ix2 k (c1 y)) = W (ix2 k (c1 i))) :
    mm (scaleRows X' D') W' y = proj X D W i :=
  mm_at (scaleRows X D) W (scaleRows X' D') W' y i
    (fun k => scaleRows_at X D X' D' (ix2 (c0 y) k) (ix2 (c0 i) k) (hX k) hD) hW

/-- The same with the features rectified first: the rectifier acts entry by entry, so it keeps rows apart. -/
theorem entry_projRelu {M m K N : ℕ} (X : Mat M K) (D : Mat M 1) (W : Mat K N) (X' : Mat m K) (D' : Mat m 1) (W' : Mat K N)
    (y : (⟨2, ![m, N]⟩ : Shape).Idx) (i : (⟨2, ![M, N]⟩ : Shape).Idx)
    (hX : ∀ k : Fin K, X' (ix2 (c0 y) k) = X (ix2 (c0 i) k))
    (hD : D' (ix2 (c0 y) (0 : Fin 1)) = D (ix2 (c0 i) (0 : Fin 1)))
    (hW : ∀ k : Fin K, W' (ix2 k (c1 y)) = W (ix2 k (c1 i))) :
    mm (scaleRows (relu X') D') W' y = projRelu X D W i :=
  mm_at (scaleRows (relu X) D) W (scaleRows (relu X') D') W' y i
    (fun k => scaleRows_at (relu X) D (relu X') D' (ix2 (c0 y) k) (ix2 (c0 i) k)
      (congrArg (fun v : EReal => max v 0) (hX k)) hD) hW

/-- The zero offsets of a whole-buffer access, however spelt. -/
theorem zeroOffsets : (![0, 0] : Fin 2 → Nat) = fun _ => 0 := funext fun a => by fin_cases a <;> rfl

variable (V : (c : Dev nD) → (b : Ref sig .tc) → Buf (Elt Ideal) ((c : Thread nD τ).loc b))

/-! ## The first projection: rows of 512 features to 128 -/

/-- Which block each array is read or written at, at every one of the 64 points: features, factors and output at
    block row `t`, the weights whole. -/
theorem blockIndex0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point `t` writes back is block `t` of the whole-array projection of the arrays as the region finds them:
    entry `(y₀, y₁)` of the block product reads row `4096·t + y₀` of the features and of the factors and column `y₁`
    of the weights (a block's coordinate is its block index times its extent plus the coordinate inside it), which is
    what entry `(4096·t + y₀, y₁)` of the whole product reads (`entry_proj`). -/
theorem flushed0 (c : Dev nD) (t : Fin cfg0.N) :
    (dat0 (F := Ideal) V c).flushed 3 t
      = ((cfg0.win 3).blk t).view.read (Elt Ideal)
          (proj (M := 262144) (K := 512) (N := 128) (V c main_arg0) (V c main_v19) (V c main_arg2)) := by
  show (cfg0.win 3).cut (grid0.coords t) ((dat0 V c).after 3 t) = _
  rw [after0_3]
  unfold out0_3
  rw [View.canon_unit_zero zeroOffsets]
  simp only [View.ld_unit_zero (S := S4096x512) zeroOffsets, View.ld_unit_zero (S := S4096x1) zeroOffsets,
    View.ld_unit_zero (S := S512x128) zeroOffsets]
  rw [block0]
  obtain ⟨e0, e1, e2, e3, e4, e5, e6, e7⟩ := blockIndex0 t
  funext y
  show mm (scaleRows (iblk0 V c 0 t) (iblk0 V c 1 t)) (iblk0 V c 2 t) y
      = proj (M := 262144) (K := 512) (N := 128) (V c main_arg0) (V c main_v19) (V c main_arg2) (((cfg0.win 3).blk t).view.emb y)
  refine entry_proj (M := 262144) (m := 4096) (K := 512) (N := 128) _ _ _ _ _ _ y _ (fun k => ?_) ?_ (fun k => ?_)
  · show V c main_arg0 (((cfg0.win 0).blk t).view.emb (ix2 (c0 y) k)) = V c main_arg0 (ix2 (c0 (((cfg0.win 3).blk t).view.emb y)) k)
    refine congrArg (V c main_arg0) (funext fun a => Fin.ext ?_)
    match a with
    | ⟨0, _⟩ => show win0_0.index t (0 : Fin 2) * 4096 + 1 * (y 0).val = win0_3.index t (0 : Fin 2) * 4096 + 1 * (y 0).val; omega
    | ⟨1, _⟩ => show win0_0.index t (1 : Fin 2) * 512 + 1 * k.val = k.val; omega
  · show V c main_v19 (((cfg0.win 1).blk t).view.emb (ix2 (c0 y) (0 : Fin 1))) = V c main_v19 (ix2 (c0 (((cfg0.win 3).blk t).view.emb y)) (0 : Fin 1))
    refine congrArg (V c main_v19) (funext fun a => Fin.ext ?_)
    match a with
    | ⟨0, _⟩ => show win0_1.index t (0 : Fin 2) * 4096 + 1 * (y 0).val = win0_3.index t (0 : Fin 2) * 4096 + 1 * (y 0).val; omega
    | ⟨1, _⟩ => show win0_1.index t (1 : Fin 2) * 1 + 1 * 0 = 0; omega
  · show V c main_arg2 (((cfg0.win 2).blk t).view.emb (ix2 k (c1 y))) = V c main_arg2 (ix2 k (c1 (((cfg0.win 3).blk t).view.emb y)))
    refine congrArg (V c main_arg2) (funext fun a => Fin.ext ?_)
    match a with
    | ⟨0, _⟩ => show win0_2.index t (0 : Fin 2) * 512 + 1 * k.val = k.val; omega
    | ⟨1, _⟩ => show win0_2.index t (1 : Fin 2) * 128 + 1 * (y 1).val = win0_3.index t (1 : Fin 2) * 128 + 1 * (y 1).val; omega

/-- An index of the output array is in point `t`'s block iff each coordinate is in the block's range on its axis. -/
theorem mem_block0 (t : Fin cfg0.N) (i : S262144x128.Idx) :
    i ∈ ((cfg0.win 3).blk t).view.set ↔ ∀ a : Fin 2, win0_3.index t a * S4096x128.size a ≤ (i a).val
      ∧ (i a).val < win0_3.index t a * S4096x128.size a + S4096x128.size a := by
  show i ∈ ((View.whole main_v20).slice (win0_3.rect t)).set ↔ _
  rw [View.set_slice_whole, Rect.mem_set_unit]
  exact Iff.rfl

/-- The 64 blocks of 4096 rows cover the array: row `r` lies in block `r / 4096`, and every point writes back. -/
theorem cover0 (i : S262144x128.Idx) :
    ∃ t : Fin cfg0.N, (cfg0.win 3).flush t = true ∧ i ∈ ((cfg0.win 3).blk t).view.set := by
  have hN : grid0.N = 64 := N_0
  have hi0 : (i 0).val < 262144 := (i 0).isLt
  have hi1 : (i 1).val < 128 := (i 1).isLt
  obtain ⟨t, ht⟩ : ∃ t : Fin cfg0.N, t.val = (i 0).val / 4096 :=
    ⟨⟨(i 0).val / 4096, by show (i 0).val / 4096 < grid0.N; omega⟩, rfl⟩
  obtain ⟨e0, e1, e2, e3, e4, e5, e6, e7⟩ := blockIndex0 t
  refine ⟨t, flush0_3 t, ?_⟩
  rw [mem_block0]
  intro a
  match a with
  | ⟨0, _⟩ => show win0_3.index t (0 : Fin 2) * 4096 ≤ (i 0).val ∧ (i 0).val < win0_3.index t (0 : Fin 2) * 4096 + 4096; omega
  | ⟨1, _⟩ => show win0_3.index t (1 : Fin 2) * 128 ≤ (i 1).val ∧ (i 1).val < win0_3.index t (1 : Fin 2) * 128 + 128; omega

/-- THE OUTPUT ARRAY of the first projection after its 64 points: the row-scaled features times the weights, of the
    arrays as the region finds them. -/
theorem arr0 (c : Dev nD) :
    (dat0 (F := Ideal) V c).arrAt 3 cfg0.N
      = proj (M := 262144) (K := 512) (N := 128) (V c main_arg0) (V c main_v19) (V c main_arg2) :=
  (dat0 (F := Ideal) V c).arrAt_eq_of_cover 3 _ (fun t _ => flushed0 V c t) cover0

/-! ## The second projection: rows of 128 rectified features to 16 -/

/-- Which block each array is read or written at, at every one of the 64 points: features, factors and output at
    block row `t`, the weights whole. -/
theorem blockIndex1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point `t` writes back is block `t` of the whole-array rectified projection of the arrays as the region
    finds them: entry `(y₀, y₁)` of the block product reads row `4096·t + y₀` of the features and of the factors and
    column `y₁` of the weights, which is what entry `(4096·t + y₀, y₁)` of the whole product reads
    (`entry_projRelu`). -/
theorem flushed1 (c : Dev nD) (t : Fin cfg1.N) :
    (dat1 (F := Ideal) V c).flushed 3 t
      = ((cfg1.win 3).blk t).view.read (Elt Ideal)
          (projRelu (M := 262144) (K := 128) (N := 16) (V c main_v39) (V c main_v40) (V c main_arg4)) := by
  show (cfg1.win 3).cut (grid1.coords t) ((dat1 V c).after 3 t) = _
  rw [after1_3]
  unfold out1_3
  rw [View.canon_unit_zero zeroOffsets]
  simp only [View.ld_unit_zero (S := S4096x128) zeroOffsets, View.ld_unit_zero (S := S4096x1) zeroOffsets,
    View.ld_unit_zero (S := S128x16) zeroOffsets]
  rw [block1]
  obtain ⟨e0, e1, e2, e3, e4, e5, e6, e7⟩ := blockIndex1 t
  funext y
  show mm (scaleRows (relu (iblk1 V c 0 t)) (iblk1 V c 1 t)) (iblk1 V c 2 t) y
      = projRelu (M := 262144) (K := 128) (N := 16) (V c main_v39) (V c main_v40) (V c main_arg4) (((cfg1.win 3).blk t).view.emb y)
  refine entry_projRelu (M := 262144) (m := 4096) (K := 128) (N := 16) _ _ _ _ _ _ y _ (fun k => ?_) ?_ (fun k => ?_)
  · show V c main_v39 (((cfg1.win 0).blk t).view.emb (ix2 (c0 y) k)) = V c main_v39 (ix2 (c0 (((cfg1.win 3).blk t).view.emb y)) k)
    refine congrArg (V c main_v39) (funext fun a => Fin.ext ?_)
    match a with
    | ⟨0, _⟩ => show win1_0.index t (0 : Fin 2) * 4096 + 1 * (y 0).val = win1_3.index t (0 : Fin 2) * 4096 + 1 * (y 0).val; omega
    | ⟨1, _⟩ => show win1_0.index t (1 : Fin 2) * 128 + 1 * k.val = k.val; omega
  · show V c main_v40 (((cfg1.win 1).blk t).view.emb (ix2 (c0 y) (0 : Fin 1))) = V c main_v40 (ix2 (c0 (((cfg1.win 3).blk t).view.emb y)) (0 : Fin 1))
    refine congrArg (V c main_v40) (funext fun a => Fin.ext ?_)
    match a with
    | ⟨0, _⟩ => show win1_1.index t (0 : Fin 2) * 4096 + 1 * (y 0).val = win1_3.index t (0 : Fin 2) * 4096 + 1 * (y 0).val; omega
    | ⟨1, _⟩ => show win1_1.index t (1 : Fin 2) * 1 + 1 * 0 = 0; omega
  · show V c main_arg4 (((cfg1.win 2).blk t).view.emb (ix2 k (c1 y))) = V c main_arg4 (ix2 k (c1 (((cfg1.win 3).blk t).view.emb y)))
    refine congrArg (V c main_arg4) (funext fun a => Fin.ext ?_)
    match a with
    | ⟨0, _⟩ => show win1_2.index t (0 : Fin 2) * 128 + 1 * k.val = k.val; omega
    | ⟨1, _⟩ => show win1_2.index t (1 : Fin 2) * 16 + 1 * (y 1).val = win1_3.index t (1 : Fin 2) * 16 + 1 * (y 1).val; omega

/-- An index of the output array is in point `t`'s block iff each coordinate is in the block's range on its axis. -/
theorem mem_block1 (t : Fin cfg1.N) (i : S262144x16.Idx) :
    i ∈ ((cfg1.win 3).blk t).view.set ↔ ∀ a : Fin 2, win1_3.index t a * S4096x16.size a ≤ (i a).val
      ∧ (i a).val < win1_3.index t a * S4096x16.size a + S4096x16.size a := by
  show i ∈ ((View.whole main_v41).slice (win1_3.rect t)).set ↔ _
  rw [View.set_slice_whole, Rect.mem_set_unit]
  exact Iff.rfl

/-- The 64 blocks of 4096 rows cover the array: row `r` lies in block `r / 4096`, and every point writes back. -/
theorem cover1 (i : S262144x16.Idx) :
    ∃ t : Fin cfg1.N, (cfg1.win 3).flush t = true ∧ i ∈ ((cfg1.win 3).blk t).view.set := by
  have hN : grid1.N = 64 := N_1
  have hi0 : (i 0).val < 262144 := (i 0).isLt
  have hi1 : (i 1).val < 16 := (i 1).isLt
  obtain ⟨t, ht⟩ : ∃ t : Fin cfg1.N, t.val = (i 0).val / 4096 :=
    ⟨⟨(i 0).val / 4096, by show (i 0).val / 4096 < grid1.N; omega⟩, rfl⟩
  obtain ⟨e0, e1, e2, e3, e4, e5, e6, e7⟩ := blockIndex1 t
  refine ⟨t, flush1_3 t, ?_⟩
  rw [mem_block1]
  intro a
  match a with
  | ⟨0, _⟩ => show win1_3.index t (0 : Fin 2) * 4096 ≤ (i 0).val ∧ (i 0).val < win1_3.index t (0 : Fin 2) * 4096 + 4096; omega
  | ⟨1, _⟩ => show win1_3.index t (1 : Fin 2) * 16 ≤ (i 1).val ∧ (i 1).val < win1_3.index t (1 : Fin 2) * 16 + 16; omega

/-- THE OUTPUT ARRAY of the second projection after its 64 points: the rectified, row-scaled features times the
    weights, of the arrays as the region finds them. -/
theorem arr1 (c : Dev nD) :
    (dat1 (F := Ideal) V c).arrAt 3 cfg1.N
      = projRelu (M := 262144) (K := 128) (N := 16) (V c main_v39) (V c main_v40) (V c main_arg4) :=
  (dat1 (F := Ideal) V c).arrAt_eq_of_cover 3 _ (fun t _ => flushed1 V c t) cover1

end Cert.Gcn.Region

end
-- ==== Proof.KValue.lean ====
/-
  The idealized kernel program's result as one function of its arguments.

  Following the segments from the launch: the host computes the out-factor `d = degInv src` and the in-factor
  `e = degInv dst`; the first region leaves `proj x (col d) W1` in its output array; the host's edge part makes
  `h = layerA (proj x (col d) W1) src dst ew e b1`; the second region leaves `projRelu h (col d) W2`; the host's edge part
  and the final selection make `pick (layerB (projRelu h (col d) W2) src dst ew e b2) tgt nn`.  That is `net`.
  A region changes only its output array; the argument arrays and the factors pass through every segment.
-/
import proofs.«179616_j10333691314779_1_alg».proof.Proof.KRun
import proofs.«179616_j10333691314779_1_alg».proof.Proof.KRead
import proofs.«179616_j10333691314779_1_alg».proof.Proof.RegionVal

set_option maxRecDepth 16384

noncomputable section

namespace Cert.Gcn.K

open Cert.KernelIdeal Cert.KernelIdeal.Gen
open Idealize.ShloMosaic Idealize.ShloMosaic.TcCoe Idealize.ShloMosaic.StableHlo Idealize.SL.Sem
open Cert.Dense Cert.RowScale

variable (m : (ℓ : Loc nD τ sig) → Buf (Elt Ideal) ℓ) (ρ : Dev nD → PrngReg) (c : Dev nD)

/-! ## At the first region's entry -/

theorem e0_arg0 : W5 m ρ c (Proc.devRef .tc main_arg0) = (m ((c : Thread nD τ).loc main_arg0)) := pre_keeps_main_arg0 (W0 m ρ c)
theorem e0_arg1 : W5 m ρ c (Proc.devRef .tc main_arg1) = (m ((c : Thread nD τ).loc main_arg1)) := pre_keeps_main_arg1 (W0 m ρ c)
theorem e0_arg2 : W5 m ρ c (Proc.devRef .tc main_arg2) = (m ((c : Thread nD τ).loc main_arg2)) := pre_keeps_main_arg2 (W0 m ρ c)
theorem e0_arg3 : W5 m ρ c (Proc.devRef .tc main_arg3) = (m ((c : Thread nD τ).loc main_arg3)) := pre_keeps_main_arg3 (W0 m ρ c)
theorem e0_arg4 : W5 m ρ c (Proc.devRef .tc main_arg4) = (m ((c : Thread nD τ).loc main_arg4)) := pre_keeps_main_arg4 (W0 m ρ c)
theorem e0_arg5 : W5 m ρ c (Proc.devRef .tc main_arg5) = (m ((c : Thread nD τ).loc main_arg5)) := pre_keeps_main_arg5 (W0 m ρ c)
theorem e0_arg6 : W5 m ρ c (Proc.devRef .tc main_arg6) = (m ((c : Thread nD τ).loc main_arg6)) := pre_keeps_main_arg6 (W0 m ρ c)
theorem e0_arg7 : W5 m ρ c (Proc.devRef .tc main_arg7) = (m ((c : Thread nD τ).loc main_arg7)) := pre_keeps_main_arg7 (W0 m ρ c)
theorem e0_arg8 : W5 m ρ c (Proc.devRef .tc main_arg8) = (m ((c : Thread nD τ).loc main_arg8)) := pre_keeps_main_arg8 (W0 m ρ c)
theorem e0_arg9 : W5 m ρ c (Proc.devRef .tc main_arg9) = (m ((c : Thread nD τ).loc main_arg9)) := pre_keeps_main_arg9 (W0 m ρ c)
theorem e0_out : W5 m ρ c (Proc.devRef .tc main_v12) = degInv (m ((c : Thread nD τ).loc main_arg6)) := pre_outFactor (W0 m ρ c)
theorem e0_in : W5 m ρ c (Proc.devRef .tc main_v18) = degInv (m ((c : Thread nD τ).loc main_arg7)) := pre_inFactor (W0 m ρ c)
theorem e0_col : W5 m ρ c (Proc.devRef .tc main_v19) = col (degInv (m ((c : Thread nD τ).loc main_arg6))) :=
  (pre_outColumn (W0 m ρ c)).trans (shapeCast_col _ _)

/-! ## At the first region's exit -/

/-- The first projection. -/
theorem x0_proj : W6 m ρ c (Proc.devRef .tc main_v20) = proj (m ((c : Thread nD τ).loc main_arg0)) (col (degInv (m ((c : Thread nD τ).loc main_arg6)))) (m ((c : Thread nD τ).loc main_arg2)) := by
  refine (W6_arr m ρ c 3).trans ((Cert.Gcn.Region.arr0 (V5 m ρ) c).trans ?_)
  show proj (W5 m ρ c (Proc.devRef .tc main_arg0)) (W5 m ρ c (Proc.devRef .tc main_v19)) (W5 m ρ c (Proc.devRef .tc main_arg2)) = _
  rw [e0_arg0, e0_col, e0_arg2]

theorem x0_arg1 : W6 m ρ c (Proc.devRef .tc main_arg1) = (m ((c : Thread nD τ).loc main_arg1)) := (W6_of_ne m ρ c main_arg1 (by decide)).trans (e0_arg1 m ρ c)
theorem x0_arg3 : W6 m ρ c (Proc.devRef .tc main_arg3) = (m ((c : Thread nD τ).loc main_arg3)) := (W6_of_ne m ρ c main_arg3 (by decide)).trans (e0_arg3 m ρ c)
theorem x0_arg4 : W6 m ρ c (Proc.devRef .tc main_arg4) = (m ((c : Thread nD τ).loc main_arg4)) := (W6_of_ne m ρ c main_arg4 (by decide)).trans (e0_arg4 m ρ c)
theorem x0_arg5 : W6 m ρ c (Proc.devRef .tc main_arg5) = (m ((c : Thread nD τ).loc main_arg5)) := (W6_of_ne m ρ c main_arg5 (by decide)).trans (e0_arg5 m ρ c)
theorem x0_arg6 : W6 m ρ c (Proc.devRef .tc main_arg6) = (m ((c : Thread nD τ).loc main_arg6)) := (W6_of_ne m ρ c main_arg6 (by decide)).trans (e0_arg6 m ρ c)
theorem x0_arg7 : W6 m ρ c (Proc.devRef .tc main_arg7) = (m ((c : Thread nD τ).loc main_arg7)) := (W6_of_ne m ρ c main_arg7 (by decide)).trans (e0_arg7 m ρ c)
theorem x0_arg8 : W6 m ρ c (Proc.devRef .tc main_arg8) = (m ((c : Thread nD τ).loc main_arg8)) := (W6_of_ne m ρ c main_arg8 (by decide)).trans (e0_arg8 m ρ c)
theorem x0_arg9 : W6 m ρ c (Proc.devRef .tc main_arg9) = (m ((c : Thread nD τ).loc main_arg9)) := (W6_of_ne m ρ c main_arg9 (by decide)).trans (e0_arg9 m ρ c)
theorem x0_out : W6 m ρ c (Proc.devRef .tc main_v12) = degInv (m ((c : Thread nD τ).loc main_arg6)) := (W6_of_ne m ρ c main_v12 (by decide)).trans (e0_out m ρ c)
theorem x0_in : W6 m ρ c (Proc.devRef .tc main_v18) = degInv (m ((c : Thread nD τ).loc main_arg7)) := (W6_of_ne m ρ c main_v18 (by decide)).trans (e0_in m ρ c)

/-! ## At the second region's entry -/

/-- The first layer's output. -/
def hidden : Arr S262144x128 .f32 :=
  layerA (proj (m ((c : Thread nD τ).loc main_arg0)) (col (degInv (m ((c : Thread nD τ).loc main_arg6)))) (m ((c : Thread nD τ).loc main_arg2))) (m ((c : Thread nD τ).loc main_arg6)) (m ((c : Thread nD τ).loc main_arg7)) (m ((c : Thread nD τ).loc main_arg1)) (degInv (m ((c : Thread nD τ).loc main_arg7))) (m ((c : Thread nD τ).loc main_arg3))

theorem e1_hidden : W7 m ρ c (Proc.devRef .tc main_v39) = hidden m c := by
  refine (mid_layer (W6 m ρ c)).trans ?_
  rw [x0_proj, x0_arg6, x0_arg7, x0_arg1, x0_in, x0_arg3]
  rfl
theorem e1_col : W7 m ρ c (Proc.devRef .tc main_v40) = col (degInv (m ((c : Thread nD τ).loc main_arg6))) := by
  refine (mid_outColumn (W6 m ρ c)).trans ?_
  rw [x0_out]
  exact shapeCast_col _ _
theorem e1_arg1 : W7 m ρ c (Proc.devRef .tc main_arg1) = (m ((c : Thread nD τ).loc main_arg1)) := (mid_keeps_main_arg1 (W6 m ρ c)).trans (x0_arg1 m ρ c)
theorem e1_arg4 : W7 m ρ c (Proc.devRef .tc main_arg4) = (m ((c : Thread nD τ).loc main_arg4)) := (mid_keeps_main_arg4 (W6 m ρ c)).trans (x0_arg4 m ρ c)
theorem e1_arg5 : W7 m ρ c (Proc.devRef .tc main_arg5) = (m ((c : Thread nD τ).loc main_arg5)) := (mid_keeps_main_arg5 (W6 m ρ c)).trans (x0_arg5 m ρ c)
theorem e1_arg6 : W7 m ρ c (Proc.devRef .tc main_arg6) = (m ((c : Thread nD τ).loc main_arg6)) := (mid_keeps_main_arg6 (W6 m ρ c)).trans (x0_arg6 m ρ c)
theorem e1_arg7 : W7 m ρ c (Proc.devRef .tc main_arg7) = (m ((c : Thread nD τ).loc main_arg7)) := (mid_keeps_main_arg7 (W6 m ρ c)).trans (x0_arg7 m ρ c)
theorem e1_arg8 : W7 m ρ c (Proc.devRef .tc main_arg8) = (m ((c : Thread nD τ).loc main_arg8)) := (mid_keeps_main_arg8 (W6 m ρ c)).trans (x0_arg8 m ρ c)
theorem e1_arg9 : W7 m ρ c (Proc.devRef .tc main_arg9) = (m ((c : Thread nD τ).loc main_arg9)) := (mid_keeps_main_arg9 (W6 m ρ c)).trans (x0_arg9 m ρ c)
theorem e1_in : W7 m ρ c (Proc.devRef .tc main_v18) = degInv (m ((c : Thread nD τ).loc main_arg7)) := (mid_keeps_main_v18 (W6 m ρ c)).trans (x0_in m ρ c)

/-! ## At the second region's exit -/

/-- The second projection. -/
theorem x1_proj : W8 m ρ c (Proc.devRef .tc main_v41) = projRelu (hidden m c) (col (degInv (m ((c : Thread nD τ).loc main_arg6)))) (m ((c : Thread nD τ).loc main_arg4)) := by
  refine (W8_arr m ρ c 3).trans ((Cert.Gcn.Region.arr1 (V7 m ρ) c).trans ?_)
  show projRelu (W7 m ρ c (Proc.devRef .tc main_v39)) (W7 m ρ c (Proc.devRef .tc main_v40)) (W7 m ρ c (Proc.devRef .tc main_arg4)) = _
  rw [e1_hidden, e1_col, e1_arg4]

theorem x1_arg1 : W8 m ρ c (Proc.devRef .tc main_arg1) = (m ((c : Thread nD τ).loc main_arg1)) := (W8_of_ne m ρ c main_arg1 (by decide)).trans (e1_arg1 m ρ c)
theorem x1_arg5 : W8 m ρ c (Proc.devRef .tc main_arg5) = (m ((c : Thread nD τ).loc main_arg5)) := (W8_of_ne m ρ c main_arg5 (by decide)).trans (e1_arg5 m ρ c)
theorem x1_arg6 : W8 m ρ c (Proc.devRef .tc main_arg6) = (m ((c : Thread nD τ).loc main_arg6)) := (W8_of_ne m ρ c main_arg6 (by decide)).trans (e1_arg6 m ρ c)
theorem x1_arg7 : W8 m ρ c (Proc.devRef .tc main_arg7) = (m ((c : Thread nD τ).loc main_arg7)) := (W8_of_ne m ρ c main_arg7 (by decide)).trans (e1_arg7 m ρ c)
theorem x1_arg8 : W8 m ρ c (Proc.devRef .tc main_arg8) = (m ((c : Thread nD τ).loc main_arg8)) := (W8_of_ne m ρ c main_arg8 (by decide)).trans (e1_arg8 m ρ c)
theorem x1_arg9 : W8 m ρ c (Proc.devRef .tc main_arg9) = (m ((c : Thread nD τ).loc main_arg9)) := (W8_of_ne m ρ c main_arg9 (by decide)).trans (e1_arg9 m ρ c)
theorem x1_in : W8 m ρ c (Proc.devRef .tc main_v18) = degInv (m ((c : Thread nD τ).loc main_arg7)) := (W8_of_ne m ρ c main_v18 (by decide)).trans (e1_in m ρ c)

/-! ## The result -/

theorem result_eq : W11 m ρ c (Proc.devRef .tc main_v72)
    = net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (post_result (W8 m ρ c)).trans ?_
  rw [x1_proj, x1_arg6, x1_arg7, x1_arg1, x1_in, x1_arg5, x1_arg8, x1_arg9]
  rfl

/-- Every weakly fair execution of the idealized kernel program terminates, nothing faulting, with the result at
    `net` of the arguments and the arguments unchanged. -/
theorem run : θ_run (defs (F := Ideal)) (onTc (τ := τ) (main (F := Ideal))) ⟨m, fun _ => 0, ρ⟩ (fun r => ∀ c : Dev nD,
      r.2.mem ((c.tc : Thread nD τ).loc main_v72)
        = net (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7)) (m ((c.tc : Thread nD τ).loc main_arg8))
            (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c).1.trans (result_eq m ρ c), (h c).2⟩) (run_fold m ρ)

end Cert.Gcn.K

end
-- ==== Proof.RefLine.lean ====
/-
  The reference program as one line of host operations.

  The reference is a straight line of host operations on whole arrays.  Listed in order, with the bodies of the
  functions it calls written out at the calls, the line is cut into six stretches, each computing one stage:

    A  the two per-node factors 1/sqrt(max(deg, 1)) (1 where deg = 0), from the source and the destination lists;
    B  the first dense projection: the features with row n scaled by the out-factor of n, times the weights;
    C  the edge part of the first layer at width 128: gather the source rows, weigh them, sum at the destinations,
       scale row n by the in-factor of n, add the bias row;
    D  the second dense projection: the rectified layer output, rows scaled by the out-factors, times the weights;
    E  the edge part of the second layer at width 16;
    G  the selection: for each graph the row of its target node, offset by the sizes of the graphs before it.

  The operations of the entrywise functions the program calls (the selection of the factor, the rectification) are
  listed as plain operations over the buffers their calls name; those of the running-total function are first listed
  over references that carry their buffers' types, as the program has them, and then shown equal to plain ones.

  The program equals the line run in order, and every operation of the line touches device buffers only.
-/
import proofs.«179616_j10333691314779_1_alg».proof.Proof.Gen.ReferenceIdeal
import Idealize.ShloMosaic.Lib.StableHlo.Run

noncomputable section

namespace Cert.Gcn.Ref

open Cert.ReferenceIdeal Cert.ReferenceIdeal.Gen Idealize.ShloMosaic Idealize.ShloMosaic.TcCoe Idealize.SL.Sem
open Idealize.ShloMosaic.StableHlo

section Line

variable {F : FTy → Type} [FloatOps F]

/-- Stretch A: the degree of every node under the source list and under the destination list (ones scattered into a zero vector), and from each the factor 1/sqrt(max(deg, 1)) where deg > 0, 1 elsewhere. -/
abbrev opsA : List (HloOp τ sig (Elt F)) :=
  [ StableHlo.nullary main_cst (constant S_ .f32 0x3F800000#32),
    StableHlo.unary main_cst main_v0 (broadcastInDim S2097152 ![] bcast_S_S2097152 : (⟨S_, .f32⟩ : BufTy).Contents (Elt F) → (⟨S2097152, .f32⟩ : BufTy).Contents (Elt F)),
    StableHlo.nullary main_cst_0 (constant S_ .f32 0x00000000#32),
    StableHlo.unary main_cst_0 main_v1 (broadcastInDim S262144 ![] bcast_S_S262144 : (⟨S_, .f32⟩ : BufTy).Contents (Elt F) → (⟨S262144, .f32⟩ : BufTy).Contents (Elt F)),
    StableHlo.unary main_arg6 main_v2 (broadcastInDim S2097152x1 ![0] bcast_S2097152_S2097152x1_0 : (⟨S2097152, .i32⟩ : BufTy).Contents (Elt F) → (⟨S2097152x1, .i32⟩ : BufTy).Contents (Elt F)),
    StableHlo.ternary main_v1 main_v2 main_v0 main_v3 ((fun x i u => Host.scatterAdd scatter_S262144_S2097152x1_S2097152_n_0_0_1 x i u) : (⟨S262144, .f32⟩ : BufTy).Contents (Elt F) → (⟨S2097152x1, .i32⟩ : BufTy).Contents (Elt F) → (⟨S2097152, .f32⟩ : BufTy).Contents (Elt F) → (⟨S262144, .f32⟩ : BufTy).Contents (Elt F)),
    StableHlo.nullary main_cst_1 (constant S_ .f32 0x00000000#32),
    StableHlo.unary main_cst_1 main_v4 (broadcastInDim S262144 ![] bcast_S_S262144 : (⟨S_, .f32⟩ : BufTy).Contents (Elt F) → (⟨S262144, .f32⟩ : BufTy).Contents (Elt F)),
    StableHlo.unary main_arg7 main_v5 (broadcastInDim S2097152x1 ![0] bcast_S2097152_S2097152x1_0 : (⟨S2097152, .i32⟩ : BufTy).Contents (Elt F) → (⟨S2097152x1, .i32⟩ : BufTy).Contents (Elt F)),
    StableHlo.ternary main_v4 main_v5 main_v0 main_v6 ((fun x i u => Host.scatterAdd scatter_S262144_S2097152x1_S2097152_n_0_0_1 x i u) : (⟨S262144, .f32⟩ : BufTy).Contents (Elt F) → (⟨S2097152x1, .i32⟩ : BufTy).Contents (Elt F) → (⟨S2097152, .f32⟩ : BufTy).Contents (Elt F) → (⟨S262144, .f32⟩ : BufTy).Contents (Elt F)),
    StableHlo.nullary main_cst_2 (constant S_ .f32 0x00000000#32),
    StableHlo.unary main_cst_2 main_v7 (broadcastInDim S262144 ![] bcast_S_S262144 : (⟨S_, .f32⟩ : BufTy).Contents (Elt F) → (⟨S262144, .f32⟩ : BufTy).Contents (Elt F)),
    StableHlo.binary main_v3 main_v7 main_v8 (cmpf .ogt : (⟨S262144, .f32⟩ : BufTy).Contents (Elt F) → (⟨S262144, .f32⟩ : BufTy).Contents (Elt F) → (⟨S262144, .i1⟩ : BufTy).Contents (Elt F)),
    StableHlo.nullary main_cst_3 (constant S_ .f32 0x3F800000#32),
    StableHlo.unary main_cst_3 main_v9 (broadcastInDim S262144 ![] bcast_S_S262144 : (⟨S_, .f32⟩ : BufTy).Contents (Elt F) → (⟨S262144, .f32⟩ : BufTy).Contents (Elt F)),
    StableHlo.binary main_v3 main_v9 main_v10 (maximumf : (⟨S262144, .f32⟩ : BufTy).Contents (Elt F) → (⟨S262144, .f32⟩ : BufTy).Contents (Elt F) → (⟨S262144, .f32⟩ : BufTy).Contents (Elt F)),
    StableHlo.unary main_v10 main_v11 (Host.rsqrt : (⟨S262144, .f32⟩ : BufTy).Contents (Elt F) → (⟨S262144, .f32⟩ : BufTy).Contents (Elt F)),
    StableHlo.nullary main_cst_4 (constant S_ .f32 0x3F800000#32),
    StableHlo.unary main_cst_4 main_call0_v0 (id : (⟨S_, .f32⟩ : BufTy).Contents (Elt F) → (⟨S_, .f32⟩ : BufTy).Contents (Elt F)),
    StableHlo.unary main_call0_v0 main_call0_v1 (broadcastInDim S262144 ![] bcast_S_S262144 : (⟨S_, .f32⟩ : BufTy).Contents (Elt F) → (⟨S262144, .f32⟩ : BufTy).Contents (Elt F)),
    StableHlo.ternary main_v8 main_v11 main_call0_v1 main_v12 (select : (⟨S262144, .i1⟩ : BufTy).Contents (Elt F) → (⟨S262144, .f32⟩ : BufTy).Contents (Elt F) → (⟨S262144, .f32⟩ : BufTy).Contents (Elt F) → (⟨S262144, .f32⟩ : BufTy).Contents (Elt F)),
    StableHlo.nullary main_cst_5 (constant S_ .f32 0x00000000#32),
    StableHlo.unary main_cst_5 main_v13 (broadcastInDim S262144 ![] bcast_S_S262144 : (⟨S_, .f32⟩ : BufTy).Contents (Elt F) → (⟨S262144, .f32⟩ : BufTy).Contents (Elt F)),
    StableHlo.binary main_v6 main_v13 main_v14 (cmpf .ogt : (⟨S262144, .f32⟩ : BufTy).Contents (Elt F) → (⟨S262144, .f32⟩ : BufTy).Contents (Elt F) → (⟨S262144, .i1⟩ : BufTy).Contents (Elt F)),
    StableHlo.nullary main_cst_6 (constant S_ .f32 0x3F800000#32),
    StableHlo.unary main_cst_6 main_v15 (broadcastInDim S262144 ![] bcast_S_S262144 : (⟨S_, .f32⟩ : BufTy).Contents (Elt F) → (⟨S262144, .f32⟩ : BufTy).Contents (Elt F)),
    StableHlo.binary main_v6 main_v15 main_v16 (maximumf : (⟨S262144, .f32⟩ : BufTy).Contents (Elt F) → (⟨S262144, .f32⟩ : BufTy).Contents (Elt F) → (⟨S262144, .f32⟩ : BufTy).Contents (Elt F)),
    StableHlo.unary main_v16 main_v17 (Host.rsqrt : (⟨S262144, .f32⟩ : BufTy).Contents (Elt F) → (⟨S262144, .f32⟩ : BufTy).Contents (Elt F)),
    StableHlo.nullary main_cst_7 (constant S_ .f32 0x3F800000#32),
    StableHlo.unary main_cst_7 main_call1_v0 (id : (⟨S_, .f32⟩ : BufTy).Contents (Elt F) → (⟨S_, .f32⟩ : BufTy).Contents (Elt F)),
    StableHlo.unary main_call1_v0 main_call1_v1 (broadcastInDim S262144 ![] bcast_S_S262144 : (⟨S_, .f32⟩ : BufTy).Contents (Elt F) → (⟨S262144, .f32⟩ : BufTy).Contents (Elt F)),
    StableHlo.ternary main_v14 main_v17 main_call1_v1 main_v18 (select : (⟨S262144, .i1⟩ : BufTy).Contents (Elt F) → (⟨S262144, .f32⟩ : BufTy).Contents (Elt F) → (⟨S262144, .f32⟩ : BufTy).Contents (Elt F) → (⟨S262144, .f32⟩ : BufTy).Contents (Elt F)) ]
theorem opsA_sub : (opsA : List (HloOp τ sig (Elt F))).Forall fun op => op.bufs ⊆ StableHlo.tcRefs τ sig :=
  ⟨StableHlo.nullary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.nullary_bufs_sub .., StableHlo.unary_bufs_sub .., StableHlo.unary_bufs_sub .., StableHlo.ternary_bufs_sub ..⟩

/-- Stretch B: the out-factor vector as a column, broadcast along the rows and multiplied into the features; the product with the first weight matrix. -/
abbrev opsB : List (HloOp τ sig (Elt F)) :=
  [ StableHlo.unary main_v12 main_v19 (broadcastInDim S262144x1 ![0] bcast_S262144_S262144x1_0 : (⟨S262144, .f32⟩ : BufTy).Contents (Elt F) → (⟨S262144x1, .f32⟩ : BufTy).Contents (Elt F)),
    StableHlo.unary main_v19 main_v20 (broadcastInDim S262144x512 ![0, 1] bcast_S262144x1_S262144x512_0_1 : (⟨S262144x1, .f32⟩ : BufTy).Contents (Elt F) → (⟨S262144x512, .f32⟩ : BufTy).Contents (Elt F)),
    StableHlo.binary main_arg0 main_v20 main_v21 (mulf : (⟨S262144x512, .f32⟩ : BufTy).Contents (Elt F) → (⟨S262144x512, .f32⟩ : BufTy).Contents (Elt F) → (⟨S262144x512, .f32⟩ : BufTy).Contents (Elt F)),
    StableHlo.binary main_v21 main_arg2 main_v22 ((fun l r => Host.dotGeneral dot_S262144x512_S512x128_S262144x128_1_0_0_1_n_n none l r) : (⟨S262144x512, .f32⟩ : BufTy).Contents (Elt F) → (⟨S512x128, .f32⟩ : BufTy).Contents (Elt F) → (⟨S262144x128, .f32⟩ : BufTy).Contents (Elt F)) ]
theorem opsB_sub : (opsB : List (HloOp τ sig (Elt F))).Forall fun op => op.bufs ⊆ StableHlo.tcRefs τ sig :=
  ⟨StableHlo.unary_bufs_sub .., StableHlo.unary_bufs_sub .., StableHlo.binary_bufs_sub .., StableHlo.binary_bufs_sub ..⟩

/-- Stretch C: the source indices counted from the end where negative, the rows gathered at them, weighted, summed at the destinations, scaled by the in-factors, the bias row added. -/
abbrev opsC : List (HloOp τ sig (Elt F)) :=
  [ StableHlo.nullary main_c (constantI S_ 32 0#32),
    StableHlo.unary main_c main_v23 (broadcastInDim S2097152 ![] bcast_S_S2097152 : (⟨S_, .i32⟩ : BufTy).Contents (Elt F) → (⟨S2097152, .i32⟩ : BufTy).Contents (Elt F)),
    StableHlo.binary main_arg6 main_v23 main_v24 (cmpi .slt : (⟨S2097152, .i32⟩ : BufTy).Contents (Elt F) → (⟨S2097152, .i32⟩ : BufTy).Contents (Elt F) → (⟨S2097152, .i1⟩ : BufTy).Contents (Elt F)),
    StableHlo.nullary main_c_8 (constantI S_ 32 262144#32),
    StableHlo.unary main_c_8 main_v25 (broadcastInDim S2097152 ![] bcast_S_S2097152 : (⟨S_, .i32⟩ : BufTy).Contents (Elt F) → (⟨S2097152, .i32⟩ : BufTy).Contents (Elt F)),
    StableHlo.binary main_arg6 main_v25 main_v26 (addi : (⟨S2097152, .i32⟩ : BufTy).Contents (Elt F) → (⟨S2097152, .i32⟩ : BufTy).Contents (Elt F) → (⟨S2097152, .i32⟩ : BufTy).Contents (Elt F)),
    StableHlo.ternary main_v24 main_v26 main_arg6 main_v27 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    StableHlo.unary main_v27 main_v28 (broadcastInDim S2097152x1 ![0] bcast_S2097152_S2097152x1_0 : (⟨S2097152, .i32⟩ : BufTy).Contents (Elt F) → (⟨S2097152x1, .i32⟩ : BufTy).Contents (Elt F)),
    StableHlo.binary main_v22 main_v28 main_v29 ((fun x i => Host.gather gather_S262144x128_S2097152x1_S2097152x128_1_0_n_n_0_1_1128 x i) : (⟨S262144x128, .f32⟩ : BufTy).Contents (Elt F) → (⟨S2097152x1, .i32⟩ : BufTy).Contents (Elt F) → (⟨S2097152x128, .f32⟩ : BufTy).Contents (Elt F)),
    StableHlo.unary main_arg1 main_v30 (broadcastInDim S2097152x1 ![0] bcast_S2097152_S2097152x1_0 : (⟨S2097152, .f32⟩ : BufTy).Contents (Elt F) → (⟨S2097152x1, .f32⟩ : BufTy).Contents (Elt F)),
    StableHlo.unary main_v30 main_v31 (broadcastInDim S2097152x128 ![0, 1] bcast_S2097152x1_S2097152x128_0_1 : (⟨S2097152x1, .f32⟩ : BufTy).Contents (Elt F) → (⟨S2097152x128, .f32⟩ : BufTy).Contents (Elt F)),
    StableHlo.binary main_v29 main_v31 main_v32 (mulf : (⟨S2097152x128, .f32⟩ : BufTy).Contents (Elt F) → (⟨S2097152x128, .f32⟩ : BufTy).Contents (Elt F) → (⟨S2097152x128, .f32⟩ : BufTy).Contents (Elt F)),
    StableHlo.nullary main_cst_9 (constant S_ .f32 0x00000000#32),
    StableHlo.unary main_cst_9 main_v33 (broadcastInDim S262144x128 ![] bcast_S_S262144x128 : (⟨S_, .f32⟩ : BufTy).Contents (Elt F) → (⟨S262144x128, .f32⟩ : BufTy).Contents (Elt F)),
    StableHlo.unary main_arg7 main_v34 (broadcastInDim S2097152x1 ![0] bcast_S2097152_S2097152x1_0 : (⟨S2097152, .i32⟩ : BufTy).Contents (Elt F) → (⟨S2097152x1, .i32⟩ : BufTy).Contents (Elt F)),
    StableHlo.ternary main_v33 main_v34 main_v32 main_v35 ((fun x i u => Host.scatterAdd scatter_S262144x128_S2097152x1_S2097152x128_1_0_0_1 x i u) : (⟨S262144x128, .f32⟩ : BufTy).Contents (Elt F) → (⟨S2097152x1, .i32⟩ : BufTy).Contents (Elt F) → (⟨S2097152x128, .f32⟩ : BufTy).Contents (Elt F) → (⟨S262144x128, .f32⟩ : BufTy).Contents (Elt F)),
    StableHlo.unary main_v18 main_v36 (broadcastInDim S262144x1 ![0] bcast_S262144_S262144x1_0 : (⟨S262144, .f32⟩ : BufTy).Contents (Elt F) → (⟨S262144x1, .f32⟩ : BufTy).Contents (Elt F)),
    StableHlo.unary main_v36 main_v37 (broadcastInDim S262144x128 ![0, 1] bcast_S262144x1_S262144x128_0_1 : (⟨S262144x1, .f32⟩ : BufTy).Contents (Elt F) → (⟨S262144x128, .f32⟩ : BufTy).Contents (Elt F)),
    StableHlo.binary main_v35 main_v37 main_v38 (mulf : (⟨S262144x128, .f32⟩ : BufTy).Contents (Elt F) → (⟨S262144x128, .f32⟩ : BufTy).Contents (Elt F) → (⟨S262144x128, .f32⟩ : BufTy).Contents (Elt F)),
    StableHlo.unary main_arg3 main_v39 (broadcastInDim S1x128 ![1] bcast_S128_S1x128_1 : (⟨S128, .f32⟩ : BufTy).Contents (Elt F) → (⟨S1x128, .f32⟩ : BufTy).Contents (Elt F)),
    StableHlo.unary main_v39 main_v40 (broadcastInDim S262144x128 ![0, 1] bcast_S1x128_S262144x128_0_1 : (⟨S1x128, .f32⟩ : BufTy).Contents (Elt F) → (⟨S262144x128, .f32⟩ : BufTy).Contents (Elt F)),
    StableHlo.binary main_v38 main_v40 main_v41 (addf : (⟨S262144x128, .f32⟩ : BufTy).Contents (Elt F) → (⟨S262144x128, .f32⟩ : BufTy).Contents (Elt F) → (⟨S262144x128, .f32⟩ : BufTy).Contents (Elt F)) ]
theorem opsC_sub : (opsC : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.unary_bufs_sub .., StableHlo.unary_bufs_sub .., StableHlo.binary_bufs_sub ..⟩

/-- Stretch D: the maximum with zero entry by entry, the rows scaled by the out-factors, the product with the second weight matrix. -/
abbrev opsD : List (HloOp τ sig (Elt F)) :=
  [ StableHlo.nullary main_call2_cst (constant S_ .f32 0x00000000#32),
    StableHlo.unary main_call2_cst main_call2_v0 (broadcastInDim S262144x128 ![] bcast_S_S262144x128 : (⟨S_, .f32⟩ : BufTy).Contents (Elt F) → (⟨S262144x128, .f32⟩ : BufTy).Contents (Elt F)),
    StableHlo.binary main_v41 main_call2_v0 main_v42 (maximumf : (⟨S262144x128, .f32⟩ : BufTy).Contents (Elt F) → (⟨S262144x128, .f32⟩ : BufTy).Contents (Elt F) → (⟨S262144x128, .f32⟩ : BufTy).Contents (Elt F)),
    StableHlo.unary main_v12 main_v43 (broadcastInDim S262144x1 ![0] bcast_S262144_S262144x1_0 : (⟨S262144, .f32⟩ : BufTy).Contents (Elt F) → (⟨S262144x1, .f32⟩ : BufTy).Contents (Elt F)),
    StableHlo.unary main_v43 main_v44 (broadcastInDim S262144x128 ![0, 1] bcast_S262144x1_S262144x128_0_1 : (⟨S262144x1, .f32⟩ : BufTy).Contents (Elt F) → (⟨S262144x128, .f32⟩ : BufTy).Contents (Elt F)),
    StableHlo.binary main_v42 main_v44 main_v45 (mulf : (⟨S262144x128, .f32⟩ : BufTy).Contents (Elt F) → (⟨S262144x128, .f32⟩ : BufTy).Contents (Elt F) → (⟨S262144x128, .f32⟩ : BufTy).Contents (Elt F)),
    StableHlo.binary main_v45 main_arg4 main_v46 ((fun l r => Host.dotGeneral dot_S262144x128_S128x16_S262144x16_1_0_0_1_n_n none l r) : (⟨S262144x128, .f32⟩ : BufTy).Contents (Elt F) → (⟨S128x16, .f32⟩ : BufTy).Contents (Elt F) → (⟨S262144x16, .f32⟩ : BufTy).Contents (Elt F)) ]
theorem opsD_sub : (opsD : List (HloOp τ sig (Elt F))).Forall fun op => op.bufs ⊆ StableHlo.tcRefs τ sig :=
  ⟨StableHlo.nullary_bufs_sub .., StableHlo.unary_bufs_sub .., StableHlo.binary_bufs_sub .., StableHlo.unary_bufs_sub .., StableHlo.unary_bufs_sub .., StableHlo.binary_bufs_sub .., StableHlo.binary_bufs_sub ..⟩

/-- The first operation of stretch E (the zero the source indices are compared with). -/
abbrev opsE0 : List (HloOp τ sig (Elt F)) :=
  [ StableHlo.nullary main_c_10 (constantI S_ 32 0#32) ]
theorem opsE0_sub : (opsE0 : List (HloOp τ sig (Elt F))).Forall fun op => op.bufs ⊆ StableHlo.tcRefs τ sig :=
  StableHlo.nullary_bufs_sub ..

/-- The rest of stretch E: the edge part of the layer at width 16. -/
abbrev opsE1 : List (HloOp τ sig (Elt F)) :=
  [ StableHlo.unary main_c_10 main_v47 (broadcastInDim S2097152 ![] bcast_S_S2097152 : (⟨S_, .i32⟩ : BufTy).Contents (Elt F) → (⟨S2097152, .i32⟩ : BufTy).Contents (Elt F)),
    StableHlo.binary main_arg6 main_v47 main_v48 (cmpi .slt : (⟨S2097152, .i32⟩ : BufTy).Contents (Elt F) → (⟨S2097152, .i32⟩ : BufTy).Contents (Elt F) → (⟨S2097152, .i1⟩ : BufTy).Contents (Elt F)),
    StableHlo.nullary main_c_11 (constantI S_ 32 262144#32),
    StableHlo.unary main_c_11 main_v49 (broadcastInDim S2097152 ![] bcast_S_S2097152 : (⟨S_, .i32⟩ : BufTy).Contents (Elt F) → (⟨S2097152, .i32⟩ : BufTy).Contents (Elt F)),
    StableHlo.binary main_arg6 main_v49 main_v50 (addi : (⟨S2097152, .i32⟩ : BufTy).Contents (Elt F) → (⟨S2097152, .i32⟩ : BufTy).Contents (Elt F) → (⟨S2097152, .i32⟩ : BufTy).Contents (Elt F)),
    StableHlo.ternary main_v48 main_v50 main_arg6 main_v51 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    StableHlo.unary main_v51 main_v52 (broadcastInDim S2097152x1 ![0] bcast_S2097152_S2097152x1_0 : (⟨S2097152, .i32⟩ : BufTy).Contents (Elt F) → (⟨S2097152x1, .i32⟩ : BufTy).Contents (Elt F)),
    StableHlo.binary main_v46 main_v52 main_v53 ((fun x i => Host.gather gather_S262144x16_S2097152x1_S2097152x16_1_0_n_n_0_1_116 x i) : (⟨S262144x16, .f32⟩ : BufTy).Contents (Elt F) → (⟨S2097152x1, .i32⟩ : BufTy).Contents (Elt F) → (⟨S2097152x16, .f32⟩ : BufTy).Contents (Elt F)),
    StableHlo.unary main_arg1 main_v54 (broadcastInDim S2097152x1 ![0] bcast_S2097152_S2097152x1_0 : (⟨S2097152, .f32⟩ : BufTy).Contents (Elt F) → (⟨S2097152x1, .f32⟩ : BufTy).Contents (Elt F)),
    StableHlo.unary main_v54 main_v55 (broadcastInDim S2097152x16 ![0, 1] bcast_S2097152x1_S2097152x16_0_1 : (⟨S2097152x1, .f32⟩ : BufTy).Contents (Elt F) → (⟨S2097152x16, .f32⟩ : BufTy).Contents (Elt F)),
    StableHlo.binary main_v53 main_v55 main_v56 (mulf : (⟨S2097152x16, .f32⟩ : BufTy).Contents (Elt F) → (⟨S2097152x16, .f32⟩ : BufTy).Contents (Elt F) → (⟨S2097152x16, .f32⟩ : BufTy).Contents (Elt F)),
    StableHlo.nullary main_cst_12 (constant S_ .f32 0x00000000#32),
    StableHlo.unary main_cst_12 main_v57 (broadcastInDim S262144x16 ![] bcast_S_S262144x16 : (⟨S_, .f32⟩ : BufTy).Contents (Elt F) → (⟨S262144x16, .f32⟩ : BufTy).Contents (Elt F)),
    StableHlo.unary main_arg7 main_v58 (broadcastInDim S2097152x1 ![0] bcast_S2097152_S2097152x1_0 : (⟨S2097152, .i32⟩ : BufTy).Contents (Elt F) → (⟨S2097152x1, .i32⟩ : BufTy).Contents (Elt F)),
    StableHlo.ternary main_v57 main_v58 main_v56 main_v59 ((fun x i u => Host.scatterAdd scatter_S262144x16_S2097152x1_S2097152x16_1_0_0_1 x i u) : (⟨S262144x16, .f32⟩ : BufTy).Contents (Elt F) → (⟨S2097152x1, .i32⟩ : BufTy).Contents (Elt F) → (⟨S2097152x16, .f32⟩ : BufTy).Contents (Elt F) → (⟨S262144x16, .f32⟩ : BufTy).Contents (Elt F)),
    StableHlo.unary main_v18 main_v60 (broadcastInDim S262144x1 ![0] bcast_S262144_S262144x1_0 : (⟨S262144, .f32⟩ : BufTy).Contents (Elt F) → (⟨S262144x1, .f32⟩ : BufTy).Contents (Elt F)),
    StableHlo.unary main_v60 main_v61 (broadcastInDim S262144x16 ![0, 1] bcast_S262144x1_S262144x16_0_1 : (⟨S262144x1, .f32⟩ : BufTy).Contents (Elt F) → (⟨S262144x16, .f32⟩ : BufTy).Contents (Elt F)),
    StableHlo.binary main_v59 main_v61 main_v62 (mulf : (⟨S262144x16, .f32⟩ : BufTy).Contents (Elt F) → (⟨S262144x16, .f32⟩ : BufTy).Contents (Elt F) → (⟨S262144x16, .f32⟩ : BufTy).Contents (Elt F)),
    StableHlo.unary main_arg5 main_v63 (broadcastInDim S1x16 ![1] bcast_S16_S1x16_1 : (⟨S16, .f32⟩ : BufTy).Contents (Elt F) → (⟨S1x16, .f32⟩ : BufTy).Contents (Elt F)),
    StableHlo.unary main_v63 main_v64 (broadcastInDim S262144x16 ![0, 1] bcast_S1x16_S262144x16_0_1 : (⟨S1x16, .f32⟩ : BufTy).Contents (Elt F) → (⟨S262144x16, .f32⟩ : BufTy).Contents (Elt F)),
    StableHlo.binary main_v62 main_v64 main_v65 (addf : (⟨S262144x16, .f32⟩ : BufTy).Contents (Elt F) → (⟨S262144x16, .f32⟩ : BufTy).Contents (Elt F) → (⟨S262144x16, .f32⟩ : BufTy).Contents (Elt F)) ]
theorem opsE1_sub : (opsE1 : List (HloOp τ sig (Elt F))).Forall fun op => op.bufs ⊆ StableHlo.tcRefs τ sig :=
  ⟨StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.unary_bufs_sub .., StableHlo.unary_bufs_sub .., StableHlo.binary_bufs_sub ..⟩

/-- The running totals of a vector of 1024 integers: entry g is the sum of the window of 1024 entries ending at g,
    the vector extended by 1023 copies of the start value in front. -/
abbrev winSum : (⟨S1024, .i32⟩ : BufTy).Contents (Elt F) → (⟨S_, .i32⟩ : BufTy).Contents (Elt F) → (⟨S1024, .i32⟩ : BufTy).Contents (Elt F) :=
  fun x v => Host.reduceWindow IntOp.addi ![1024] ![1] ![1023] ![0] x v reduceWindows_S1024_S1024_w1024s1p1023_0 h_S_

/-- Stretch G: the running totals of the graph sizes with a zero in front and the last dropped, added to the targets, counted from the end where negative; the rows gathered at them. -/
abbrev opsG : List (HloOp τ sig (Elt F)) :=
  [ StableHlo.nullary main_c_13 (constantI S_ 32 0#32),
    StableHlo.unary main_c_13 main_v66 (broadcastInDim S1 ![] bcast_S_S1 : (⟨S_, .i32⟩ : BufTy).Contents (Elt F) → (⟨S1, .i32⟩ : BufTy).Contents (Elt F)),
    StableHlo.nullary main_call3_call0_c (constantI S_ 32 0#32),
    StableHlo.unary main_call3_call0_c main_call3_call0_v0 (broadcastInDim S_ ![] bcast_S_S_ : (⟨S_, .i32⟩ : BufTy).Contents (Elt F) → (⟨S_, .i32⟩ : BufTy).Contents (Elt F)),
    StableHlo.binary main_arg9 main_call3_call0_v0 main_v67 winSum,
    StableHlo.binary main_v66 main_v67 main_v68 ((fun a b => concatenate S1025 0 [⟨S1, a⟩, ⟨S1024, b⟩] concatenates_S1_S1024_S1025_d0) : (⟨S1, .i32⟩ : BufTy).Contents (Elt F) → (⟨S1024, .i32⟩ : BufTy).Contents (Elt F) → (⟨S1025, .i32⟩ : BufTy).Contents (Elt F)),
    StableHlo.unary main_v68 main_v69 ((extractStridedSlice S1024 ![0] · slices_S1025_S1024_0) : (⟨S1025, .i32⟩ : BufTy).Contents (Elt F) → (⟨S1024, .i32⟩ : BufTy).Contents (Elt F)),
    StableHlo.binary main_arg8 main_v69 main_v70 (addi : (⟨S1024, .i32⟩ : BufTy).Contents (Elt F) → (⟨S1024, .i32⟩ : BufTy).Contents (Elt F) → (⟨S1024, .i32⟩ : BufTy).Contents (Elt F)),
    StableHlo.nullary main_c_14 (constantI S_ 32 0#32),
    StableHlo.unary main_c_14 main_v71 (broadcastInDim S1024 ![] bcast_S_S1024 : (⟨S_, .i32⟩ : BufTy).Contents (Elt F) → (⟨S1024, .i32⟩ : BufTy).Contents (Elt F)),
    StableHlo.binary main_v70 main_v71 main_v72 (cmpi .slt : (⟨S1024, .i32⟩ : BufTy).Contents (Elt F) → (⟨S1024, .i32⟩ : BufTy).Contents (Elt F) → (⟨S1024, .i1⟩ : BufTy).Contents (Elt F)),
    StableHlo.nullary main_c_15 (constantI S_ 32 262144#32),
    StableHlo.unary main_c_15 main_v73 (broadcastInDim S1024 ![] bcast_S_S1024 : (⟨S_, .i32⟩ : BufTy).Contents (Elt F) → (⟨S1024, .i32⟩ : BufTy).Contents (Elt F)),
    StableHlo.binary main_v70 main_v73 main_v74 (addi : (⟨S1024, .i32⟩ : BufTy).Contents (Elt F) → (⟨S1024, .i32⟩ : BufTy).Contents (Elt F) → (⟨S1024, .i32⟩ : BufTy).Contents (Elt F)),
    StableHlo.ternary main_v72 main_v74 main_v70 main_v75 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    StableHlo.unary main_v75 main_v76 (broadcastInDim S1024x1 ![0] bcast_S1024_S1024x1_0 : (⟨S1024, .i32⟩ : BufTy).Contents (Elt F) → (⟨S1024x1, .i32⟩ : BufTy).Contents (Elt F)),
    StableHlo.binary main_v65 main_v76 main_v77 ((fun x i => Host.gather gather_S262144x16_S1024x1_S1024x16_1_0_n_n_0_1_116 x i) : (⟨S262144x16, .f32⟩ : BufTy).Contents (Elt F) → (⟨S1024x1, .i32⟩ : BufTy).Contents (Elt F) → (⟨S1024x16, .f32⟩ : BufTy).Contents (Elt F)) ]
theorem opsG_sub : (opsG : List (HloOp τ sig (Elt F))).Forall fun op => op.bufs ⊆ StableHlo.tcRefs τ sig :=
  ⟨StableHlo.nullary_bufs_sub .., StableHlo.unary_bufs_sub .., StableHlo.nullary_bufs_sub .., StableHlo.unary_bufs_sub .., StableHlo.binary_bufs_sub .., StableHlo.binary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub ..⟩

/-- Stretch G as the program spells it: the three operations of the running-total function over references that carry their buffers' types. -/
abbrev opsGt : List (HloOp τ sig (Elt F)) :=
  [ StableHlo.nullary main_c_13 (constantI S_ 32 0#32),
    StableHlo.unary main_c_13 main_v66 (broadcastInDim S1 ![] bcast_S_S1 : (⟨S_, .i32⟩ : BufTy).Contents (Elt F) → (⟨S1, .i32⟩ : BufTy).Contents (Elt F)),
    StableHlo.TRef.nullary (.of main_call3_call0_c : StableHlo.TRef sig ⟨S_, .i32⟩) (constantI S_ 32 0#32),
    StableHlo.TRef.unary (.of main_call3_call0_c : StableHlo.TRef sig ⟨S_, .i32⟩) (.of main_call3_call0_v0 : StableHlo.TRef sig ⟨S_, .i32⟩) (broadcastInDim S_ ![] bcast_S_S_ : (⟨S_, .i32⟩ : BufTy).Contents (Elt F) → (⟨S_, .i32⟩ : BufTy).Contents (Elt F)),
    StableHlo.TRef.binary (.of main_arg9 : StableHlo.TRef sig ⟨S1024, .i32⟩) (.of main_call3_call0_v0 : StableHlo.TRef sig ⟨S_, .i32⟩) (.of main_v67 : StableHlo.TRef sig ⟨S1024, .i32⟩) winSum,
    StableHlo.binary main_v66 main_v67 main_v68 ((fun a b => concatenate S1025 0 [⟨S1, a⟩, ⟨S1024, b⟩] concatenates_S1_S1024_S1025_d0) : (⟨S1, .i32⟩ : BufTy).Contents (Elt F) → (⟨S1024, .i32⟩ : BufTy).Contents (Elt F) → (⟨S1025, .i32⟩ : BufTy).Contents (Elt F)),
    StableHlo.unary main_v68 main_v69 ((extractStridedSlice S1024 ![0] · slices_S1025_S1024_0) : (⟨S1025, .i32⟩ : BufTy).Contents (Elt F) → (⟨S1024, .i32⟩ : BufTy).Contents (Elt F)),
    StableHlo.binary main_arg8 main_v69 main_v70 (addi : (⟨S1024, .i32⟩ : BufTy).Contents (Elt F) → (⟨S1024, .i32⟩ : BufTy).Contents (Elt F) → (⟨S1024, .i32⟩ : BufTy).Contents (Elt F)),
    StableHlo.nullary main_c_14 (constantI S_ 32 0#32),
    StableHlo.unary main_c_14 main_v71 (broadcastInDim S1024 ![] bcast_S_S1024 : (⟨S_, .i32⟩ : BufTy).Contents (Elt F) → (⟨S1024, .i32⟩ : BufTy).Contents (Elt F)),
    StableHlo.binary main_v70 main_v71 main_v72 (cmpi .slt : (⟨S1024, .i32⟩ : BufTy).Contents (Elt F) → (⟨S1024, .i32⟩ : BufTy).Contents (Elt F) → (⟨S1024, .i1⟩ : BufTy).Contents (Elt F)),
    StableHlo.nullary main_c_15 (constantI S_ 32 262144#32),
    StableHlo.unary main_c_15 main_v73 (broadcastInDim S1024 ![] bcast_S_S1024 : (⟨S_, .i32⟩ : BufTy).Contents (Elt F) → (⟨S1024, .i32⟩ : BufTy).Contents (Elt F)),
    StableHlo.binary main_v70 main_v73 main_v74 (addi : (⟨S1024, .i32⟩ : BufTy).Contents (Elt F) → (⟨S1024, .i32⟩ : BufTy).Contents (Elt F) → (⟨S1024, .i32⟩ : BufTy).Contents (Elt F)),
    StableHlo.ternary main_v72 main_v74 main_v70 main_v75 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    StableHlo.unary main_v75 main_v76 (broadcastInDim S1024x1 ![0] bcast_S1024_S1024x1_0 : (⟨S1024, .i32⟩ : BufTy).Contents (Elt F) → (⟨S1024x1, .i32⟩ : BufTy).Contents (Elt F)),
    StableHlo.binary main_v65 main_v76 main_v77 ((fun x i => Host.gather gather_S262144x16_S1024x1_S1024x16_1_0_n_n_0_1_116 x i) : (⟨S262144x16, .f32⟩ : BufTy).Contents (Elt F) → (⟨S1024x1, .i32⟩ : BufTy).Contents (Elt F) → (⟨S1024x16, .f32⟩ : BufTy).Contents (Elt F)) ]

/-- An operation over typed references at literal buffers is the plain operation: carrying a value to a buffer's own
    type and back is the identity there.  This holds whatever function the operation applies. -/
theorem typed_c : (StableHlo.TRef.nullary (.of main_call3_call0_c : StableHlo.TRef sig ⟨S_, .i32⟩) (constantI S_ 32 0#32) : HloOp τ sig (Elt F))
    = StableHlo.nullary main_call3_call0_c (constantI S_ 32 0#32) := rfl
theorem typed_v0 (f : (⟨S_, .i32⟩ : BufTy).Contents (Elt F) → (⟨S_, .i32⟩ : BufTy).Contents (Elt F)) :
    (StableHlo.TRef.unary (.of main_call3_call0_c : StableHlo.TRef sig ⟨S_, .i32⟩) (.of main_call3_call0_v0 : StableHlo.TRef sig ⟨S_, .i32⟩) f : HloOp τ sig (Elt F))
    = StableHlo.unary main_call3_call0_c main_call3_call0_v0 f := rfl
theorem typed_win (f : (⟨S1024, .i32⟩ : BufTy).Contents (Elt F) → (⟨S_, .i32⟩ : BufTy).Contents (Elt F) → (⟨S1024, .i32⟩ : BufTy).Contents (Elt F)) :
    (StableHlo.TRef.binary (.of main_arg9 : StableHlo.TRef sig ⟨S1024, .i32⟩) (.of main_call3_call0_v0 : StableHlo.TRef sig ⟨S_, .i32⟩) (.of main_v67 : StableHlo.TRef sig ⟨S1024, .i32⟩) f : HloOp τ sig (Elt F))
    = StableHlo.binary main_arg9 main_call3_call0_v0 main_v67 f := rfl

theorem opsGt_eq : (opsGt : List (HloOp τ sig (Elt F))) = opsG := by
  delta opsGt opsG
  rw [typed_c, typed_v0, typed_win]

/-- The whole line. -/
abbrev ops : List (HloOp τ sig (Elt F)) := opsA ++ opsB ++ opsC ++ opsD ++ opsE0 ++ opsE1 ++ opsG

set_option maxRecDepth 8192 in
/-- The first window of the program is the stretches A to D and the first operation of E: the called functions'
    bodies unfold at their calls, and both sides are one chain of steps. -/
theorem part0_eq (c : Dev nD) : main_part0 (F := F) c = seq (opsA ++ opsB ++ opsC ++ opsD ++ opsE0) := rfl

set_option maxRecDepth 8192 in
/-- The second window as the program spells it: the rest of E, and G with the running-total function's operations over
    typed references. -/
theorem part1_typed (c : Dev nD) : main_part1 (F := F) c = seq (opsE1 ++ opsGt) := rfl

/-- The second window is the rest of E and G. -/
theorem part1_eq (c : Dev nD) : main_part1 (F := F) c = seq (opsE1 ++ opsG) := by
  rw [← opsGt_eq]
  exact part1_typed c

/-- The program is the whole line. -/
theorem main_eq (c : Dev nD) : main (F := F) c = seq ops := by
  show (main_part0 (F := F) c >>= fun _ => main_part1 (F := F) c) = _
  rw [part0_eq, part1_eq, ← seq_append]
  simp only [ops, List.append_assoc]

theorem scopedRefs_eq : (Finset.univ.filter fun b : Ref sig .tc => b.isScoped) = ∅ := by decide
theorem scopedSems_eq : (Finset.univ.filter fun sm : SemLoc sig => sm.isScoped .tc) = ∅ := by decide

/-- Every operation of the line touches TensorCore buffers only. -/
theorem ops_sub : (ops : List (HloOp τ sig (Elt F))).Forall fun op => op.bufs ⊆ StableHlo.tcRefs τ sig :=
  List.forall_iff_forall_mem.mpr fun op h => by
    simp only [ops, List.mem_append] at h
    rcases h with ((((((h | h) | h) | h) | h) | h) | h)
    exacts [List.forall_iff_forall_mem.mp opsA_sub op h, List.forall_iff_forall_mem.mp opsB_sub op h,
      List.forall_iff_forall_mem.mp opsC_sub op h, List.forall_iff_forall_mem.mp opsD_sub op h,
      List.forall_iff_forall_mem.mp opsE0_sub op h, List.forall_iff_forall_mem.mp opsE1_sub op h,
      List.forall_iff_forall_mem.mp opsG_sub op h]

end Line

end Cert.Gcn.Ref

end
-- ==== Proof.RefRun.lean ====
/-
  The reference program's run, read back as the network of the specification.

  Every execution of the reference's line of host operations terminates with each buffer at the fold of the
  operations' results over the contents at launch.  The fold is read stretch by stretch from an arbitrary
  valuation: each stretch leaves its result buffer at the specification's function of the buffers it reads —

    A  the out-factor buffer at degInv of the source list, the in-factor buffer at degInv of the destination list;
    B  proj: the features with rows scaled by the out-factor column, times the first weights;
    C  layerA: gather, weigh, sum at the destinations, scale by the in-factors, add the bias, at width 128;
    D  projRelu: the same projection of the rectified array, with the second weights;
    E  layerB: the edge part at width 16;
    G  pick: the rows the graphs keep

  — and leaves every buffer it does not write as it was.  The edge parts, the factors and the selection are the
  same operations in the reference and in the specification, so those readings hold by unfolding the names; the two
  projections are read through the general lemmas on row scaling and on the plain dot product.  Composing the six
  readings gives the network of the ten arguments, with the arguments unchanged.
-/
import proofs.«179616_j10333691314779_1_alg».proof.Proof.Spec
import proofs.«179616_j10333691314779_1_alg».proof.Proof.Gen.KernelIdeal
import proofs.«179616_j10333691314779_1_alg».proof.Proof.Gen.ReferenceIdeal
import proofs.«179616_j10333691314779_1_alg».proof.Proof.RefLine
import Idealize.ShloMosaic.Lib.StableHlo.Run

noncomputable section

namespace Cert.Gcn.Ref

open Cert.ReferenceIdeal Cert.ReferenceIdeal.Gen Idealize.ShloMosaic Idealize.ShloMosaic.TcCoe Idealize.SL.Sem
open Idealize.ShloMosaic.StableHlo Idealize.ShloMosaic.ValueIdx Cert.Dense Cert.RowScale

/-- A valuation of the reference's buffers on the extended reals. -/
abbrev Val : Type := Valuation τ sig (Elt Ideal)

/-! ## What a stretch does not write it keeps -/

/-- The buffer an operation writes is among a list that holds it. -/
theorem single_sub {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

abbrev wA : List (Ref sig .tc) :=
  [main_cst, main_v0, main_cst_0, main_v1, main_v2, main_v3, main_cst_1, main_v4, main_v5, main_v6, main_cst_2, main_v7, main_v8, main_cst_3, main_v9, main_v10, main_v11, main_cst_4, main_call0_v0, main_call0_v1, main_v12, main_cst_5, main_v13, main_v14, main_cst_6, main_v15, main_v16, main_v17, main_cst_7, main_call1_v0, main_call1_v1, main_v18]
theorem wA_sub : (opsA (F := Ideal)).Forall fun op => op.writes ⊆ (wA.map (Proc.devRef (τ := τ) .tc)).toFinset :=
  ⟨single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide)⟩
theorem keepA (V : Val) {r : Ref sig .tc} (hr : r ∉ wA) :
    after (opsA (F := Ideal)) V (r : DevRef τ sig) = V (r : DevRef τ sig) :=
  after_of_writes_sub _ V wA_sub hr

abbrev wB : List (Ref sig .tc) :=
  [main_v19, main_v20, main_v21, main_v22]
theorem wB_sub : (opsB (F := Ideal)).Forall fun op => op.writes ⊆ (wB.map (Proc.devRef (τ := τ) .tc)).toFinset :=
  ⟨single_sub (by decide), single_sub (by decide), single_sub (by decide), single_sub (by decide)⟩
theorem keepB (V : Val) {r : Ref sig .tc} (hr : r ∉ wB) :
    after (opsB (F := Ideal)) V (r : DevRef τ sig) = V (r : DevRef τ sig) :=
  after_of_writes_sub _ V wB_sub hr

abbrev wC : List (Ref sig .tc) :=
  [main_c, main_v23, main_v24, main_c_8, main_v25, main_v26, main_v27, main_v28, main_v29, main_v30, main_v31, main_v32, main_cst_9, main_v33, main_v34, main_v35, main_v36, main_v37, main_v38, main_v39, main_v40, main_v41]
theorem wC_sub : (opsC (F := Ideal)).Forall fun op => op.writes ⊆ (wC.map (Proc.devRef (τ := τ) .tc)).toFinset :=
  ⟨single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide)⟩
theorem keepC (V : Val) {r : Ref sig .tc} (hr : r ∉ wC) :
    after (opsC (F := Ideal)) V (r : DevRef τ sig) = V (r : DevRef τ sig) :=
  after_of_writes_sub _ V wC_sub hr

abbrev wD : List (Ref sig .tc) :=
  [main_call2_cst, main_call2_v0, main_v42, main_v43, main_v44, main_v45, main_v46]
theorem wD_sub : (opsD (F := Ideal)).Forall fun op => op.writes ⊆ (wD.map (Proc.devRef (τ := τ) .tc)).toFinset :=
  ⟨single_sub (by decide), single_sub (by decide), single_sub (by decide), single_sub (by decide), single_sub (by decide), single_sub (by decide), single_sub (by decide)⟩
theorem keepD (V : Val) {r : Ref sig .tc} (hr : r ∉ wD) :
    after (opsD (F := Ideal)) V (r : DevRef τ sig) = V (r : DevRef τ sig) :=
  after_of_writes_sub _ V wD_sub hr

abbrev wE0 : List (Ref sig .tc) :=
  [main_c_10]
theorem wE0_sub : (opsE0 (F := Ideal)).Forall fun op => op.writes ⊆ (wE0.map (Proc.devRef (τ := τ) .tc)).toFinset :=
  single_sub (by decide)
theorem keepE0 (V : Val) {r : Ref sig .tc} (hr : r ∉ wE0) :
    after (opsE0 (F := Ideal)) V (r : DevRef τ sig) = V (r : DevRef τ sig) :=
  after_of_writes_sub _ V wE0_sub hr

abbrev wE1 : List (Ref sig .tc) :=
  [main_v47, main_v48, main_c_11, main_v49, main_v50, main_v51, main_v52, main_v53, main_v54, main_v55, main_v56, main_cst_12, main_v57, main_v58, main_v59, main_v60, main_v61, main_v62, main_v63, main_v64, main_v65]
theorem wE1_sub : (opsE1 (F := Ideal)).Forall fun op => op.writes ⊆ (wE1.map (Proc.devRef (τ := τ) .tc)).toFinset :=
  ⟨single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide)⟩
theorem keepE1 (V : Val) {r : Ref sig .tc} (hr : r ∉ wE1) :
    after (opsE1 (F := Ideal)) V (r : DevRef τ sig) = V (r : DevRef τ sig) :=
  after_of_writes_sub _ V wE1_sub hr

abbrev wG : List (Ref sig .tc) :=
  [main_c_13, main_v66, main_call3_call0_c, main_call3_call0_v0, main_v67, main_v68, main_v69, main_v70, main_c_14, main_v71, main_v72, main_c_15, main_v73, main_v74, main_v75, main_v76, main_v77]
theorem wG_sub : (opsG (F := Ideal)).Forall fun op => op.writes ⊆ (wG.map (Proc.devRef (τ := τ) .tc)).toFinset :=
  ⟨single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide), single_sub (by decide)⟩
theorem keepG (V : Val) {r : Ref sig .tc} (hr : r ∉ wG) :
    after (opsG (F := Ideal)) V (r : DevRef τ sig) = V (r : DevRef τ sig) :=
  after_of_writes_sub _ V wG_sub hr

/-- Stretch E whole keeps what neither of its two pieces writes. -/
theorem keepE (V : Val) {r : Ref sig .tc} (h0 : r ∉ wE0) (h1 : r ∉ wE1) :
    after (opsE1 (F := Ideal)) (after (opsE0 (F := Ideal)) V) (r : DevRef τ sig) = V (r : DevRef τ sig) :=
  (keepE1 _ h1).trans (keepE0 V h0)

/-! ## What each stretch computes -/

-- the whole-array operations stay folded: the readings never look inside them
attribute [local irreducible] Host.scatterAdd Host.gather Host.reduceWindow Host.rsqrt concatenate extractStridedSlice

/-- After stretch A the out-factor buffer holds the factor of the source list. -/
theorem readA_v12 (V : Val) :
    after (opsA (F := Ideal)) V (main_v12 : DevRef τ sig) = degInv (V (main_arg6 : DevRef τ sig)) := by
  after_results_simp
  rfl

/-- After stretch A the in-factor buffer holds the factor of the destination list. -/
theorem readA_v18 (V : Val) :
    after (opsA (F := Ideal)) V (main_v18 : DevRef τ sig) = degInv (V (main_arg7 : DevRef τ sig)) := by
  after_results_simp
  rfl

/-- The host's spelling of the first projection — the factor vector broadcast to a column, the column along the rows,
    multiplied in, then the plain dot product — is the matrix product of the row-scaled features. -/
theorem proj_eq (X : FVec Ideal S262144x512 .f32) (d : FVec Ideal S262144 .f32) (W : FVec Ideal S512x128 .f32) :
    Host.dotGeneral (F := Ideal) dot_S262144x512_S512x128_S262144x128_1_0_0_1_n_n none
        (mulf (F := Ideal) X (broadcastInDim S262144x512 ![0, 1] bcast_S262144x1_S262144x512_0_1
          (broadcastInDim S262144x1 ![0] bcast_S262144_S262144x1_0 d))) W
      = proj X (col d) W :=
  (congrArg (fun Y => Host.dotGeneral (F := Ideal) dot_S262144x512_S512x128_S262144x128_1_0_0_1_n_n none Y W)
      (hostScaleRows X d bcast_S262144_S262144x1_0 bcast_S262144x1_S262144x512_0_1)).trans
    (hostDot_eq_mm dot_S262144x512_S512x128_S262144x128_1_0_0_1_n_n rfl rfl rfl rfl rfl rfl none _ _)

/-- After stretch B its result buffer holds the first projection. -/
theorem readB (V : Val) :
    after (opsB (F := Ideal)) V (main_v22 : DevRef τ sig)
      = proj (V (main_arg0 : DevRef τ sig)) (col (V (main_v12 : DevRef τ sig))) (V (main_arg2 : DevRef τ sig)) := by
  after_results_simp
  exact proj_eq _ _ _

/-- After stretch C its result buffer holds the edge part of the first layer. -/
theorem readC (V : Val) :
    after (opsC (F := Ideal)) V (main_v41 : DevRef τ sig)
      = layerA (V (main_v22 : DevRef τ sig)) (V (main_arg6 : DevRef τ sig)) (V (main_arg7 : DevRef τ sig)) (V (main_arg1 : DevRef τ sig)) (V (main_v18 : DevRef τ sig)) (V (main_arg3 : DevRef τ sig)) := by
  after_results_simp
  rfl

/-- The maximum with a scalar zero broadcast to every entry is the rectification: the broadcast reads the scalar at
    every index, and the scalar's bits are those of zero. -/
theorem relu_eq {M N : ℕ} (X : FVec Ideal ⟨2, ![M, N]⟩ .f32) (h0 : (⟨0, ![]⟩ : Shape).BroadcastsInDim ⟨2, ![M, N]⟩ ![]) :
    maximumf (F := Ideal) X (broadcastInDim ⟨2, ![M, N]⟩ ![] h0 (constant (F := Ideal) ⟨0, ![]⟩ .f32 0x00000000#32)) = relu X := by
  funext i
  show max (X i) (broadcastInDim ⟨2, ![M, N]⟩ ![] h0 (constant (F := Ideal) ⟨0, ![]⟩ .f32 0x00000000#32) i) = max (X i) 0
  rw [broadcastInDim_apply ![] h0 _ i ix0 (fun a => a.elim0)]
  show max (X i) (Ideal.ofBits .f32 0x00000000#32) = _
  rw [Ideal.ofBits_zero_f32]

/-- The host's spelling of the second projection is the matrix product of the rectified, row-scaled array. -/
theorem projRelu_eq (X : FVec Ideal S262144x128 .f32) (d : FVec Ideal S262144 .f32) (W : FVec Ideal S128x16 .f32) :
    Host.dotGeneral (F := Ideal) dot_S262144x128_S128x16_S262144x16_1_0_0_1_n_n none
        (mulf (F := Ideal)
          (maximumf (F := Ideal) X (broadcastInDim S262144x128 ![] bcast_S_S262144x128 (constant (F := Ideal) S_ .f32 0x00000000#32)))
          (broadcastInDim S262144x128 ![0, 1] bcast_S262144x1_S262144x128_0_1
            (broadcastInDim S262144x1 ![0] bcast_S262144_S262144x1_0 d))) W
      = projRelu X (col d) W := by
  have h1 := relu_eq X bcast_S_S262144x128
  have h2 := hostScaleRows (relu X) d bcast_S262144_S262144x1_0 bcast_S262144x1_S262144x128_0_1
  have h3 := hostDot_eq_mm (φ₁ := .f32) (φ₂ := .f32) dot_S262144x128_S128x16_S262144x16_1_0_0_1_n_n rfl rfl rfl rfl rfl rfl none
    (scaleRows (relu X) (col d)) W
  rw [h1, h2]
  exact h3

/-- After stretch D its result buffer holds the second projection. -/
theorem readD (V : Val) :
    after (opsD (F := Ideal)) V (main_v46 : DevRef τ sig)
      = projRelu (V (main_v41 : DevRef τ sig)) (col (V (main_v12 : DevRef τ sig))) (V (main_arg4 : DevRef τ sig)) := by
  after_results_simp
  exact projRelu_eq _ _ _

/-- After stretch E its result buffer holds the edge part of the second layer. -/
theorem readE (V : Val) :
    after (opsE1 (F := Ideal)) (after (opsE0 (F := Ideal)) V) (main_v65 : DevRef τ sig)
      = layerB (V (main_v46 : DevRef τ sig)) (V (main_arg6 : DevRef τ sig)) (V (main_arg7 : DevRef τ sig)) (V (main_arg1 : DevRef τ sig)) (V (main_v18 : DevRef τ sig)) (V (main_arg5 : DevRef τ sig)) := by
  after_results_simp
  rfl

/-- After stretch G the result buffer holds the rows the graphs keep. -/
theorem readG (V : Val) :
    after (opsG (F := Ideal)) V (main_v77 : DevRef τ sig)
      = pick (V (main_v65 : DevRef τ sig)) (V (main_arg8 : DevRef τ sig)) (V (main_arg9 : DevRef τ sig)) := by
  after_results_simp
  rfl

/-! ## The whole line -/

/-- From any contents, after the whole line the result buffer holds the network of the ten argument buffers: the six
    readings composed, each stretch keeping what the later ones read. -/
theorem read_net (V : Val) :
    after (ops (F := Ideal)) V (main_v77 : DevRef τ sig)
      = net (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) := by
  simp only [ops, StableHlo.after_append]
  rw [readG,
    readE,
    keepE _ (r := main_arg8) (by decide) (by decide),
    keepE _ (r := main_arg9) (by decide) (by decide),
    readD,
    keepD _ (r := main_arg6) (by decide),
    keepD _ (r := main_arg7) (by decide),
    keepD _ (r := main_arg1) (by decide),
    keepD _ (r := main_v18) (by decide),
    keepD _ (r := main_arg5) (by decide),
    keepD _ (r := main_arg8) (by decide),
    keepD _ (r := main_arg9) (by decide),
    readC,
    keepC _ (r := main_v12) (by decide),
    keepC _ (r := main_arg4) (by decide),
    keepC _ (r := main_arg6) (by decide),
    keepC _ (r := main_arg7) (by decide),
    keepC _ (r := main_arg1) (by decide),
    keepC _ (r := main_v18) (by decide),
    keepC _ (r := main_arg5) (by decide),
    keepC _ (r := main_arg8) (by decide),
    keepC _ (r := main_arg9) (by decide),
    readB,
    keepB _ (r := main_arg6) (by decide),
    keepB _ (r := main_arg7) (by decide),
    keepB _ (r := main_arg1) (by decide),
    keepB _ (r := main_v18) (by decide),
    keepB _ (r := main_arg3) (by decide),
    keepB _ (r := main_v12) (by decide),
    keepB _ (r := main_arg4) (by decide),
    keepB _ (r := main_arg5) (by decide),
    keepB _ (r := main_arg8) (by decide),
    keepB _ (r := main_arg9) (by decide),
    readA_v12,
    readA_v18,
    keepA _ (r := main_arg0) (by decide),
    keepA _ (r := main_arg2) (by decide),
    keepA _ (r := main_arg6) (by decide),
    keepA _ (r := main_arg7) (by decide),
    keepA _ (r := main_arg1) (by decide),
    keepA _ (r := main_arg3) (by decide),
    keepA _ (r := main_arg4) (by decide),
    keepA _ (r := main_arg5) (by decide),
    keepA _ (r := main_arg8) (by decide),
    keepA _ (r := main_arg9) (by decide)]
  rfl

/-- The whole line keeps every buffer none of its stretches writes. -/
theorem keep_ops (V : Val) {r : Ref sig .tc} (hA : r ∉ wA) (hB : r ∉ wB) (hC : r ∉ wC) (hD : r ∉ wD) (hE0 : r ∉ wE0)
    (hE1 : r ∉ wE1) (hG : r ∉ wG) : after (ops (F := Ideal)) V (r : DevRef τ sig) = V (r : DevRef τ sig) := by
  simp only [ops, StableHlo.after_append]
  rw [keepG _ hG, keepE1 _ hE1, keepE0 _ hE0, keepD _ hD, keepC _ hC, keepB _ hB, keepA _ hA]

/-- On every device, from any memory with zero counters: every weakly fair execution of the reference terminates with
    the result buffer at the network of the ten arguments' launch contents, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v77)
        = net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v77).trans (read_net _),
      (h c main_arg0).trans (keep_ops _ (by decide) (by decide) (by decide) (by decide) (by decide) (by decide) (by decide)),
      (h c main_arg1).trans (keep_ops _ (by decide) (by decide) (by decide) (by decide) (by decide) (by decide) (by decide)),
      (h c main_arg2).trans (keep_ops _ (by decide) (by decide) (by decide) (by decide) (by decide) (by decide) (by decide)),
      (h c main_arg3).trans (keep_ops _ (by decide) (by decide) (by decide) (by decide) (by decide) (by decide) (by decide)),
      (h c main_arg4).trans (keep_ops _ (by decide) (by decide) (by decide) (by decide) (by decide) (by decide) (by decide)),
      (h c main_arg5).trans (keep_ops _ (by decide) (by decide) (by decide) (by decide) (by decide) (by decide) (by decide)),
      (h c main_arg6).trans (keep_ops _ (by decide) (by decide) (by decide) (by decide) (by decide) (by decide) (by decide)),
      (h c main_arg7).trans (keep_ops _ (by decide) (by decide) (by decide) (by decide) (by decide) (by decide) (by decide)),
      (h c main_arg8).trans (keep_ops _ (by decide) (by decide) (by decide) (by decide) (by decide) (by decide) (by decide)),
      (h c main_arg9).trans (keep_ops _ (by decide) (by decide) (by decide) (by decide) (by decide) (by decide) (by decide))⟩)
    (run_seq scopedRefs_eq scopedSems_eq defs main (fun _ => ops) main_eq (fun _ => ops_sub) m ρ)

end Cert.Gcn.Ref

end
-- ==== Proof.lean ====
/-
  A two-layer graph convolution with symmetric degree normalisation (2^18 nodes, 2^21 weighted edges, widths 512, 128
  and 16) followed by the selection of one node per graph: the kernel program against its plain reference, on the
  extended reals.

  Both programs compute, from the edge lists alone, a factor per node for its outgoing edges and one for its incoming
  edges; each layer scales the rows of its input by the out-factor, multiplies by the layer's weights, sends every
  source row along its edge times the edge weight, sums the rows arriving at each node, scales by the in-factor and
  adds the bias; the second layer rectifies its input first; the result keeps one row per graph.

  The kernel program does the two dense steps — scaling the rows and the matrix product, with the rectification in
  the second — in a pipelined region over 64 blocks of 4096 rows, the operands rounded to a shorter float format on
  the way into the matrix unit; the reference does them as whole-array operations.  On the extended reals a change of
  float format is the identity, a row of the product depends only on the same row of the scaled input, and the 64
  blocks tile the rows: so each region leaves in its output array the whole-array product (`proj`, `projRelu`), which
  is what the reference's broadcast, multiplication and dot product compute.  Everything else — the degree counts,
  the gathers and segment sums over the edges, the running totals of the graph sizes, the final selection — is the
  same chain of operations in both programs and is never opened.  No law that needs finite values is used, so the
  precondition is not read.

  Both runs end with the result at `Cert.Gcn.net` of the ten argument arrays (`Cert.Gcn.K.run`, `Cert.Gcn.Ref.run`).
-/
import proofs.«179616_j10333691314779_1_alg».proof.Defs
import proofs.«179616_j10333691314779_1_alg».proof.Proof.Gen.Kernel
import proofs.«179616_j10333691314779_1_alg».proof.Proof.Gen.Kernel.Frame
import proofs.«179616_j10333691314779_1_alg».proof.Proof.Gen.KernelIdeal
import proofs.«179616_j10333691314779_1_alg».proof.Proof.Gen.KernelIdeal.Frame
import proofs.«179616_j10333691314779_1_alg».proof.Proof.Gen.ReferenceIdeal
import proofs.«179616_j10333691314779_1_alg».proof.Proof.Gen.Pre_finite_inputs
import proofs.«179616_j10333691314779_1_alg».proof.Proof.KValue
import proofs.«179616_j10333691314779_1_alg».proof.Proof.RefRun

noncomputable section

namespace Cert.Proof

open Idealize.ShloMosaic Idealize.SL.Sem

/-- The kernel program as printed terminates without a fault and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run with the result dropped. -/
theorem frame_referenceIdeal : Cert.frame_ReferenceIdeal := fun m ρ _ =>
  (θ_run Cert.ReferenceIdeal.defs _ _).mono (fun _ h c => (h c).2) (Cert.Gcn.Ref.run m ρ)

/-- The idealization rewrote no operation. -/
theorem preserves : Cert.preserves_Kernel_KernelIdeal := trivial

/-- From memories agreeing on the arguments both programs end with the result at `net` of the arguments. -/
theorem algebraic : Cert.algebraic_KernelIdeal_ReferenceIdeal := by
  intro m ρ m' ρ' _ hagree
  refine ⟨fun c => Cert.Gcn.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), Cert.Gcn.K.run m ρ, ?_⟩
  refine (θ_run Cert.ReferenceIdeal.defs _ _).mono (fun _ h c => ⟨(h c).1.trans ?_, (h c).2⟩) (Cert.Gcn.Ref.run m' ρ')
  obtain ⟨h0, h1, h2, h3, h4, h5, h6, h7, h8, h9⟩ := hagree c
  rw [h0, h1, h2, h3, h4, h5, h6, h7, h8, h9]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
